-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x64x100 : Shape := ⟨3, ![4096, 64, 100]⟩
abbrev S64x512 : Shape := ⟨2, ![64, 512]⟩
abbrev S64 : Shape := ⟨1, ![64]⟩
abbrev S2080x512 : Shape := ⟨2, ![2080, 512]⟩
abbrev S2080 : Shape := ⟨1, ![2080]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x64x100 : S_.BroadcastsInDim S4096x64x100 (![] : Fin 0 → Fin S4096x64x100.rank)
  reducesTo_S4096x64x100_S_d0_1_2 : S4096x64x100.ReducesTo [0, 1, 2] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S2080x512 : S_.BroadcastsInDim S2080x512 (![] : Fin 0 → Fin S2080x512.rank)
  reducesTo_S2080x512_S_d0_1 : S2080x512.ReducesTo [0, 1] S_
  bcast_S_S2080 : S_.BroadcastsInDim S2080 (![] : Fin 0 → Fin S2080.rank)
  reducesTo_S2080_S_d0 : S2080.ReducesTo [0] S_

variable [Facts]

def fn_part1 {F : FTy → Type} [FloatOps F] (main_arg4 : FVec F S2080x512 .f32) (main_arg5 : FVec F S2080 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2080x512 .f32 := Host.absf main_arg4
  let main_cst_6 : FVec F S_ .f32 := constant S_ .f32 0x7F800000#32
  let main_v20 : FVec F S2080x512 .f32 := broadcastInDim S2080x512 ![] bcast_S_S2080x512 main_cst_6
  let main_v21 : IVec S2080x512 1 := cmpf .olt main_v19 main_v20
  let main_c_7 : IVec S_ 1 := constantI S_ 1 1#1
  let main_v22 : IVec S_ 1 := (fun x v => Host.reduce IntOp.andi x v reducesTo_S2080x512_S_d0_1 h_S_) main_v21 main_c_7
  let main_v23 : IVec S_ 1 := andi main_v18 main_v22
  let main_v24 : FVec F S2080 .f32 := Host.absf main_arg5
  let main_cst_8 : FVec F S_ .f32 := constant S_ .f32 0x7F800000#32
  let main_v25 : FVec F S2080 .f32 := broadcastInDim S2080 ![] bcast_S_S2080 main_cst_8
  let main_v26 : IVec S2080 1 := cmpf .olt main_v24 main_v25
  let main_c_9 : IVec S_ 1 := constantI S_ 1 1#1
  let main_v27 : IVec S_ 1 := (fun x v => Host.reduce IntOp.andi x v reducesTo_S2080_S_d0 h_S_) main_v26 main_c_9
  let main_v28 : IVec S_ 1 := andi main_v23 main_v27
  main_v28

def fn {F : FTy → Type} [FloatOps F] (main_arg0 : FVec F S4096x512 .f32) (main_arg1 : FVec F S4096x64x100 .f32) (main_arg2 : FVec F S64x512 .f32) (main_arg3 : FVec F S64 .f32) (main_arg4 : FVec F S2080x512 .f32) (main_arg5 : FVec F S2080 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x64x100 .f32 := Host.absf main_arg1
  let main_cst_0 : FVec F S_ .f32 := constant S_ .f32 0x7F800000#32
  let main_v5 : FVec F S4096x64x100 .f32 := broadcastInDim S4096x64x100 ![] bcast_S_S4096x64x100 main_cst_0
  let main_v6 : IVec S4096x64x100 1 := cmpf .olt main_v4 main_v5
  let main_c_1 : IVec S_ 1 := constantI S_ 1 1#1
  let main_v7 : IVec S_ 1 := (fun x v => Host.reduce IntOp.andi x v reducesTo_S4096x64x100_S_d0_1_2 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S4096x512 : Shape := ⟨2, ![4096, 512]⟩
abbrev S4096x64x100 : Shape := ⟨3, ![4096, 64, 100]⟩
abbrev S64x512 : Shape := ⟨2, ![64, 512]⟩
abbrev S64 : Shape := ⟨1, ![64]⟩
abbrev S2080x512 : Shape := ⟨2, ![2080, 512]⟩
abbrev S2080 : Shape := ⟨1, ![2080]⟩
abbrev S2144x512 : Shape := ⟨2, ![2144, 512]⟩
abbrev S2144 : Shape := ⟨1, ![2144]⟩
abbrev S1x2144 : Shape := ⟨2, ![1, 2144]⟩
abbrev S128x512 : Shape := ⟨2, ![128, 512]⟩
abbrev S128x64x100 : Shape := ⟨3, ![128, 64, 100]⟩
abbrev S128x64x64 : Shape := ⟨3, ![128, 64, 64]⟩
abbrev S128x2144 : Shape := ⟨2, ![128, 2144]⟩
abbrev S128x64 : Shape := ⟨2, ![128, 64]⟩
abbrev S128x2080 : Shape := ⟨2, ![128, 2080]⟩
abbrev S128x1 : Shape := ⟨2, ![128, 1]⟩
abbrev S128 : Shape := ⟨1, ![128]⟩
abbrev S128x1x1 : Shape := ⟨3, ![128, 1, 1]⟩
abbrev S128x2 : Shape := ⟨2, ![128, 2]⟩
abbrev S128x1x2 : Shape := ⟨3, ![128, 1, 2]⟩
abbrev S128x3 : Shape := ⟨2, ![128, 3]⟩
abbrev S128x1x3 : Shape := ⟨3, ![128, 1, 3]⟩
abbrev S128x4 : Shape := ⟨2, ![128, 4]⟩
abbrev S128x1x4 : Shape := ⟨3, ![128, 1, 4]⟩
abbrev S128x5 : Shape := ⟨2, ![128, 5]⟩
abbrev S128x1x5 : Shape := ⟨3, ![128, 1, 5]⟩
abbrev S128x6 : Shape := ⟨2, ![128, 6]⟩
abbrev S128x1x6 : Shape := ⟨3, ![128, 1, 6]⟩
abbrev S128x7 : Shape := ⟨2, ![128, 7]⟩
abbrev S128x1x7 : Shape := ⟨3, ![128, 1, 7]⟩
abbrev S128x8 : Shape := ⟨2, ![128, 8]⟩
abbrev S128x1x8 : Shape := ⟨3, ![128, 1, 8]⟩
abbrev S128x9 : Shape := ⟨2, ![128, 9]⟩
abbrev S128x1x9 : Shape := ⟨3, ![128, 1, 9]⟩
abbrev S128x10 : Shape := ⟨2, ![128, 10]⟩
abbrev S128x1x10 : Shape := ⟨3, ![128, 1, 10]⟩
abbrev S128x11 : Shape := ⟨2, ![128, 11]⟩
abbrev S128x1x11 : Shape := ⟨3, ![128, 1, 11]⟩
abbrev S128x12 : Shape := ⟨2, ![128, 12]⟩
abbrev S128x1x12 : Shape := ⟨3, ![128, 1, 12]⟩
abbrev S128x13 : Shape := ⟨2, ![128, 13]⟩
abbrev S128x1x13 : Shape := ⟨3, ![128, 1, 13]⟩
abbrev S128x14 : Shape := ⟨2, ![128, 14]⟩
abbrev S128x1x14 : Shape := ⟨3, ![128, 1, 14]⟩
abbrev S128x15 : Shape := ⟨2, ![128, 15]⟩
abbrev S128x1x15 : Shape := ⟨3, ![128, 1, 15]⟩
abbrev S128x16 : Shape := ⟨2, ![128, 16]⟩
abbrev S128x1x16 : Shape := ⟨3, ![128, 1, 16]⟩
abbrev S128x17 : Shape := ⟨2, ![128, 17]⟩
abbrev S128x1x17 : Shape := ⟨3, ![128, 1, 17]⟩
abbrev S128x18 : Shape := ⟨2, ![128, 18]⟩
abbrev S128x1x18 : Shape := ⟨3, ![128, 1, 18]⟩
abbrev S128x19 : Shape := ⟨2, ![128, 19]⟩
abbrev S128x1x19 : Shape := ⟨3, ![128, 1, 19]⟩
abbrev S128x20 : Shape := ⟨2, ![128, 20]⟩
abbrev S128x1x20 : Shape := ⟨3, ![128, 1, 20]⟩
abbrev S128x21 : Shape := ⟨2, ![128, 21]⟩
abbrev S128x1x21 : Shape := ⟨3, ![128, 1, 21]⟩
abbrev S128x22 : Shape := ⟨2, ![128, 22]⟩
abbrev S128x1x22 : Shape := ⟨3, ![128, 1, 22]⟩
abbrev S128x23 : Shape := ⟨2, ![128, 23]⟩
abbrev S128x1x23 : Shape := ⟨3, ![128, 1, 23]⟩
abbrev S128x24 : Shape := ⟨2, ![128, 24]⟩
abbrev S128x1x24 : Shape := ⟨3, ![128, 1, 24]⟩
abbrev S128x25 : Shape := ⟨2, ![128, 25]⟩
abbrev S128x1x25 : Shape := ⟨3, ![128, 1, 25]⟩
abbrev S128x26 : Shape := ⟨2, ![128, 26]⟩
abbrev S128x1x26 : Shape := ⟨3, ![128, 1, 26]⟩
abbrev S128x27 : Shape := ⟨2, ![128, 27]⟩
abbrev S128x1x27 : Shape := ⟨3, ![128, 1, 27]⟩
abbrev S128x28 : Shape := ⟨2, ![128, 28]⟩
abbrev S128x1x28 : Shape := ⟨3, ![128, 1, 28]⟩
abbrev S128x29 : Shape := ⟨2, ![128, 29]⟩
abbrev S128x1x29 : Shape := ⟨3, ![128, 1, 29]⟩
abbrev S128x30 : Shape := ⟨2, ![128, 30]⟩
abbrev S128x1x30 : Shape := ⟨3, ![128, 1, 30]⟩
abbrev S128x31 : Shape := ⟨2, ![128, 31]⟩
abbrev S128x1x31 : Shape := ⟨3, ![128, 1, 31]⟩
abbrev S128x32 : Shape := ⟨2, ![128, 32]⟩
abbrev S128x1x32 : Shape := ⟨3, ![128, 1, 32]⟩
abbrev S128x33 : Shape := ⟨2, ![128, 33]⟩
abbrev S128x1x33 : Shape := ⟨3, ![128, 1, 33]⟩
abbrev S128x34 : Shape := ⟨2, ![128, 34]⟩
abbrev S128x1x34 : Shape := ⟨3, ![128, 1, 34]⟩
abbrev S128x35 : Shape := ⟨2, ![128, 35]⟩
abbrev S128x1x35 : Shape := ⟨3, ![128, 1, 35]⟩
abbrev S128x36 : Shape := ⟨2, ![128, 36]⟩
abbrev S128x1x36 : Shape := ⟨3, ![128, 1, 36]⟩
abbrev S128x37 : Shape := ⟨2, ![128, 37]⟩
abbrev S128x1x37 : Shape := ⟨3, ![128, 1, 37]⟩
abbrev S128x38 : Shape := ⟨2, ![128, 38]⟩
abbrev S128x1x38 : Shape := ⟨3, ![128, 1, 38]⟩
abbrev S128x39 : Shape := ⟨2, ![128, 39]⟩
abbrev S128x1x39 : Shape := ⟨3, ![128, 1, 39]⟩
abbrev S128x40 : Shape := ⟨2, ![128, 40]⟩
abbrev S128x1x40 : Shape := ⟨3, ![128, 1, 40]⟩
abbrev S128x41 : Shape := ⟨2, ![128, 41]⟩
abbrev S128x1x41 : Shape := ⟨3, ![128, 1, 41]⟩
abbrev S128x42 : Shape := ⟨2, ![128, 42]⟩
abbrev S128x1x42 : Shape := ⟨3, ![128, 1, 42]⟩
abbrev S128x43 : Shape := ⟨2, ![128, 43]⟩
abbrev S128x1x43 : Shape := ⟨3, ![128, 1, 43]⟩
abbrev S128x44 : Shape := ⟨2, ![128, 44]⟩
abbrev S128x1x44 : Shape := ⟨3, ![128, 1, 44]⟩
abbrev S128x45 : Shape := ⟨2, ![128, 45]⟩
abbrev S128x1x45 : Shape := ⟨3, ![128, 1, 45]⟩
abbrev S128x46 : Shape := ⟨2, ![128, 46]⟩
abbrev S128x1x46 : Shape := ⟨3, ![128, 1, 46]⟩
abbrev S128x47 : Shape := ⟨2, ![128, 47]⟩
abbrev S128x1x47 : Shape := ⟨3, ![128, 1, 47]⟩
abbrev S128x48 : Shape := ⟨2, ![128, 48]⟩
abbrev S128x1x48 : Shape := ⟨3, ![128, 1, 48]⟩
abbrev S128x49 : Shape := ⟨2, ![128, 49]⟩
abbrev S128x1x49 : Shape := ⟨3, ![128, 1, 49]⟩
abbrev S128x50 : Shape := ⟨2, ![128, 50]⟩
abbrev S128x1x50 : Shape := ⟨3, ![128, 1, 50]⟩
abbrev S128x51 : Shape := ⟨2, ![128, 51]⟩
abbrev S128x1x51 : Shape := ⟨3, ![128, 1, 51]⟩
abbrev S128x52 : Shape := ⟨2, ![128, 52]⟩
abbrev S128x1x52 : Shape := ⟨3, ![128, 1, 52]⟩
abbrev S128x53 : Shape := ⟨2, ![128, 53]⟩
abbrev S128x1x53 : Shape := ⟨3, ![128, 1, 53]⟩
abbrev S128x54 : Shape := ⟨2, ![128, 54]⟩
abbrev S128x1x54 : Shape := ⟨3, ![128, 1, 54]⟩
abbrev S128x55 : Shape := ⟨2, ![128, 55]⟩
abbrev S128x1x55 : Shape := ⟨3, ![128, 1, 55]⟩
abbrev S128x56 : Shape := ⟨2, ![128, 56]⟩
abbrev S128x1x56 : Shape := ⟨3, ![128, 1, 56]⟩
abbrev S128x57 : Shape := ⟨2, ![128, 57]⟩
abbrev S128x1x57 : Shape := ⟨3, ![128, 1, 57]⟩
abbrev S128x58 : Shape := ⟨2, ![128, 58]⟩
abbrev S128x1x58 : Shape := ⟨3, ![128, 1, 58]⟩
abbrev S128x59 : Shape := ⟨2, ![128, 59]⟩
abbrev S128x1x59 : Shape := ⟨3, ![128, 1, 59]⟩
abbrev S128x60 : Shape := ⟨2, ![128, 60]⟩
abbrev S128x1x60 : Shape := ⟨3, ![128, 1, 60]⟩
abbrev S128x61 : Shape := ⟨2, ![128, 61]⟩
abbrev S128x1x61 : Shape := ⟨3, ![128, 1, 61]⟩
abbrev S128x62 : Shape := ⟨2, ![128, 62]⟩
abbrev S128x1x62 : Shape := ⟨3, ![128, 1, 62]⟩
abbrev S128x63 : Shape := ⟨2, ![128, 63]⟩
abbrev S128x1x63 : Shape := ⟨3, ![128, 1, 63]⟩
abbrev S128x1x64 : Shape := ⟨3, ![128, 1, 64]⟩
abbrev S128x64x1 : Shape := ⟨3, ![128, 64, 1]⟩

abbrev nBuf : Space → Nat
  | .hbm => 11
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x64x100, .f32⟩
  | .hbm, ⟨2, _⟩ => ⟨S64x512, .f32⟩
  | .hbm, ⟨3, _⟩ => ⟨S64, .f32⟩
  | .hbm, ⟨4, _⟩ => ⟨S2080x512, .f32⟩
  | .hbm, ⟨5, _⟩ => ⟨S2080, .f32⟩
  | .hbm, ⟨6, _⟩ => ⟨S2144x512, .f32⟩
  | .hbm, ⟨7, _⟩ => ⟨S2144x512, .bf16⟩
  | .hbm, ⟨8, _⟩ => ⟨S2144, .f32⟩
  | .hbm, ⟨9, _⟩ => ⟨S1x2144, .f32⟩
  | .hbm, ⟨10, _⟩ => ⟨S4096x64x100, .f32⟩
  | .local _ .vmem, ⟨0, _⟩ => ⟨S128x512, .f32⟩
  | .local _ .vmem, ⟨1, _⟩ => ⟨S128x512, .f32⟩
  | .local _ .vmem, ⟨2, _⟩ => ⟨S2144x512, .bf16⟩
  | .local _ .vmem, ⟨3, _⟩ => ⟨S1x2144, .f32⟩
  | .local _ .vmem, ⟨4, _⟩ => ⟨S128x64x100, .f32⟩
  | .local _ .vmem, ⟨5, _⟩ => ⟨S128x64x100, .f32⟩
  | .local _ .vmem, ⟨6, _⟩ => ⟨S128x64x100, .f32⟩
  | .local _ .vmem, ⟨7, _⟩ => ⟨S128x64x100, .f32⟩
  | .local _ .vmem, ⟨8, _⟩ => ⟨S128x64x64, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2144x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x64x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x64x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S64x512_S2080x512_S2144x512_d0 : Shape.Concatenates [S64x512, S2080x512] S2144x512 0
  bitsLt_bf16_f32 : FTy.bits .bf16 < FTy.bits .f32
  concatenates_S64_S2080_S2144_d0 : Shape.Concatenates [S64, S2080] S2144 0
  shapeCasts_S2144_S1x2144 : S2144.ShapeCasts S1x2144
  inb_S128x512_S128x512_0_0 : ∀ a, (![0, 0] : Fin 2 → Nat) a + S128x512.size a ≤ S128x512.size a
  h_S128x512 : 0 < S128x512.numel
  inb_S2144x512_S2144x512_0_0 : ∀ a, (![0, 0] : Fin 2 → Nat) a + S2144x512.size a ≤ S2144x512.size a
  h_S2144x512 : 0 < S2144x512.numel
  shapeCasts_S2144x512_S2144x512 : S2144x512.ShapeCasts S2144x512
  inb_S1x2144_S1x2144_0_0 : ∀ a, (![0, 0] : Fin 2 → Nat) a + S1x2144.size a ≤ S1x2144.size a
  h_S1x2144 : 0 < S1x2144.numel
  shapeCasts_S1x2144_S1x2144 : S1x2144.ShapeCasts S1x2144
  broadcasts_S1x2144_S128x2144 : S1x2144.Broadcasts S128x2144
  slices_S128x2144_o0_0_S128x64 : S128x2144.Slices ![0, 0] S128x64
  slices_S128x2144_o0_64_S128x2080 : S128x2144.Slices ![0, 64] S128x2080
  inb_S128x64x64_S128x64x64_0_0_0 : ∀ a, (![0, 0, 0] : Fin 3 → Nat) a + S128x64x64.size a ≤ S128x64x64.size a
  h_S128x64x64 : 0 < S128x64x64.numel
  shapeCasts_S128x64x64_S128x64x64 : S128x64x64.ShapeCasts S128x64x64
  slices_S128x2080_o0_0_S128x1 : S128x2080.Slices ![0, 0] S128x1
  iota_S128x1_d1_w32 : S128x1.Iotas .tc 32 [1]
  shapeCasts_S128x1_S128 : S128x1.ShapeCasts S128
  shapeCasts_S128_S128x1 : S128.ShapeCasts S128x1
  inb_S128x64x64_S128x1x1_0_0_0 : ∀ a, (![0, 0, 0] : Fin 3 → Nat) a + S128x1x1.size a ≤ S128x64x64.size a
  h_S128x1x1 : 0 < S128x1x1.numel
  shapeCasts_S128x1x1_S128x1 : S128x1x1.ShapeCasts S128x1
  shapeCasts_S128x1_S128x1x1 : S128x1.ShapeCasts S128x1x1
  slices_S128x2080_o0_1_S128x2 : S128x2080.Slices ![0, 1] S128x2
  iota_S128x2_d1_w32 : S128x2.Iotas .tc 32 [1]
  slices_S128x2_o0_1_S128x1 : S128x2.Slices ![0, 1] S128x1
  shapeCasts_S128x1_S128x1 : S128x1.ShapeCasts S128x1
  broadcasts_S128x1_S128x2 : S128x1.Broadcasts S128x2
  inb_S128x64x64_S128x1x2_0_1_0 : ∀ a, (![0, 1, 0] : Fin 3 → Nat) a + S128x1x2.size a ≤ S128x64x64.size a
  h_S128x1x2 : 0 < S128x1x2.numel
  shapeCasts_S128x1x2_S128x2 : S128x1x2.ShapeCasts S128x2
  shapeCasts_S128x2_S128x1x2 : S128x2.ShapeCasts S128x1x2
  slices_S128x2080_o0_3_S128x3 : S128x2080.Slices ![0, 3] S128x3
  iota_S128x3_d1_w32 : S128x3.Iotas .tc 32 [1]
  slices_S128x3_o0_2_S128x1 : S128x3.Slices ![0, 2] S128x1
  broadcasts_S128x1_S128x3 : S128x1.Broadcasts S128x3
  inb_S128x64x64_S128x1x3_0_2_0 : ∀ a, (![0, 2, 0] : Fin 3 → Nat) a + S128x1x3.size a ≤ S128x64x64.size a
  h_S128x1x3 : 0 < S128x1x3.numel
  shapeCasts_S128x1x3_S128x3 : S128x1x3.ShapeCasts S128x3
  shapeCasts_S128x3_S128x1x3 : S128x3.ShapeCasts S128x1x3
  slices_S128x2080_o0_6_S128x4 : S128x2080.Slices ![0, 6] S128x4
  iota_S128x4_d1_w32 : S128x4.Iotas .tc 32 [1]
  slices_S128x4_o0_3_S128x1 : S128x4.Slices ![0, 3] S128x1
  broadcasts_S128x1_S128x4 : S128x1.Broadcasts S128x4
  inb_S128x64x64_S128x1x4_0_3_0 : ∀ a, (![0, 3, 0] : Fin 3 → Nat) a + S128x1x4.size a ≤ S128x64x64.size a
  h_S128x1x4 : 0 < S128x1x4.numel
  shapeCasts_S128x1x4_S128x4 : S128x1x4.ShapeCasts S128x4
  shapeCasts_S128x4_S128x1x4 : S128x4.ShapeCasts S128x1x4
  slices_S128x2080_o0_10_S128x5 : S128x2080.Slices ![0, 10] S128x5
  iota_S128x5_d1_w32 : S128x5.Iotas .tc 32 [1]
  slices_S128x5_o0_4_S128x1 : S128x5.Slices ![0, 4] S128x1
  broadcasts_S128x1_S128x5 : S128x1.Broadcasts S128x5
  inb_S128x64x64_S128x1x5_0_4_0 : ∀ a, (![0, 4, 0] : Fin 3 → Nat) a + S128x1x5.size a ≤ S128x64x64.size a
  h_S128x1x5 : 0 < S128x1x5.numel
  shapeCasts_S128x1x5_S128x5 : S128x1x5.ShapeCasts S128x5
  shapeCasts_S128x5_S128x1x5 : S128x5.ShapeCasts S128x1x5
  slices_S128x2080_o0_15_S128x6 : S128x2080.Slices ![0, 15] S128x6
  iota_S128x6_d1_w32 : S128x6.Iotas .tc 32 [1]
  slices_S128x6_o0_5_S128x1 : S128x6.Slices ![0, 5] S128x1
  broadcasts_S128x1_S128x6 : S128x1.Broadcasts S128x6
  inb_S128x64x64_S128x1x6_0_5_0 : ∀ a, (![0, 5, 0] : Fin 3 → Nat) a + S128x1x6.size a ≤ S128x64x64.size a
  h_S128x1x6 : 0 < S128x1x6.numel
  shapeCasts_S128x1x6_S128x6 : S128x1x6.ShapeCasts S128x6
  shapeCasts_S128x6_S128x1x6 : S128x6.ShapeCasts S128x1x6
  slices_S128x2080_o0_21_S128x7 : S128x2080.Slices ![0, 21] S128x7
  iota_S128x7_d1_w32 : S128x7.Iotas .tc 32 [1]
  slices_S128x7_o0_6_S128x1 : S128x7.Slices ![0, 6] S128x1
  broadcasts_S128x1_S128x7 : S128x1.Broadcasts S128x7
  inb_S128x64x64_S128x1x7_0_6_0 : ∀ a, (![0, 6, 0] : Fin 3 → Nat) a + S128x1x7.size a ≤ S128x64x64.size a
  h_S128x1x7 : 0 < S128x1x7.numel
  shapeCasts_S128x1x7_S128x7 : S128x1x7.ShapeCasts S128x7
  shapeCasts_S128x7_S128x1x7 : S128x7.ShapeCasts S128x1x7
  slices_S128x2080_o0_28_S128x8 : S128x2080.Slices ![0, 28] S128x8
  iota_S128x8_d1_w32 : S128x8.Iotas .tc 32 [1]
  slices_S128x8_o0_7_S128x1 : S128x8.Slices ![0, 7] S128x1
  broadcasts_S128x1_S128x8 : S128x1.Broadcasts S128x8
  inb_S128x64x64_S128x1x8_0_7_0 : ∀ a, (![0, 7, 0] : Fin 3 → Nat) a + S128x1x8.size a ≤ S128x64x64.size a
  h_S128x1x8 : 0 < S128x1x8.numel
  shapeCasts_S128x1x8_S128x8 : S128x1x8.ShapeCasts S128x8
  shapeCasts_S128x8_S128x1x8 : S128x8.ShapeCasts S128x1x8
  slices_S128x2080_o0_36_S128x9 : S128x2080.Slices ![0, 36] S128x9
  iota_S128x9_d1_w32 : S128x9.Iotas .tc 32 [1]
  slices_S128x9_o0_8_S128x1 : S128x9.Slices ![0, 8] S128x1
  broadcasts_S128x1_S128x9 : S128x1.Broadcasts S128x9
  inb_S128x64x64_S128x1x9_0_8_0 : ∀ a, (![0, 8, 0] : Fin 3 → Nat) a + S128x1x9.size a ≤ S128x64x64.size a
  h_S128x1x9 : 0 < S128x1x9.numel
  shapeCasts_S128x1x9_S128x9 : S128x1x9.ShapeCasts S128x9
  shapeCasts_S128x9_S128x1x9 : S128x9.ShapeCasts S128x1x9
  slices_S128x2080_o0_45_S128x10 : S128x2080.Slices ![0, 45] S128x10
  iota_S128x10_d1_w32 : S128x10.Iotas .tc 32 [1]
  slices_S128x10_o0_9_S128x1 : S128x10.Slices ![0, 9] S128x1
  broadcasts_S128x1_S128x10 : S128x1.Broadcasts S128x10
  inb_S128x64x64_S128x1x10_0_9_0 : ∀ a, (![0, 9, 0] : Fin 3 → Nat) a + S128x1x10.size a ≤ S128x64x64.size a
  h_S128x1x10 : 0 < S128x1x10.numel
  shapeCasts_S128x1x10_S128x10 : S128x1x10.ShapeCasts S128x10
  shapeCasts_S128x10_S128x1x10 : S128x10.ShapeCasts S128x1x10
  slices_S128x2080_o0_55_S128x11 : S128x2080.Slices ![0, 55] S128x11
  iota_S128x11_d1_w32 : S128x11.Iotas .tc 32 [1]
  slices_S128x11_o0_10_S128x1 : S128x11.Slices ![0, 10] S128x1
  broadcasts_S128x1_S128x11 : S128x1.Broadcasts S128x11
  inb_S128x64x64_S128x1x11_0_10_0 : ∀ a, (![0, 10, 0] : Fin 3 → Nat) a + S128x1x11.size a ≤ S128x64x64.size a
  h_S128x1x11 : 0 < S128x1x11.numel
  shapeCasts_S128x1x11_S128x11 : S128x1x11.ShapeCasts S128x11
  shapeCasts_S128x11_S128x1x11 : S128x11.ShapeCasts S128x1x11
  slices_S128x2080_o0_66_S128x12 : S128x2080.Slices ![0, 66] S128x12
  iota_S128x12_d1_w32 : S128x12.Iotas .tc 32 [1]
  slices_S128x12_o0_11_S128x1 : S128x12.Slices ![0, 11] S128x1
  broadcasts_S128x1_S128x12 : S128x1.Broadcasts S128x12
  inb_S128x64x64_S128x1x12_0_11_0 : ∀ a, (![0, 11, 0] : Fin 3 → Nat) a + S128x1x12.size a ≤ S128x64x64.size a
  h_S128x1x12 : 0 < S128x1x12.numel
  shapeCasts_S128x1x12_S128x12 : S128x1x12.ShapeCasts S128x12
  shapeCasts_S128x12_S128x1x12 : S128x12.ShapeCasts S128x1x12
  slices_S128x2080_o0_78_S128x13 : S128x2080.Slices ![0, 78] S128x13
  iota_S128x13_d1_w32 : S128x13.Iotas .tc 32 [1]
  slices_S128x13_o0_12_S128x1 : S128x13.Slices ![0, 12] S128x1
  broadcasts_S128x1_S128x13 : S128x1.Broadcasts S128x13
  inb_S128x64x64_S128x1x13_0_12_0 : ∀ a, (![0, 12, 0] : Fin 3 → Nat) a + S128x1x13.size a ≤ S128x64x64.size a
  h_S128x1x13 : 0 < S128x1x13.numel
  shapeCasts_S128x1x13_S128x13 : S128x1x13.ShapeCasts S128x13
  shapeCasts_S128x13_S128x1x13 : S128x13.ShapeCasts S128x1x13
  slices_S128x2080_o0_91_S128x14 : S128x2080.Slices ![0, 91] S128x14
  iota_S128x14_d1_w32 : S128x14.Iotas .tc 32 [1]
  slices_S128x14_o0_13_S128x1 : S128x14.Slices ![0, 13] S128x1
  broadcasts_S128x1_S128x14 : S128x1.Broadcasts S128x14
  inb_S128x64x64_S128x1x14_0_13_0 : ∀ a, (![0, 13, 0] : Fin 3 → Nat) a + S128x1x14.size a ≤ S128x64x64.size a
  h_S128x1x14 : 0 < S128x1x14.numel
  shapeCasts_S128x1x14_S128x14 : S128x1x14.ShapeCasts S128x14
  shapeCasts_S128x14_S128x1x14 : S128x14.ShapeCasts S128x1x14
  slices_S128x2080_o0_105_S128x15 : S128x2080.Slices ![0, 105] S128x15
  iota_S128x15_d1_w32 : S128x15.Iotas .tc 32 [1]
  slices_S128x15_o0_14_S128x1 : S128x15.Slices ![0, 14] S128x1
  broadcasts_S128x1_S128x15 : S128x1.Broadcasts S128x15
  inb_S128x64x64_S128x1x15_0_14_0 : ∀ a, (![0, 14, 0] : Fin 3 → Nat) a + S128x1x15.size a ≤ S128x64x64.size a
  h_S128x1x15 : 0 < S128x1x15.numel
  shapeCasts_S128x1x15_S128x15 : S128x1x15.ShapeCasts S128x15
  shapeCasts_S128x15_S128x1x15 : S128x15.ShapeCasts S128x1x15
  slices_S128x2080_o0_120_S128x16 : S128x2080.Slices ![0, 120] S128x16
  iota_S128x16_d1_w32 : S128x16.Iotas .tc 32 [1]
  slices_S128x16_o0_15_S128x1 : S128x16.Slices ![0, 15] S128x1
  broadcasts_S128x1_S128x16 : S128x1.Broadcasts S128x16
  inb_S128x64x64_S128x1x16_0_15_0 : ∀ a, (![0, 15, 0] : Fin 3 → Nat) a + S128x1x16.size a ≤ S128x64x64.size a
  h_S128x1x16 : 0 < S128x1x16.numel
  shapeCasts_S128x1x16_S128x16 : S128x1x16.ShapeCasts S128x16
  shapeCasts_S128x16_S128x1x16 : S128x16.ShapeCasts S128x1x16
  slices_S128x2080_o0_136_S128x17 : S128x2080.Slices ![0, 136] S128x17
  iota_S128x17_d1_w32 : S128x17.Iotas .tc 32 [1]
  slices_S128x17_o0_16_S128x1 : S128x17.Slices ![0, 16] S128x1
  broadcasts_S128x1_S128x17 : S128x1.Broadcasts S128x17
  inb_S128x64x64_S128x1x17_0_16_0 : ∀ a, (![0, 16, 0] : Fin 3 → Nat) a + S128x1x17.size a ≤ S128x64x64.size a
  h_S128x1x17 : 0 < S128x1x17.numel
  shapeCasts_S128x1x17_S128x17 : S128x1x17.ShapeCasts S128x17
  shapeCasts_S128x17_S128x1x17 : S128x17.ShapeCasts S128x1x17
  slices_S128x2080_o0_153_S128x18 : S128x2080.Slices ![0, 153] S128x18
  iota_S128x18_d1_w32 : S128x18.Iotas .tc 32 [1]
  slices_S128x18_o0_17_S128x1 : S128x18.Slices ![0, 17] S128x1
  broadcasts_S128x1_S128x18 : S128x1.Broadcasts S128x18
  inb_S128x64x64_S128x1x18_0_17_0 : ∀ a, (![0, 17, 0] : Fin 3 → Nat) a + S128x1x18.size a ≤ S128x64x64.size a
  h_S128x1x18 : 0 < S128x1x18.numel
  shapeCasts_S128x1x18_S128x18 : S128x1x18.ShapeCasts S128x18
  shapeCasts_S128x18_S128x1x18 : S128x18.ShapeCasts S128x1x18
  slices_S128x2080_o0_171_S128x19 : S128x2080.Slices ![0, 171] S128x19
  iota_S128x19_d1_w32 : S128x19.Iotas .tc 32 [1]
  slices_S128x19_o0_18_S128x1 : S128x19.Slices ![0, 18] S128x1
  broadcasts_S128x1_S128x19 : S128x1.Broadcasts S128x19
  inb_S128x64x64_S128x1x19_0_18_0 : ∀ a, (![0, 18, 0] : Fin 3 → Nat) a + S128x1x19.size a ≤ S128x64x64.size a
  h_S128x1x19 : 0 < S128x1x19.numel
  shapeCasts_S128x1x19_S128x19 : S128x1x19.ShapeCasts S128x19
  shapeCasts_S128x19_S128x1x19 : S128x19.ShapeCasts S128x1x19
  slices_S128x2080_o0_190_S128x20 : S128x2080.Slices ![0, 190] S128x20
  iota_S128x20_d1_w32 : S128x20.Iotas .tc 32 [1]
  slices_S128x20_o0_19_S128x1 : S128x20.Slices ![0, 19] S128x1
  broadcasts_S128x1_S128x20 : S128x1.Broadcasts S128x20
  inb_S128x64x64_S128x1x20_0_19_0 : ∀ a, (![0, 19, 0] : Fin 3 → Nat) a + S128x1x20.size a ≤ S128x64x64.size a
  h_S128x1x20 : 0 < S128x1x20.numel
  shapeCasts_S128x1x20_S128x20 : S128x1x20.ShapeCasts S128x20
  shapeCasts_S128x20_S128x1x20 : S128x20.ShapeCasts S128x1x20
  slices_S128x2080_o0_210_S128x21 : S128x2080.Slices ![0, 210] S128x21
  iota_S128x21_d1_w32 : S128x21.Iotas .tc 32 [1]
  slices_S128x21_o0_20_S128x1 : S128x21.Slices ![0, 20] S128x1
  broadcasts_S128x1_S128x21 : S128x1.Broadcasts S128x21
  inb_S128x64x64_S128x1x21_0_20_0 : ∀ a, (![0, 20, 0] : Fin 3 → Nat) a + S128x1x21.size a ≤ S128x64x64.size a
  h_S128x1x21 : 0 < S128x1x21.numel
  shapeCasts_S128x1x21_S128x21 : S128x1x21.ShapeCasts S128x21
  shapeCasts_S128x21_S128x1x21 : S128x21.ShapeCasts S128x1x21
  slices_S128x2080_o0_231_S128x22 : S128x2080.Slices ![0, 231] S128x22
  iota_S128x22_d1_w32 : S128x22.Iotas .tc 32 [1]
  slices_S128x22_o0_21_S128x1 : S128x22.Slices ![0, 21] S128x1
  broadcasts_S128x1_S128x22 : S128x1.Broadcasts S128x22
  inb_S128x64x64_S128x1x22_0_21_0 : ∀ a, (![0, 21, 0] : Fin 3 → Nat) a + S128x1x22.size a ≤ S128x64x64.size a
  h_S128x1x22 : 0 < S128x1x22.numel
  shapeCasts_S128x1x22_S128x22 : S128x1x22.ShapeCasts S128x22
  shapeCasts_S128x22_S128x1x22 : S128x22.ShapeCasts S128x1x22
  slices_S128x2080_o0_253_S128x23 : S128x2080.Slices ![0, 253] S128x23
  iota_S128x23_d1_w32 : S128x23.Iotas .tc 32 [1]
  slices_S128x23_o0_22_S128x1 : S128x23.Slices ![0, 22] S128x1
  broadcasts_S128x1_S128x23 : S128x1.Broadcasts S128x23
  inb_S128x64x64_S128x1x23_0_22_0 : ∀ a, (![0, 22, 0] : Fin 3 → Nat) a + S128x1x23.size a ≤ S128x64x64.size a
  h_S128x1x23 : 0 < S128x1x23.numel
  shapeCasts_S128x1x23_S128x23 : S128x1x23.ShapeCasts S128x23
  shapeCasts_S128x23_S128x1x23 : S128x23.ShapeCasts S128x1x23
  slices_S128x2080_o0_276_S128x24 : S128x2080.Slices ![0, 276] S128x24
  iota_S128x24_d1_w32 : S128x24.Iotas .tc 32 [1]
  slices_S128x24_o0_23_S128x1 : S128x24.Slices ![0, 23] S128x1
  broadcasts_S128x1_S128x24 : S128x1.Broadcasts S128x24
  inb_S128x64x64_S128x1x24_0_23_0 : ∀ a, (![0, 23, 0] : Fin 3 → Nat) a + S128x1x24.size a ≤ S128x64x64.size a
  h_S128x1x24 : 0 < S128x1x24.numel
  shapeCasts_S128x1x24_S128x24 : S128x1x24.ShapeCasts S128x24
  shapeCasts_S128x24_S128x1x24 : S128x24.ShapeCasts S128x1x24
  slices_S128x2080_o0_300_S128x25 : S128x2080.Slices ![0, 300] S128x25
  iota_S128x25_d1_w32 : S128x25.Iotas .tc 32 [1]
  slices_S128x25_o0_24_S128x1 : S128x25.Slices ![0, 24] S128x1
  broadcasts_S128x1_S128x25 : S128x1.Broadcasts S128x25
  inb_S128x64x64_S128x1x25_0_24_0 : ∀ a, (![0, 24, 0] : Fin 3 → Nat) a + S128x1x25.size a ≤ S128x64x64.size a
  h_S128x1x25 : 0 < S128x1x25.numel
  shapeCasts_S128x1x25_S128x25 : S128x1x25.ShapeCasts S128x25
  shapeCasts_S128x25_S128x1x25 : S128x25.ShapeCasts S128x1x25
  slices_S128x2080_o0_325_S128x26 : S128x2080.Slices ![0, 325] S128x26
  iota_S128x26_d1_w32 : S128x26.Iotas .tc 32 [1]
  slices_S128x26_o0_25_S128x1 : S128x26.Slices ![0, 25] S128x1
  broadcasts_S128x1_S128x26 : S128x1.Broadcasts S128x26
  inb_S128x64x64_S128x1x26_0_25_0 : ∀ a, (![0, 25, 0] : Fin 3 → Nat) a + S128x1x26.size a ≤ S128x64x64.size a
  h_S128x1x26 : 0 < S128x1x26.numel
  shapeCasts_S128x1x26_S128x26 : S128x1x26.ShapeCasts S128x26
  shapeCasts_S128x26_S128x1x26 : S128x26.ShapeCasts S128x1x26
  slices_S128x2080_o0_351_S128x27 : S128x2080.Slices ![0, 351] S128x27
  iota_S128x27_d1_w32 : S128x27.Iotas .tc 32 [1]
  slices_S128x27_o0_26_S128x1 : S128x27.Slices ![0, 26] S128x1
  broadcasts_S128x1_S128x27 : S128x1.Broadcasts S128x27
  inb_S128x64x64_S128x1x27_0_26_0 : ∀ a, (![0, 26, 0] : Fin 3 → Nat) a + S128x1x27.size a ≤ S128x64x64.size a
  h_S128x1x27 : 0 < S128x1x27.numel
  shapeCasts_S128x1x27_S128x27 : S128x1x27.ShapeCasts S128x27
  shapeCasts_S128x27_S128x1x27 : S128x27.ShapeCasts S128x1x27
  slices_S128x2080_o0_378_S128x28 : S128x2080.Slices ![0, 378] S128x28
  iota_S128x28_d1_w32 : S128x28.Iotas .tc 32 [1]
  slices_S128x28_o0_27_S128x1 : S128x28.Slices ![0, 27] S128x1
  broadcasts_S128x1_S128x28 : S128x1.Broadcasts S128x28
  inb_S128x64x64_S128x1x28_0_27_0 : ∀ a, (![0, 27, 0] : Fin 3 → Nat) a + S128x1x28.size a ≤ S128x64x64.size a
  h_S128x1x28 : 0 < S128x1x28.numel
  shapeCasts_S128x1x28_S128x28 : S128x1x28.ShapeCasts S128x28
  shapeCasts_S128x28_S128x1x28 : S128x28.ShapeCasts S128x1x28
  slices_S128x2080_o0_406_S128x29 : S128x2080.Slices ![0, 406] S128x29
  iota_S128x29_d1_w32 : S128x29.Iotas .tc 32 [1]
  slices_S128x29_o0_28_S128x1 : S128x29.Slices ![0, 28] S128x1
  broadcasts_S128x1_S128x29 : S128x1.Broadcasts S128x29
  inb_S128x64x64_S128x1x29_0_28_0 : ∀ a, (![0, 28, 0] : Fin 3 → Nat) a + S128x1x29.size a ≤ S128x64x64.size a
  h_S128x1x29 : 0 < S128x1x29.numel
  shapeCasts_S128x1x29_S128x29 : S128x1x29.ShapeCasts S128x29
  shapeCasts_S128x29_S128x1x29 : S128x29.ShapeCasts S128x1x29
  slices_S128x2080_o0_435_S128x30 : S128x2080.Slices ![0, 435] S128x30
  iota_S128x30_d1_w32 : S128x30.Iotas .tc 32 [1]
  slices_S128x30_o0_29_S128x1 : S128x30.Slices ![0, 29] S128x1
  broadcasts_S128x1_S128x30 : S128x1.Broadcasts S128x30
  inb_S128x64x64_S128x1x30_0_29_0 : ∀ a, (![0, 29, 0] : Fin 3 → Nat) a + S128x1x30.size a ≤ S128x64x64.size a
  h_S128x1x30 : 0 < S128x1x30.numel
  shapeCasts_S128x1x30_S128x30 : S128x1x30.ShapeCasts S128x30
  shapeCasts_S128x30_S128x1x30 : S128x30.ShapeCasts S128x1x30
  slices_S128x2080_o0_465_S128x31 : S128x2080.Slices ![0, 465] S128x31
  iota_S128x31_d1_w32 : S128x31.Iotas .tc 32 [1]
  slices_S128x31_o0_30_S128x1 : S128x31.Slices ![0, 30] S128x1
  broadcasts_S128x1_S128x31 : S128x1.Broadcasts S128x31
  inb_S128x64x64_S128x1x31_0_30_0 : ∀ a, (![0, 30, 0] : Fin 3 → Nat) a + S128x1x31.size a ≤ S128x64x64.size a
  h_S128x1x31 : 0 < S128x1x31.numel
  shapeCasts_S128x1x31_S128x31 : S128x1x31.ShapeCasts S128x31
  shapeCasts_S128x31_S128x1x31 : S128x31.ShapeCasts S128x1x31
  slices_S128x2080_o0_496_S128x32 : S128x2080.Slices ![0, 496] S128x32
  iota_S128x32_d1_w32 : S128x32.Iotas .tc 32 [1]
  slices_S128x32_o0_31_S128x1 : S128x32.Slices ![0, 31] S128x1
  broadcasts_S128x1_S128x32 : S128x1.Broadcasts S128x32
  inb_S128x64x64_S128x1x32_0_31_0 : ∀ a, (![0, 31, 0] : Fin 3 → Nat) a + S128x1x32.size a ≤ S128x64x64.size a
  h_S128x1x32 : 0 < S128x1x32.numel
  shapeCasts_S128x1x32_S128x32 : S128x1x32.ShapeCasts S128x32
  shapeCasts_S128x32_S128x1x32 : S128x32.ShapeCasts S128x1x32
  slices_S128x2080_o0_528_S128x33 : S128x2080.Slices ![0, 528] S128x33
  iota_S128x33_d1_w32 : S128x33.Iotas .tc 32 [1]
  slices_S128x33_o0_32_S128x1 : S128x33.Slices ![0, 32] S128x1
  broadcasts_S128x1_S128x33 : S128x1.Broadcasts S128x33
  inb_S128x64x64_S128x1x33_0_32_0 : ∀ a, (![0, 32, 0] : Fin 3 → Nat) a + S128x1x33.size a ≤ S128x64x64.size a
  h_S128x1x33 : 0 < S128x1x33.numel
  shapeCasts_S128x1x33_S128x33 : S128x1x33.ShapeCasts S128x33
  shapeCasts_S128x33_S128x1x33 : S128x33.ShapeCasts S128x1x33
  slices_S128x2080_o0_561_S128x34 : S128x2080.Slices ![0, 561] S128x34
  iota_S128x34_d1_w32 : S128x34.Iotas .tc 32 [1]
  slices_S128x34_o0_33_S128x1 : S128x34.Slices ![0, 33] S128x1
  broadcasts_S128x1_S128x34 : S128x1.Broadcasts S128x34
  inb_S128x64x64_S128x1x34_0_33_0 : ∀ a, (![0, 33, 0] : Fin 3 → Nat) a + S128x1x34.size a ≤ S128x64x64.size a
  h_S128x1x34 : 0 < S128x1x34.numel
  shapeCasts_S128x1x34_S128x34 : S128x1x34.ShapeCasts S128x34
  shapeCasts_S128x34_S128x1x34 : S128x34.ShapeCasts S128x1x34
  slices_S128x2080_o0_595_S128x35 : S128x2080.Slices ![0, 595] S128x35
  iota_S128x35_d1_w32 : S128x35.Iotas .tc 32 [1]
  slices_S128x35_o0_34_S128x1 : S128x35.Slices ![0, 34] S128x1
  broadcasts_S128x1_S128x35 : S128x1.Broadcasts S128x35
  inb_S128x64x64_S128x1x35_0_34_0 : ∀ a, (![0, 34, 0] : Fin 3 → Nat) a + S128x1x35.size a ≤ S128x64x64.size a
  h_S128x1x35 : 0 < S128x1x35.numel
  shapeCasts_S128x1x35_S128x35 : S128x1x35.ShapeCasts S128x35
  shapeCasts_S128x35_S128x1x35 : S128x35.ShapeCasts S128x1x35
  slices_S128x2080_o0_630_S128x36 : S128x2080.Slices ![0, 630] S128x36
  iota_S128x36_d1_w32 : S128x36.Iotas .tc 32 [1]
  slices_S128x36_o0_35_S128x1 : S128x36.Slices ![0, 35] S128x1
  broadcasts_S128x1_S128x36 : S128x1.Broadcasts S128x36
  inb_S128x64x64_S128x1x36_0_35_0 : ∀ a, (![0, 35, 0] : Fin 3 → Nat) a + S128x1x36.size a ≤ S128x64x64.size a
  h_S128x1x36 : 0 < S128x1x36.numel
  shapeCasts_S128x1x36_S128x36 : S128x1x36.ShapeCasts S128x36
  shapeCasts_S128x36_S128x1x36 : S128x36.ShapeCasts S128x1x36
  slices_S128x2080_o0_666_S128x37 : S128x2080.Slices ![0, 666] S128x37
  iota_S128x37_d1_w32 : S128x37.Iotas .tc 32 [1]
  slices_S128x37_o0_36_S128x1 : S128x37.Slices ![0, 36] S128x1
  broadcasts_S128x1_S128x37 : S128x1.Broadcasts S128x37
  inb_S128x64x64_S128x1x37_0_36_0 : ∀ a, (![0, 36, 0] : Fin 3 → Nat) a + S128x1x37.size a ≤ S128x64x64.size a
  h_S128x1x37 : 0 < S128x1x37.numel
  shapeCasts_S128x1x37_S128x37 : S128x1x37.ShapeCasts S128x37
  shapeCasts_S128x37_S128x1x37 : S128x37.ShapeCasts S128x1x37
  slices_S128x2080_o0_703_S128x38 : S128x2080.Slices ![0, 703] S128x38
  iota_S128x38_d1_w32 : S128x38.Iotas .tc 32 [1]
  slices_S128x38_o0_37_S128x1 : S128x38.Slices ![0, 37] S128x1
  broadcasts_S128x1_S128x38 : S128x1.Broadcasts S128x38
  inb_S128x64x64_S128x1x38_0_37_0 : ∀ a, (![0, 37, 0] : Fin 3 → Nat) a + S128x1x38.size a ≤ S128x64x64.size a
  h_S128x1x38 : 0 < S128x1x38.numel
  shapeCasts_S128x1x38_S128x38 : S128x1x38.ShapeCasts S128x38
  shapeCasts_S128x38_S128x1x38 : S128x38.ShapeCasts S128x1x38
  slices_S128x2080_o0_741_S128x39 : S128x2080.Slices ![0, 741] S128x39
  iota_S128x39_d1_w32 : S128x39.Iotas .tc 32 [1]
  slices_S128x39_o0_38_S128x1 : S128x39.Slices ![0, 38] S128x1
  broadcasts_S128x1_S128x39 : S128x1.Broadcasts S128x39
  inb_S128x64x64_S128x1x39_0_38_0 : ∀ a, (![0, 38, 0] : Fin 3 → Nat) a + S128x1x39.size a ≤ S128x64x64.size a
  h_S128x1x39 : 0 < S128x1x39.numel
  shapeCasts_S128x1x39_S128x39 : S128x1x39.ShapeCasts S128x39
  shapeCasts_S128x39_S128x1x39 : S128x39.ShapeCasts S128x1x39
  slices_S128x2080_o0_780_S128x40 : S128x2080.Slices ![0, 780] S128x40
  iota_S128x40_d1_w32 : S128x40.Iotas .tc 32 [1]
  slices_S128x40_o0_39_S128x1 : S128x40.Slices ![0, 39] S128x1
  broadcasts_S128x1_S128x40 : S128x1.Broadcasts S128x40
  inb_S128x64x64_S128x1x40_0_39_0 : ∀ a, (![0, 39, 0] : Fin 3 → Nat) a + S128x1x40.size a ≤ S128x64x64.size a
  h_S128x1x40 : 0 < S128x1x40.numel
  shapeCasts_S128x1x40_S128x40 : S128x1x40.ShapeCasts S128x40
  shapeCasts_S128x40_S128x1x40 : S128x40.ShapeCasts S128x1x40
  slices_S128x2080_o0_820_S128x41 : S128x2080.Slices ![0, 820] S128x41
  iota_S128x41_d1_w32 : S128x41.Iotas .tc 32 [1]
  slices_S128x41_o0_40_S128x1 : S128x41.Slices ![0, 40] S128x1
  broadcasts_S128x1_S128x41 : S128x1.Broadcasts S128x41
  inb_S128x64x64_S128x1x41_0_40_0 : ∀ a, (![0, 40, 0] : Fin 3 → Nat) a + S128x1x41.size a ≤ S128x64x64.size a
  h_S128x1x41 : 0 < S128x1x41.numel
  shapeCasts_S128x1x41_S128x41 : S128x1x41.ShapeCasts S128x41
  shapeCasts_S128x41_S128x1x41 : S128x41.ShapeCasts S128x1x41
  slices_S128x2080_o0_861_S128x42 : S128x2080.Slices ![0, 861] S128x42
  iota_S128x42_d1_w32 : S128x42.Iotas .tc 32 [1]
  slices_S128x42_o0_41_S128x1 : S128x42.Slices ![0, 41] S128x1
  broadcasts_S128x1_S128x42 : S128x1.Broadcasts S128x42
  inb_S128x64x64_S128x1x42_0_41_0 : ∀ a, (![0, 41, 0] : Fin 3 → Nat) a + S128x1x42.size a ≤ S128x64x64.size a
  h_S128x1x42 : 0 < S128x1x42.numel
  shapeCasts_S128x1x42_S128x42 : S128x1x42.ShapeCasts S128x42
  shapeCasts_S128x42_S128x1x42 : S128x42.ShapeCasts S128x1x42
  slices_S128x2080_o0_903_S128x43 : S128x2080.Slices ![0, 903] S128x43
  iota_S128x43_d1_w32 : S128x43.Iotas .tc 32 [1]
  slices_S128x43_o0_42_S128x1 : S128x43.Slices ![0, 42] S128x1
  broadcasts_S128x1_S128x43 : S128x1.Broadcasts S128x43
  inb_S128x64x64_S128x1x43_0_42_0 : ∀ a, (![0, 42, 0] : Fin 3 → Nat) a + S128x1x43.size a ≤ S128x64x64.size a
  h_S128x1x43 : 0 < S128x1x43.numel
  shapeCasts_S128x1x43_S128x43 : S128x1x43.ShapeCasts S128x43
  shapeCasts_S128x43_S128x1x43 : S128x43.ShapeCasts S128x1x43
  slices_S128x2080_o0_946_S128x44 : S128x2080.Slices ![0, 946] S128x44
  iota_S128x44_d1_w32 : S128x44.Iotas .tc 32 [1]
  slices_S128x44_o0_43_S128x1 : S128x44.Slices ![0, 43] S128x1
  broadcasts_S128x1_S128x44 : S128x1.Broadcasts S128x44
  inb_S128x64x64_S128x1x44_0_43_0 : ∀ a, (![0, 43, 0] : Fin 3 → Nat) a + S128x1x44.size a ≤ S128x64x64.size a
  h_S128x1x44 : 0 < S128x1x44.numel
  shapeCasts_S128x1x44_S128x44 : S128x1x44.ShapeCasts S128x44
  shapeCasts_S128x44_S128x1x44 : S128x44.ShapeCasts S128x1x44
  slices_S128x2080_o0_990_S128x45 : S128x2080.Slices ![0, 990] S128x45
  iota_S128x45_d1_w32 : S128x45.Iotas .tc 32 [1]
  slices_S128x45_o0_44_S128x1 : S128x45.Slices ![0, 44] S128x1
  broadcasts_S128x1_S128x45 : S128x1.Broadcasts S128x45
  inb_S128x64x64_S128x1x45_0_44_0 : ∀ a, (![0, 44, 0] : Fin 3 → Nat) a + S128x1x45.size a ≤ S128x64x64.size a
  h_S128x1x45 : 0 < S128x1x45.numel
  shapeCasts_S128x1x45_S128x45 : S128x1x45.ShapeCasts S128x45
  shapeCasts_S128x45_S128x1x45 : S128x45.ShapeCasts S128x1x45
  slices_S128x2080_o0_1035_S128x46 : S128x2080.Slices ![0, 1035] S128x46
  iota_S128x46_d1_w32 : S128x46.Iotas .tc 32 [1]
  slices_S128x46_o0_45_S128x1 : S128x46.Slices ![0, 45] S128x1
  broadcasts_S128x1_S128x46 : S128x1.Broadcasts S128x46
  inb_S128x64x64_S128x1x46_0_45_0 : ∀ a, (![0, 45, 0] : Fin 3 → Nat) a + S128x1x46.size a ≤ S128x64x64.size a
  h_S128x1x46 : 0 < S128x1x46.numel
  shapeCasts_S128x1x46_S128x46 : S128x1x46.ShapeCasts S128x46
  shapeCasts_S128x46_S128x1x46 : S128x46.ShapeCasts S128x1x46
  slices_S128x2080_o0_1081_S128x47 : S128x2080.Slices ![0, 1081] S128x47
  iota_S128x47_d1_w32 : S128x47.Iotas .tc 32 [1]
  slices_S128x47_o0_46_S128x1 : S128x47.Slices ![0, 46] S128x1
  broadcasts_S128x1_S128x47 : S128x1.Broadcasts S128x47
  inb_S128x64x64_S128x1x47_0_46_0 : ∀ a, (![0, 46, 0] : Fin 3 → Nat) a + S128x1x47.size a ≤ S128x64x64.size a
  h_S128x1x47 : 0 < S128x1x47.numel
  shapeCasts_S128x1x47_S128x47 : S128x1x47.ShapeCasts S128x47
  shapeCasts_S128x47_S128x1x47 : S128x47.ShapeCasts S128x1x47
  slices_S128x2080_o0_1128_S128x48 : S128x2080.Slices ![0, 1128] S128x48
  iota_S128x48_d1_w32 : S128x48.Iotas .tc 32 [1]
  slices_S128x48_o0_47_S128x1 : S128x48.Slices ![0, 47] S128x1
  broadcasts_S128x1_S128x48 : S128x1.Broadcasts S128x48
  inb_S128x64x64_S128x1x48_0_47_0 : ∀ a, (![0, 47, 0] : Fin 3 → Nat) a + S128x1x48.size a ≤ S128x64x64.size a
  h_S128x1x48 : 0 < S128x1x48.numel
  shapeCasts_S128x1x48_S128x48 : S128x1x48.ShapeCasts S128x48
  shapeCasts_S128x48_S128x1x48 : S128x48.ShapeCasts S128x1x48
  slices_S128x2080_o0_1176_S128x49 : S128x2080.Slices ![0, 1176] S128x49
  iota_S128x49_d1_w32 : S128x49.Iotas .tc 32 [1]
  slices_S128x49_o0_48_S128x1 : S128x49.Slices ![0, 48] S128x1
  broadcasts_S128x1_S128x49 : S128x1.Broadcasts S128x49
  inb_S128x64x64_S128x1x49_0_48_0 : ∀ a, (![0, 48, 0] : Fin 3 → Nat) a + S128x1x49.size a ≤ S128x64x64.size a
  h_S128x1x49 : 0 < S128x1x49.numel
  shapeCasts_S128x1x49_S128x49 : S128x1x49.ShapeCasts S128x49
  shapeCasts_S128x49_S128x1x49 : S128x49.ShapeCasts S128x1x49
  slices_S128x2080_o0_1225_S128x50 : S128x2080.Slices ![0, 1225] S128x50
  iota_S128x50_d1_w32 : S128x50.Iotas .tc 32 [1]
  slices_S128x50_o0_49_S128x1 : S128x50.Slices ![0, 49] S128x1
  broadcasts_S128x1_S128x50 : S128x1.Broadcasts S128x50
  inb_S128x64x64_S128x1x50_0_49_0 : ∀ a, (![0, 49, 0] : Fin 3 → Nat) a + S128x1x50.size a ≤ S128x64x64.size a
  h_S128x1x50 : 0 < S128x1x50.numel
  shapeCasts_S128x1x50_S128x50 : S128x1x50.ShapeCasts S128x50
  shapeCasts_S128x50_S128x1x50 : S128x50.ShapeCasts S128x1x50
  slices_S128x2080_o0_1275_S128x51 : S128x2080.Slices ![0, 1275] S128x51
  iota_S128x51_d1_w32 : S128x51.Iotas .tc 32 [1]
  slices_S128x51_o0_50_S128x1 : S128x51.Slices ![0, 50] S128x1
  broadcasts_S128x1_S128x51 : S128x1.Broadcasts S128x51
  inb_S128x64x64_S128x1x51_0_50_0 : ∀ a, (![0, 50, 0] : Fin 3 → Nat) a + S128x1x51.size a ≤ S128x64x64.size a
  h_S128x1x51 : 0 < S128x1x51.numel
  shapeCasts_S128x1x51_S128x51 : S128x1x51.ShapeCasts S128x51
  shapeCasts_S128x51_S128x1x51 : S128x51.ShapeCasts S128x1x51
  slices_S128x2080_o0_1326_S128x52 : S128x2080.Slices ![0, 1326] S128x52
  iota_S128x52_d1_w32 : S128x52.Iotas .tc 32 [1]
  slices_S128x52_o0_51_S128x1 : S128x52.Slices ![0, 51] S128x1
  broadcasts_S128x1_S128x52 : S128x1.Broadcasts S128x52
  inb_S128x64x64_S128x1x52_0_51_0 : ∀ a, (![0, 51, 0] : Fin 3 → Nat) a + S128x1x52.size a ≤ S128x64x64.size a
  h_S128x1x52 : 0 < S128x1x52.numel
  shapeCasts_S128x1x52_S128x52 : S128x1x52.ShapeCasts S128x52
  shapeCasts_S128x52_S128x1x52 : S128x52.ShapeCasts S128x1x52
  slices_S128x2080_o0_1378_S128x53 : S128x2080.Slices ![0, 1378] S128x53
  iota_S128x53_d1_w32 : S128x53.Iotas .tc 32 [1]
  slices_S128x53_o0_52_S128x1 : S128x53.Slices ![0, 52] S128x1
  broadcasts_S128x1_S128x53 : S128x1.Broadcasts S128x53
  inb_S128x64x64_S128x1x53_0_52_0 : ∀ a, (![0, 52, 0] : Fin 3 → Nat) a + S128x1x53.size a ≤ S128x64x64.size a
  h_S128x1x53 : 0 < S128x1x53.numel
  shapeCasts_S128x1x53_S128x53 : S128x1x53.ShapeCasts S128x53
  shapeCasts_S128x53_S128x1x53 : S128x53.ShapeCasts S128x1x53
  slices_S128x2080_o0_1431_S128x54 : S128x2080.Slices ![0, 1431] S128x54
  iota_S128x54_d1_w32 : S128x54.Iotas .tc 32 [1]
  slices_S128x54_o0_53_S128x1 : S128x54.Slices ![0, 53] S128x1
  broadcasts_S128x1_S128x54 : S128x1.Broadcasts S128x54
  inb_S128x64x64_S128x1x54_0_53_0 : ∀ a, (![0, 53, 0] : Fin 3 → Nat) a + S128x1x54.size a ≤ S128x64x64.size a
  h_S128x1x54 : 0 < S128x1x54.numel
  shapeCasts_S128x1x54_S128x54 : S128x1x54.ShapeCasts S128x54
  shapeCasts_S128x54_S128x1x54 : S128x54.ShapeCasts S128x1x54
  slices_S128x2080_o0_1485_S128x55 : S128x2080.Slices ![0, 1485] S128x55
  iota_S128x55_d1_w32 : S128x55.Iotas .tc 32 [1]
  slices_S128x55_o0_54_S128x1 : S128x55.Slices ![0, 54] S128x1
  broadcasts_S128x1_S128x55 : S128x1.Broadcasts S128x55
  inb_S128x64x64_S128x1x55_0_54_0 : ∀ a, (![0, 54, 0] : Fin 3 → Nat) a + S128x1x55.size a ≤ S128x64x64.size a
  h_S128x1x55 : 0 < S128x1x55.numel
  shapeCasts_S128x1x55_S128x55 : S128x1x55.ShapeCasts S128x55
  shapeCasts_S128x55_S128x1x55 : S128x55.ShapeCasts S128x1x55
  slices_S128x2080_o0_1540_S128x56 : S128x2080.Slices ![0, 1540] S128x56
  iota_S128x56_d1_w32 : S128x56.Iotas .tc 32 [1]
  slices_S128x56_o0_55_S128x1 : S128x56.Slices ![0, 55] S128x1
  broadcasts_S128x1_S128x56 : S128x1.Broadcasts S128x56
  inb_S128x64x64_S128x1x56_0_55_0 : ∀ a, (![0, 55, 0] : Fin 3 → Nat) a + S128x1x56.size a ≤ S128x64x64.size a
  h_S128x1x56 : 0 < S128x1x56.numel
  shapeCasts_S128x1x56_S128x56 : S128x1x56.ShapeCasts S128x56
  shapeCasts_S128x56_S128x1x56 : S128x56.ShapeCasts S128x1x56
  slices_S128x2080_o0_1596_S128x57 : S128x2080.Slices ![0, 1596] S128x57
  iota_S128x57_d1_w32 : S128x57.Iotas .tc 32 [1]
  slices_S128x57_o0_56_S128x1 : S128x57.Slices ![0, 56] S128x1
  broadcasts_S128x1_S128x57 : S128x1.Broadcasts S128x57
  inb_S128x64x64_S128x1x57_0_56_0 : ∀ a, (![0, 56, 0] : Fin 3 → Nat) a + S128x1x57.size a ≤ S128x64x64.size a
  h_S128x1x57 : 0 < S128x1x57.numel
  shapeCasts_S128x1x57_S128x57 : S128x1x57.ShapeCasts S128x57
  shapeCasts_S128x57_S128x1x57 : S128x57.ShapeCasts S128x1x57
  slices_S128x2080_o0_1653_S128x58 : S128x2080.Slices ![0, 1653] S128x58
  iota_S128x58_d1_w32 : S128x58.Iotas .tc 32 [1]
  slices_S128x58_o0_57_S128x1 : S128x58.Slices ![0, 57] S128x1
  broadcasts_S128x1_S128x58 : S128x1.Broadcasts S128x58
  inb_S128x64x64_S128x1x58_0_57_0 : ∀ a, (![0, 57, 0] : Fin 3 → Nat) a + S128x1x58.size a ≤ S128x64x64.size a
  h_S128x1x58 : 0 < S128x1x58.numel
  shapeCasts_S128x1x58_S128x58 : S128x1x58.ShapeCasts S128x58
  shapeCasts_S128x58_S128x1x58 : S128x58.ShapeCasts S128x1x58
  slices_S128x2080_o0_1711_S128x59 : S128x2080.Slices ![0, 1711] S128x59
  iota_S128x59_d1_w32 : S128x59.Iotas .tc 32 [1]
  slices_S128x59_o0_58_S128x1 : S128x59.Slices ![0, 58] S128x1
  broadcasts_S128x1_S128x59 : S128x1.Broadcasts S128x59
  inb_S128x64x64_S128x1x59_0_58_0 : ∀ a, (![0, 58, 0] : Fin 3 → Nat) a + S128x1x59.size a ≤ S128x64x64.size a
  h_S128x1x59 : 0 < S128x1x59.numel
  shapeCasts_S128x1x59_S128x59 : S128x1x59.ShapeCasts S128x59
  shapeCasts_S128x59_S128x1x59 : S128x59.ShapeCasts S128x1x59
  slices_S128x2080_o0_1770_S128x60 : S128x2080.Slices ![0, 1770] S128x60
  iota_S128x60_d1_w32 : S128x60.Iotas .tc 32 [1]
  slices_S128x60_o0_59_S128x1 : S128x60.Slices ![0, 59] S128x1
  broadcasts_S128x1_S128x60 : S128x1.Broadcasts S128x60
  inb_S128x64x64_S128x1x60_0_59_0 : ∀ a, (![0, 59, 0] : Fin 3 → Nat) a + S128x1x60.size a ≤ S128x64x64.size a
  h_S128x1x60 : 0 < S128x1x60.numel
  shapeCasts_S128x1x60_S128x60 : S128x1x60.ShapeCasts S128x60
  shapeCasts_S128x60_S128x1x60 : S128x60.ShapeCasts S128x1x60
  slices_S128x2080_o0_1830_S128x61 : S128x2080.Slices ![0, 1830] S128x61
  iota_S128x61_d1_w32 : S128x61.Iotas .tc 32 [1]
  slices_S128x61_o0_60_S128x1 : S128x61.Slices ![0, 60] S128x1
  broadcasts_S128x1_S128x61 : S128x1.Broadcasts S128x61
  inb_S128x64x64_S128x1x61_0_60_0 : ∀ a, (![0, 60, 0] : Fin 3 → Nat) a + S128x1x61.size a ≤ S128x64x64.size a
  h_S128x1x61 : 0 < S128x1x61.numel
  shapeCasts_S128x1x61_S128x61 : S128x1x61.ShapeCasts S128x61
  shapeCasts_S128x61_S128x1x61 : S128x61.ShapeCasts S128x1x61
  slices_S128x2080_o0_1891_S128x62 : S128x2080.Slices ![0, 1891] S128x62
  iota_S128x62_d1_w32 : S128x62.Iotas .tc 32 [1]
  slices_S128x62_o0_61_S128x1 : S128x62.Slices ![0, 61] S128x1
  broadcasts_S128x1_S128x62 : S128x1.Broadcasts S128x62
  inb_S128x64x64_S128x1x62_0_61_0 : ∀ a, (![0, 61, 0] : Fin 3 → Nat) a + S128x1x62.size a ≤ S128x64x64.size a
  h_S128x1x62 : 0 < S128x1x62.numel
  shapeCasts_S128x1x62_S128x62 : S128x1x62.ShapeCasts S128x62
  shapeCasts_S128x62_S128x1x62 : S128x62.ShapeCasts S128x1x62
  slices_S128x2080_o0_1953_S128x63 : S128x2080.Slices ![0, 1953] S128x63
  iota_S128x63_d1_w32 : S128x63.Iotas .tc 32 [1]
  slices_S128x63_o0_62_S128x1 : S128x63.Slices ![0, 62] S128x1
  broadcasts_S128x1_S128x63 : S128x1.Broadcasts S128x63
  inb_S128x64x64_S128x1x63_0_62_0 : ∀ a, (![0, 62, 0] : Fin 3 → Nat) a + S128x1x63.size a ≤ S128x64x64.size a
  h_S128x1x63 : 0 < S128x1x63.numel
  shapeCasts_S128x1x63_S128x63 : S128x1x63.ShapeCasts S128x63
  shapeCasts_S128x63_S128x1x63 : S128x63.ShapeCasts S128x1x63
  slices_S128x2080_o0_2016_S128x64 : S128x2080.Slices ![0, 2016] S128x64
  iota_S128x64_d1_w32 : S128x64.Iotas .tc 32 [1]
  slices_S128x64_o0_63_S128x1 : S128x64.Slices ![0, 63] S128x1
  broadcasts_S128x1_S128x64 : S128x1.Broadcasts S128x64
  inb_S128x64x64_S128x1x64_0_63_0 : ∀ a, (![0, 63, 0] : Fin 3 → Nat) a + S128x1x64.size a ≤ S128x64x64.size a
  h_S128x1x64 : 0 < S128x1x64.numel
  shapeCasts_S128x1x64_S128x64 : S128x1x64.ShapeCasts S128x64
  shapeCasts_S128x64_S128x1x64 : S128x64.ShapeCasts S128x1x64
  inb_S128x64x100_S128x64x100_0_0_0 : ∀ a, (![0, 0, 0] : Fin 3 → Nat) a + S128x64x100.size a ≤ S128x64x100.size a
  h_S128x64x100 : 0 < S128x64x100.numel
  shapeCasts_S128x64_S128x64x1 : S128x64.ShapeCasts S128x64x1
  broadcasts_S128x64x1_S128x64x100 : S128x64x1.Broadcasts S128x64x100
  dot_S128x512_S2144x512_S128x2144_1_1_0_0_n_n_wf : DotDims.WF S128x512 S2144x512 S128x2144 [1] [1] [0] [0] [] []
  dot_S128x64x64_S128x64x100_S128x64x100_2_1_1_2_0_0_wf : DotDims.WF S128x64x64 S128x64x100 S128x64x100 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .f32 = 32 ∨ (Rect.block (s := S4096x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2144x512.size a ≤ S2144x512.size a
  hwx0_1 : ∀ i : grid0.Coords, EltTy.bits .bf16 = 32 ∨ (Rect.block (s := S2144x512) S2144x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2144.size a ≤ S1x2144.size a
  hwx0_2 : ∀ i : grid0.Coords, EltTy.bits .f32 = 32 ∨ (Rect.block (s := S1x2144) S1x2144.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64x100.size a ≤ S4096x64x100.size a
  hwx0_3 : ∀ i : grid0.Coords, EltTy.bits .f32 = 32 ∨ (Rect.block (s := S4096x64x100) S128x64x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x64x100.size a ≤ S4096x64x100.size a
  hwx0_4 : ∀ i : grid0.Coords, EltTy.bits .f32 = 32 ∨ (Rect.block (s := S4096x64x100) S128x64x100.size (cc0_transform_4 i) (hinb0_4 i)).WholeWords (EltTy.packing .f32)

variable [Facts₀]

def dot_S128x512_S2144x512_S128x2144_1_1_0_0_n_n : DotDims S128x512 S2144x512 S128x2144 where
  lhsContracting := [1]
  rhsContracting := [1]
  lhsNonContracting := [0]
  rhsNonContracting := [0]
  lhsBatch := []
  rhsBatch := []
  wf := dot_S128x512_S2144x512_S128x2144_1_1_0_0_n_n_wf
def dot_S128x64x64_S128x64x100_S128x64x100_2_1_1_2_0_0 : DotDims S128x64x64 S128x64x100 S128x64x100 where
  lhsContracting := [2]
  rhsContracting := [1]
  lhsNonContracting := [1]
  rhsNonContracting := [2]
  lhsBatch := [0]
  rhsBatch := [0]
  wf := dot_S128x64x64_S128x64x100_S128x64x100_2_1_1_2_0_0_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2144x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2144.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x64x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x64x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x64x100 : Shape := ⟨3, ![4096, 64, 100]⟩
abbrev S64x512 : Shape := ⟨2, ![64, 512]⟩
abbrev S64 : Shape := ⟨1, ![64]⟩
abbrev S2080x512 : Shape := ⟨2, ![2080, 512]⟩
abbrev S2080 : Shape := ⟨1, ![2080]⟩
abbrev S512x64 : Shape := ⟨2, ![512, 64]⟩
abbrev S4096x64 : Shape := ⟨2, ![4096, 64]⟩
abbrev S1x64 : Shape := ⟨2, ![1, 64]⟩
abbrev S512x2080 : Shape := ⟨2, ![512, 2080]⟩
abbrev S4096x2080 : Shape := ⟨2, ![4096, 2080]⟩
abbrev S1x2080 : Shape := ⟨2, ![1, 2080]⟩
abbrev S_ : Shape := ⟨0, ![]⟩
abbrev S4096x64x64 : Shape := ⟨3, ![4096, 64, 64]⟩
abbrev S2080x1 : Shape := ⟨2, ![2080, 1]⟩
abbrev S2080x2 : Shape := ⟨2, ![2080, 2]⟩
abbrev S64x1 : Shape := ⟨2, ![64, 1]⟩
abbrev S64x2 : Shape := ⟨2, ![64, 2]⟩
abbrev S4096x64x1 : Shape := ⟨3, ![4096, 64, 1]⟩

abbrev nBuf : Space → Nat
  | .hbm => 86
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x64x100, .f32⟩
  | .hbm, ⟨2, _⟩ => ⟨S64x512, .f32⟩
  | .hbm, ⟨3, _⟩ => ⟨S64, .f32⟩
  | .hbm, ⟨4, _⟩ => ⟨S2080x512, .f32⟩
  | .hbm, ⟨5, _⟩ => ⟨S2080, .f32⟩
  | .hbm, ⟨6, _⟩ => ⟨S2080, .i32⟩
  | .hbm, ⟨7, _⟩ => ⟨S2080, .i1⟩
  | .hbm, ⟨8, _⟩ => ⟨S2080, .i32⟩
  | .hbm, ⟨9, _⟩ => ⟨S2080, .i1⟩
  | .hbm, ⟨10, _⟩ => ⟨S64, .i32⟩
  | .hbm, ⟨11, _⟩ => ⟨S64, .i1⟩
  | .hbm, ⟨12, _⟩ => ⟨S64, .i32⟩
  | .hbm, ⟨13, _⟩ => ⟨S64, .i1⟩
  | .hbm, ⟨14, _⟩ => ⟨S64, .i1⟩
  | .hbm, ⟨15, _⟩ => ⟨S512x64, .f32⟩
  | .hbm, ⟨16, _⟩ => ⟨S4096x64, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S512x2080, .f32⟩
  | .hbm, ⟨21, _⟩ => ⟨S4096x2080, .f32⟩
  | .hbm, ⟨22, _⟩ => ⟨S1x2080, .f32⟩
  | .hbm, ⟨23, _⟩ => ⟨S4096x2080, .f32⟩
  | .hbm, ⟨24, _⟩ => ⟨S4096x2080, .f32⟩
  | .hbm, ⟨25, _⟩ => ⟨S_, .f32⟩
  | .hbm, ⟨26, _⟩ => ⟨S4096x64x64, .f32⟩
  | .hbm, ⟨27, _⟩ => ⟨S_, .i32⟩
  | .hbm, ⟨28, _⟩ => ⟨S2080, .i32⟩
  | .hbm, ⟨29, _⟩ => ⟨S2080, .i32⟩
  | .hbm, ⟨30, _⟩ => ⟨S2080, .i32⟩
  | .hbm, ⟨31, _⟩ => ⟨S_, .i32⟩
  | .hbm, ⟨32, _⟩ => ⟨S2080, .i32⟩
  | .hbm, ⟨33, _⟩ => ⟨S2080, .i32⟩
  | .hbm, ⟨34, _⟩ => ⟨S2080, .i32⟩
  | .hbm, ⟨35, _⟩ => ⟨S2080x1, .i32⟩
  | .hbm, ⟨36, _⟩ => ⟨S2080x1, .i32⟩
  | .hbm, ⟨37, _⟩ => ⟨S2080x2, .i32⟩
  | .hbm, ⟨38, _⟩ => ⟨S4096x64x64, .f32⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S64, .i32⟩
  | .hbm, ⟨43, _⟩ => ⟨S64x1, .i32⟩
  | .hbm, ⟨44, _⟩ => ⟨S4096x64, .f32⟩
  | .hbm, ⟨45, _⟩ => ⟨S_, .f32⟩
  | .hbm, ⟨46, _⟩ => ⟨S4096x64, .f32⟩
  | .hbm, ⟨47, _⟩ => ⟨S4096x64, .f32⟩
  | .hbm, ⟨48, _⟩ => ⟨S4096x64, .f32⟩
  | .hbm, ⟨49, _⟩ => ⟨S4096x64, .f32⟩
  | .hbm, ⟨50, _⟩ => ⟨S4096x64, .i1⟩
  | .hbm, ⟨51, _⟩ => ⟨S4096x64, .f32⟩
  | .hbm, ⟨52, _⟩ => ⟨S4096x64, .f32⟩
  | .hbm, ⟨53, _⟩ => ⟨S4096x64, .f32⟩
  | .hbm, ⟨54, _⟩ => ⟨S4096x64, .f32⟩
  | .hbm, ⟨55, _⟩ => ⟨S4096x64, .f32⟩
  | .hbm, ⟨56, _⟩ => ⟨S4096x64, .f32⟩
  | .hbm, ⟨57, _⟩ => ⟨S4096x64, .f32⟩
  | .hbm, ⟨58, _⟩ => ⟨S4096x64, .f32⟩
  | .hbm, ⟨59, _⟩ => ⟨S_, .f32⟩
  | .hbm, ⟨60, _⟩ => ⟨S4096x64, .f32⟩
  | .hbm, ⟨61, _⟩ => ⟨S4096x64, .f32⟩
  | .hbm, ⟨62, _⟩ => ⟨S_, .i32⟩
  | .hbm, ⟨63, _⟩ => ⟨S64, .i32⟩
  | .hbm, ⟨64, _⟩ => ⟨S64, .i32⟩
  | .hbm, ⟨65, _⟩ => ⟨S64, .i32⟩
  | .hbm, ⟨66, _⟩ => ⟨S_, .i32⟩
  | .hbm, ⟨67, _⟩ => ⟨S64, .i32⟩
  | .hbm, ⟨68, _⟩ => ⟨S64, .i32⟩
  | .hbm, ⟨69, _⟩ => ⟨S64, .i32⟩
  | .hbm, ⟨70, _⟩ => ⟨S64x1, .i32⟩
  | .hbm, ⟨71, _⟩ => ⟨S64x1, .i32⟩
  | .hbm, ⟨72, _⟩ => ⟨S64x2, .i32⟩
  | .hbm, ⟨73, _⟩ => ⟨S4096x64x64, .f32⟩
  | .hbm, ⟨74, _⟩ => ⟨S4096x64x1, .f32⟩
  | .hbm, ⟨75, _⟩ => ⟨S4096x64x100, .f32⟩
  | .hbm, ⟨76, _⟩ => ⟨S4096x64x100, .f32⟩
  | .hbm, ⟨77, _⟩ => ⟨S4096x64x100, .f32⟩
  | .hbm, ⟨78, _⟩ => ⟨S4096x64x100, .f32⟩
  | .hbm, ⟨79, _⟩ => ⟨S4096x64x100, .f32⟩
  | .hbm, ⟨80, _⟩ => ⟨S_, .f32⟩
  | .hbm, ⟨81, _⟩ => ⟨S4096x64x100, .f32⟩
  | .hbm, ⟨82, _⟩ => ⟨S4096x64x100, .f32⟩
  | .hbm, ⟨83, _⟩ => ⟨S_, .f32⟩
  | .hbm, ⟨84, _⟩ => ⟨S4096x64x100, .f32⟩
  | .hbm, ⟨85, _⟩ => ⟨S4096x64x100, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_c_6 : Ref sig .tc := ⟨.hbm, 13, rfl⟩
abbrev main_c_7 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_c_8 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_9 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_10 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_v26 : Ref sig .tc := ⟨.hbm, 58, rfl⟩
abbrev main_cst_11 : Ref sig .tc := ⟨.hbm, 59, rfl⟩
abbrev main_v27 : Ref sig .tc := ⟨.hbm, 60, rfl⟩
abbrev main_v28 : Ref sig .tc := ⟨.hbm, 61, rfl⟩
abbrev main_c_12 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_13 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_14 : Ref sig .tc := ⟨.hbm, 80, rfl⟩
abbrev main_v45 : Ref sig .tc := ⟨.hbm, 81, rfl⟩
abbrev main_v46 : Ref sig .tc := ⟨.hbm, 82, rfl⟩
abbrev main_cst_15 : Ref sig .tc := ⟨.hbm, 83, rfl⟩
abbrev main_v47 : Ref sig .tc := ⟨.hbm, 84, rfl⟩
abbrev main_v48 : Ref sig .tc := ⟨.hbm, 85, rfl⟩

abbrev nD : Nat := 1
abbrev τ : Topo := Topo.v7x

variable {F : FTy → Type} [FloatOps F]

class Facts₀ : Prop where
  transposes_S64x512_S512x64_1_0 : S64x512.Transposes [1, 0] S512x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  transposes_S2080x512_S512x2080_1_0 : S2080x512.Transposes [1, 0] S512x2080
  bcast_S2080_S1x2080_1 : S2080.BroadcastsInDim S1x2080 (![1] : Fin 1 → Fin S1x2080.rank)
  bcast_S1x2080_S4096x2080_0_1 : S1x2080.BroadcastsInDim S4096x2080 (![0, 1] : Fin 2 → Fin S4096x2080.rank)
  bcast_S_S4096x64x64 : S_.BroadcastsInDim S4096x64x64 (![] : Fin 0 → Fin S4096x64x64.rank)
  bcast_S_S2080 : S_.BroadcastsInDim S2080 (![] : Fin 0 → Fin S2080.rank)
  bcast_S2080_S2080x1_0 : S2080.BroadcastsInDim S2080x1 (![0] : Fin 1 → Fin S2080x1.rank)
  concatenates_S2080x1_S2080x1_S2080x2_d1 : Shape.Concatenates [S2080x1, S2080x1] S2080x2 1
  bcast_S_S64 : S_.BroadcastsInDim S64 (![] : Fin 0 → Fin S64.rank)
  bcast_S64_S64x1_0 : S64.BroadcastsInDim S64x1 (![0] : Fin 1 → Fin S64x1.rank)
  bcast_S_S4096x64 : S_.BroadcastsInDim S4096x64 (![] : Fin 0 → Fin S4096x64.rank)
  concatenates_S64x1_S64x1_S64x2_d1 : Shape.Concatenates [S64x1, S64x1] S64x2 1
  bcast_S4096x64_S4096x64x1_0_1 : S4096x64.BroadcastsInDim S4096x64x1 (![0, 1] : Fin 2 → Fin S4096x64x1.rank)
  bcast_S4096x64x1_S4096x64x100_0_1_2 : S4096x64x1.BroadcastsInDim S4096x64x100 (![0, 1, 2] : Fin 3 → Fin S4096x64x100.rank)
  bcast_S_S4096x64x100 : S_.BroadcastsInDim S4096x64x100 (![] : Fin 0 → Fin S4096x64x100.rank)
  dot_S4096x512_S512x64_S4096x64_1_0_0_1_n_n_wf : DotDims.WF S4096x512 S512x64 S4096x64 [1] [0] [0] [1] [] []
  dot_S4096x512_S512x2080_S4096x2080_1_0_0_1_n_n_wf : DotDims.WF S4096x512 S512x2080 S4096x2080 [1] [0] [0] [1] [] []
  scatter_S4096x64x64_S2080x2_S4096x2080_0_12_12_1_wf : ScatterDims.WF S4096x64x64 S2080x2 S4096x2080 [0] [1, 2] [1, 2] 1
  gather_S4096x2080_S64x1_S4096x64_0_1_n_n_1_1_40961_wf : GatherDims.WF S4096x2080 S64x1 S4096x64 [0] [1] [] [1] [] 1 ![4096, 1]
  scatter_S4096x64x64_S64x2_S4096x64_0_12_12_1_wf : ScatterDims.WF S4096x64x64 S64x2 S4096x64 [0] [1, 2] [1, 2] 1
  dot_S4096x64x64_S4096x64x100_S4096x64x100_2_1_1_2_0_0_wf : DotDims.WF S4096x64x64 S4096x64x100 S4096x64x100 [2] [1] [1] [2] [0] [0]

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x512_S512x2080_S4096x2080_1_0_0_1_n_n : DotDims S4096x512 S512x2080 S4096x2080 where
  lhsContracting := [1]
  rhsContracting := [0]
  lhsNonContracting := [0]
  rhsNonContracting := [1]
  lhsBatch := []
  rhsBatch := []
  wf := dot_S4096x512_S512x2080_S4096x2080_1_0_0_1_n_n_wf
def scatter_S4096x64x64_S2080x2_S4096x2080_0_12_12_1 : ScatterDims S4096x64x64 S2080x2 S4096x2080 where
  updateWindowDims := [0]
  insertedWindowDims := [1, 2]
  scatterDimsToOperandDims := [1, 2]
  indexVectorDim := 1
  wf := scatter_S4096x64x64_S2080x2_S4096x2080_0_12_12_1_wf
def gather_S4096x2080_S64x1_S4096x64_0_1_n_n_1_1_40961 : GatherDims S4096x2080 S64x1 S4096x64 where
  offsetDims := [0]
  collapsedSliceDims := [1]
  operandBatchingDims := []
  startIndicesBatchingDims := []
  startIndexMap := [1]
  indexVectorDim := 1
  sliceSizes := ![4096, 1]
  wf := gather_S4096x2080_S64x1_S4096x64_0_1_n_n_1_1_40961_wf
def scatter_S4096x64x64_S64x2_S4096x64_0_12_12_1 : ScatterDims S4096x64x64 S64x2 S4096x64 where
  updateWindowDims := [0]
  insertedWindowDims := [1, 2]
  scatterDimsToOperandDims := [1, 2]
  indexVectorDim := 1
  wf := scatter_S4096x64x64_S64x2_S4096x64_0_12_12_1_wf
def dot_S4096x64x64_S4096x64x100_S4096x64x100_2_1_1_2_0_0 : DotDims S4096x64x64 S4096x64x100 S4096x64x100 where
  lhsContracting := [2]
  rhsContracting := [1]
  lhsNonContracting := [1]
  rhsNonContracting := [2]
  lhsBatch := [0]
  rhsBatch := [0]
  wf := dot_S4096x64x64_S4096x64x100_S4096x64x100_2_1_1_2_0_0_wf

class Facts : Prop extends Facts₀ where

variable [Facts]
-- ==== Proof.Spec.lean ====
/-
  The one function both programs compute, index by index, over the extended reals.

  For a batch row `b`, a concept `i` and a Monte-Carlo draw `mm` the result is
  `sg (cmu b i + ∑ j, L b i j * eps b j mm)` where `cmu` and `csig` are the two linear heads
  (`lin`: a row of `x` against a row of the weight, plus the bias), and `L` is the lower-triangular
  scale matrix built from `csig`: entry `(i, j)` with `j < i` is `csig b (tri i + j)`, the diagonal
  entry is `sp (csig b (tri i + i))`, and the entries above the diagonal are zero
  (`tri i = i (i + 1) / 2` is the offset of row `i` in the packed lower triangle).
  The two scalar functions `sp` (softplus plus the diagonal shift) and `sg` (the logistic function)
  are parameters: each program spells them in its own operations, and the two spellings are
  shown equal separately.
-/
import Idealize.ShloMosaic.PureOps.Ideal
import Idealize.ShloMosaic.Lib.ValueIdx

noncomputable section

open scoped BigOperators

namespace Cert.Spec

open Idealize.ShloMosaic Idealize.ShloMosaic.ValueIdx

/-- Offset of row `i` in the row-major packed lower triangle. -/
def tri (i : ℕ) : ℕ := i * (i + 1) / 2

theorem tri_succ (i : ℕ) : tri (i + 1) = tri i + (i + 1) := by
  unfold tri
  have h : (i + 1) * (i + 1 + 1) = i * (i + 1) + 2 * (i + 1) := by ring
  rw [h, Nat.add_mul_div_left _ _ (by norm_num : 0 < 2)]

theorem tri_mono {i j : ℕ} (h : i ≤ j) : tri i ≤ tri j := by
  unfold tri; exact Nat.div_le_div_right (Nat.mul_le_mul h (by omega))

theorem tri_63 : tri 63 = 2016 := by decide

/-- A packed position `tri i + j` with `j ≤ i < 64` lies in the 2080 packed entries. -/
theorem tri_add_lt {i j : ℕ} (hi : i < 64) (hj : j ≤ i) : tri i + j < 2080 := by
  have h1 : tri i ≤ tri 63 := tri_mono (by omega)
  rw [tri_63] at h1; omega

/-- One linear head at batch row `r` and output `k`: the row of `x` against row `k` of the weight, plus the bias. -/
def lin {B n : ℕ} (x : (⟨2, ![B, 512]⟩ : Shape).Idx → EReal) (w : (⟨2, ![n, 512]⟩ : Shape).Idx → EReal)
    (b : (⟨1, ![n]⟩ : Shape).Idx → EReal) (r : Fin B) (k : Fin n) : EReal :=
  (∑ q : Fin 512, x (ix2 r q) * w (ix2 k q)) + b (ix1 k)

/-- The lower-triangular scale matrix of batch row `b` built from the packed entries `cs b`. -/
def Lmat {B : ℕ} (sp : EReal → EReal) (cs : Fin B → Fin 2080 → EReal) (b : Fin B) (i j : Fin 64) : EReal :=
  if h : j.val ≤ i.val then
    (if j.val = i.val then sp (cs b ⟨tri i.val + j.val, tri_add_lt i.isLt h⟩)
     else cs b ⟨tri i.val + j.val, tri_add_lt i.isLt h⟩)
  else 0

/-- One result entry from the two heads' values: `sg (cm b i + ∑ j, L b i j * eps b j mm)`. -/
def entry {B : ℕ} (sp sg : EReal → EReal) (cm : Fin B → Fin 64 → EReal) (cs : Fin B → Fin 2080 → EReal)
    (eps : (⟨3, ![B, 64, 100]⟩ : Shape).Idx → EReal) (b : Fin B) (i : Fin 64) (mm : Fin 100) : EReal :=
  sg (cm b i + ∑ j : Fin 64, Lmat sp cs b i j * eps (ix3 b j mm))

/-- The whole result as a function of the six argument arrays. -/
def G (sp sg : EReal → EReal)
    (x : (⟨2, ![4096, 512]⟩ : Shape).Idx → EReal) (eps : (⟨3, ![4096, 64, 100]⟩ : Shape).Idx → EReal)
    (wmu : (⟨2, ![64, 512]⟩ : Shape).Idx → EReal) (bmu : (⟨1, ![64]⟩ : Shape).Idx → EReal)
    (wsig : (⟨2, ![2080, 512]⟩ : Shape).Idx → EReal) (bsig : (⟨1, ![2080]⟩ : Shape).Idx → EReal)
    (b : Fin 4096) (i : Fin 64) (mm : Fin 100) : EReal :=
  entry sp sg (fun r k => lin x wmu bmu r k) (fun r k => lin x wsig bsig r k) eps b i mm

/-- The logistic function as the extended reals' `1 / (1 + e^(-y))`. -/
def sg (y : EReal) : EReal := Ideal.logistic y

/-- Softplus as both programs compute it, `max z 0 + log (1 + e^(-|z|))`, plus the diagonal shift `δ`. -/
def sp (δ : EReal) (z : EReal) : EReal := (max z 0 + Ideal.log1p (Ideal.exp (-(max (z - 0) (-(z - 0)))))) + δ

end Cert.Spec

end
-- ==== Proof.KDefs.lean ====
/-
  The fused linear head of one batch tile, as a plain sum.
-/
import proofs.«114601_j46170898432201_2_alg».proof.KernelIdeal
import proofs.«114601_j46170898432201_2_alg».proof.Proof.Spec
import Idealize.ShloMosaic.Lib.ValueIdx

noncomputable section

open scoped BigOperators

namespace Cert.KernelIdeal.KBody

open Cert.KernelIdeal Idealize.ShloMosaic Idealize.ShloMosaic.ValueIdx

/-- The diagonal shift: the float literal both programs add to the diagonal, as the extended real it denotes. -/
def δ : EReal := Ideal.ofBits .f32 0x358637BD#32

/-- The fused linear head of one batch tile: row `b` of the tile of `x` against row `n` of the concatenated weight,
    plus the concatenated bias. Outputs 0–63 are the mean head, outputs 64–2143 the packed scale entries. -/
def cK (x0 : Vec Ideal S128x512 .f32) (x1 : Vec Ideal S2144x512 .bf16) (x2 : Vec Ideal S1x2144 .f32) (b : Fin 128) (n : Fin 2144) : EReal :=
  (∑ q : Fin 512, x0 (ix2 b q) * x1 (ix2 n q)) + x2 (ix2 (0 : Fin 1) n)

end Cert.KernelIdeal.KBody

end
-- ==== Proof.KRow.lean ====
/-
  One row of the scale matrix as the kernel body writes it, read at an index.

  Row `r ≥ 1` of the batch tile's scale matrix is cut out of the packed entries at offset `off` with width `n`;
  its column `r` (the diagonal entry) goes through softplus and the shift and is broadcast back over the row; a
  select on "column = r" puts it on the diagonal and leaves the packed entries elsewhere. At an index (b, 0, j) of
  the stored [128, 1, n] piece this is `sp δ (v (b, off + r))` when `j = r` and `v (b, off + j)` otherwise.
  Row 0 has width one: its single entry is `sp δ (v (b, 0))`.
-/
import proofs.«114601_j46170898432201_2_alg».proof.Proof.Gen.KernelIdeal.Frame
import proofs.«114601_j46170898432201_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KRow

open Cert.KernelIdeal Idealize.ShloMosaic Idealize.ShloMosaic.TcCoe Idealize.ShloMosaic.ValueIdx

/-- The diagonal shift as the extended real its float literal denotes. -/
def δ : EReal := Ideal.ofBits .f32 0x358637BD#32

/-- A vector of zeros over the 128 batch rows. -/
def zeroV : FVec Ideal S128 .f32 := broadcast S128 (Scalar.ofBits (F := Ideal) .f32 0x00000000#32)

/-- Softplus over the 128 batch rows, as the body spells it. -/
def spV (z : FVec Ideal S128 .f32) : FVec Ideal S128 .f32 :=
  select (cmpf .one (subf z zeroV) (subf z zeroV)) (addf z zeroV)
    (addf (maximumf z zeroV) (log1p (exp (subf zeroV (absf (subf z zeroV))))))

/-- Softplus plus the shift over the 128 batch rows. -/
def spdV (z : FVec Ideal S128 .f32) : FVec Ideal S128 .f32 :=
  addf (spV z) (broadcast S128 (Scalar.ofBits (F := Ideal) .f32 0x358637BD#32))

/-- An extended real is never different from itself: the ordered "not equal" test of a value against itself is 0. -/
theorem cmp_one_self (a : EReal) : Ideal.cmp .one a a = 0#1 := by simp [Ideal.cmp]

/-- The kernel's spelling of softplus-plus-shift at one entry is the specification's. -/
theorem spdV_apply (z : FVec Ideal S128 .f32) (i : S128.Idx) : spdV z i = Cert.Spec.sp δ (z i) := by
  have h0 : FloatOps.ofBits (F := Ideal) .f32 0x00000000#32 = (0 : EReal) := Ideal.ofBits_zero_f32
  show Scalar.select (FloatOps.cmpf .one (z i - FloatOps.ofBits (F := Ideal) .f32 0x00000000#32) (z i - FloatOps.ofBits (F := Ideal) .f32 0x00000000#32))
      (z i + FloatOps.ofBits (F := Ideal) .f32 0x00000000#32)
      (max (z i) (FloatOps.ofBits (F := Ideal) .f32 0x00000000#32)
        + Ideal.log1p (Ideal.exp (FloatOps.ofBits (F := Ideal) .f32 0x00000000#32 - max (z i - FloatOps.ofBits (F := Ideal) .f32 0x00000000#32) (-(z i - FloatOps.ofBits (F := Ideal) .f32 0x00000000#32)))))
      + Ideal.ofBits .f32 0x358637BD#32 = _
  rw [h0, Ideal.cmpf_def, cmp_one_self, select_zero, zero_sub]
  rfl

/-- Row `r` (of width `n`, cut at offset `off`) of the scale matrix as the body builds it from the packed entries `v`. -/
def rowVal (n off r : ℕ)
    (h1 : S128x2080.Slices ![0, off] (⟨2, ![128, n]⟩ : Shape)) (h2 : (⟨2, ![128, n]⟩ : Shape).Slices ![0, r] S128x1)
    (h3 : S128x1.ShapeCasts S128) (h4 : S128.ShapeCasts S128x1) (h5 : S128x1.ShapeCasts S128x1)
    (h6 : S128x1.Broadcasts (⟨2, ![128, n]⟩ : Shape)) (h7 : (⟨2, ![128, n]⟩ : Shape).Iotas .tc 32 [1])
    (h8 : (⟨2, ![128, n]⟩ : Shape).ShapeCasts (⟨3, ![128, 1, n]⟩ : Shape))
    (v : FVec Ideal S128x2080 .f32) : FVec Ideal (⟨3, ![128, 1, n]⟩ : Shape) .f32 :=
  shapeCast (⟨3, ![128, 1, n]⟩ : Shape)
    (select (cmpi .eq (iota .tc (⟨2, ![128, n]⟩ : Shape) 32 [1] h7) (broadcast (⟨2, ![128, n]⟩ : Shape) (BitVec.ofNat 32 r)))
      (broadcastTo (⟨2, ![128, n]⟩ : Shape)
        (shapeCast S128x1 (shapeCast S128x1
          (spdV (shapeCast S128 (extractStridedSlice S128x1 ![0, r] (extractStridedSlice (⟨2, ![128, n]⟩ : Shape) ![0, off] v h1) h2) h3)) h4) h5) h6)
      (extractStridedSlice (⟨2, ![128, n]⟩ : Shape) ![0, off] v h1)) h8

/-- Comparing two 32-bit words made from naturals below 2^32 for equality is comparing the naturals. -/
theorem cmpi_eq_ofNat (a b : ℕ) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · have : (BitVec.ofNat 32 a == BitVec.ofNat 32 b) = false := by
      rw [beq_eq_false_iff_ne]
      intro he
      apply h
      have := congrArg BitVec.toNat he
      rw [BitVec.toNat_ofNat, BitVec.toNat_ofNat, Nat.mod_eq_of_lt ha, Nat.mod_eq_of_lt hb] at this
      exact this
    simp [this, h]

/-- Row `r` read at (b, 0, j): the diagonal value at column `r`, the packed entry elsewhere. -/
theorem rowVal_apply (n off r : ℕ)
    (h1 : S128x2080.Slices ![0, off] (⟨2, ![128, n]⟩ : Shape)) (h2 : (⟨2, ![128, n]⟩ : Shape).Slices ![0, r] S128x1)
    (h3 : S128x1.ShapeCasts S128) (h4 : S128.ShapeCasts S128x1) (h5 : S128x1.ShapeCasts S128x1)
    (h6 : S128x1.Broadcasts (⟨2, ![128, n]⟩ : Shape)) (h7 : (⟨2, ![128, n]⟩ : Shape).Iotas .tc 32 [1])
    (h8 : (⟨2, ![128, n]⟩ : Shape).ShapeCasts (⟨3, ![128, 1, n]⟩ : Shape))
    (v : FVec Ideal S128x2080 .f32) (hr : r < n) (hoff : off + n ≤ 2080) (b : Fin 128) (j : Fin n) :
    rowVal n off r h1 h2 h3 h4 h5 h6 h7 h8 v (ix3 b (0 : Fin 1) j)
      = if j.val = r then Cert.Spec.sp δ (v (ix2 b ⟨off + r, by omega⟩)) else v (ix2 b ⟨off + j.val, by omega⟩) := by
  unfold rowVal
  refine (shapeCast_apply _ h8 (ix3 b (0 : Fin 1) j) (ix2 b j) ?_).trans ?_
  · rw [Shape.rowMajor_val_two, Shape.rowMajor_val_three]
    show b.val * n + j.val = (b.val * 1 + 0) * n + j.val
    simp
  show Scalar.select (IntOp.cmpi .eq (iota .tc (⟨2, ![128, n]⟩ : Shape) 32 [1] h7 (ix2 b j)) (BitVec.ofNat 32 r)) _ _ = _
  rw [iota_single_apply]
  show Scalar.select (IntOp.cmpi .eq (BitVec.ofNat 32 j.val) (BitVec.ofNat 32 r)) _ _ = _
  have hj : j.val < 2 ^ 32 := by have := j.isLt; omega
  rw [cmpi_eq_ofNat _ _ hj (by omega)]
  by_cases hjr : j.val = r
  · rw [if_pos hjr, if_pos hjr, select_one]
    refine (broadcastTo_apply _ h6 (ix2 b j) (ix2 b (0 : Fin 1)) ?_).trans ?_
    · intro a; match a with
      | ⟨0, _⟩ => rfl
      | ⟨1, _⟩ => rfl
    refine (shapeCast_apply _ h5 (ix2 b (0 : Fin 1)) (ix2 b (0 : Fin 1)) rfl).trans ?_
    refine (shapeCast_apply _ h4 (ix2 b (0 : Fin 1)) (ix1 b) ?_).trans ?_
    · rw [Shape.rowMajor_val_one, Shape.rowMajor_val_two]; show b.val = b.val * 1 + 0; simp
    rw [spdV_apply]
    congr 1
    refine (shapeCast_apply _ h3 (ix1 b) (ix2 b (0 : Fin 1)) ?_).trans ?_
    · rw [Shape.rowMajor_val_one, Shape.rowMajor_val_two]; show b.val * 1 + 0 = b.val; simp
    refine (extractStridedSlice_apply _ _ h2 (ix2 b (0 : Fin 1)) (ix2 b (⟨r, hr⟩ : Fin n)) ?_).trans ?_
    · intro a; match a with
      | ⟨0, _⟩ => show b.val = 0 + b.val; omega
      | ⟨1, _⟩ => show r = r + 0; omega
    refine extractStridedSlice_apply _ _ h1 (ix2 b (⟨r, hr⟩ : Fin n)) _ ?_
    intro a; match a with
      | ⟨0, _⟩ => show b.val = 0 + b.val; omega
      | ⟨1, _⟩ => rfl
  · rw [if_neg hjr, if_neg hjr, select_zero]
    refine extractStridedSlice_apply _ _ h1 (ix2 b j) _ ?_
    intro a; match a with
      | ⟨0, _⟩ => show b.val = 0 + b.val; omega
      | ⟨1, _⟩ => rfl

end Cert.KernelIdeal.KRow

end
-- ==== Proof.KPay.lean ====
/-
  The kernel's pure values read at one index.

  The fused linear head of a batch tile is the product of the tile of `x` with the concatenated weight, contracted
  over the 512 features, plus the concatenated bias; its first 64 columns are the mean head and the remaining 2080 the
  packed scale entries. The final value is the logistic function of the mean plus the batched product of the scale
  matrix with the draws. Conversions between float formats are the identity on the extended reals.
-/
import proofs.«114601_j46170898432201_2_alg».proof.Proof.Gen.KernelIdeal.Skeleton
import proofs.«114601_j46170898432201_2_alg».proof.Proof.KDefs
import proofs.«114601_j46170898432201_2_alg».proof.Proof.Spec
import Idealize.ShloMosaic.PureOps.Ideal.Laws
import Idealize.ShloMosaic.Lib.StackMember
import Idealize.ShloMosaic.Lib.ValueLayout

noncomputable section

open scoped BigOperators

namespace Cert.KernelIdeal.KPay

open Cert.KernelIdeal Cert.KernelIdeal.Gen Idealize.ShloMosaic Idealize.ShloMosaic.ValueIdx
open Idealize.ShloMosaic.StackMember

/-- A product contracting the last axis of both operands, accumulated into zero, read at `(a, b)`: the sum over the
    contracted coordinate of row `a` of the left operand against row `b` of the right. -/
theorem matmul_rows_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The mean with a unit axis appended and repeated over the draws reads, at `(b, r, mm)`, the mean at `(b, r)`. -/
theorem mean_apply (v9 : FVec Ideal S128x64 .f32) (b : Fin 128) (r : Fin 64) (mm : Fin 100) :
    broadcastTo S128x64x100 (shapeCast S128x64x1 v9 shapeCasts_S128x64_S128x64x1) broadcasts_S128x64x1_S128x64x100 (ix3 b r mm)
      = v9 (ix2 b r) := by
  rw [broadcastTo_apply _ broadcasts_S128x64x1_S128x64x100 (ix3 b r mm) (ix3 b r (0 : Fin 1)) (fun a => by
    match a with
    | ⟨0, _⟩ => show b.val = if (128 : ℕ) = 1 then 0 else b.val; rw [if_neg (by decide)]
    | ⟨1, _⟩ => show r.val = if (64 : ℕ) = 1 then 0 else r.val; rw [if_neg (by decide)]
    | ⟨2, _⟩ => show (0 : ℕ) = if (1 : ℕ) = 1 then 0 else mm.val; rw [if_pos rfl])]
  exact shapeCast_apply v9 shapeCasts_S128x64_S128x64x1 (ix3 b r (0 : Fin 1)) (ix2 b r) (by
    rw [Shape.rowMajor_val_two, Shape.rowMajor_val_three]
    show b.val * 64 + r.val = (b.val * 64 + r.val) * 1 + 0
    omega)

/-- The final value at `(b, r, mm)`: the logistic function of the mean plus row `r` of the scale matrix against draw `mm`. -/
theorem pay1_apply (v9 : FVec Ideal S128x64 .f32) (v1869 : FVec Ideal S128x64x64 .bf16) (v1870 : Vec Ideal S128x64x100 .f32) (b : Fin 128) (r : Fin 64) (mm : Fin 100) :
    k0_pay1 (F := Ideal) v9 v1869 v1870 (ix3 b r mm) = Cert.Spec.sg (v9 (ix2 b r) + ∑ j : Fin 64, v1869 (ix3 b r j) * v1870 (ix3 b j mm)) := by
  have h0 : k0_pay1 (F := Ideal) v9 v1869 v1870 (ix3 b r mm)
      = Ideal.logistic (broadcastTo S128x64x100 (shapeCast S128x64x1 v9 shapeCasts_S128x64_S128x64x1) broadcasts_S128x64x1_S128x64x100 (ix3 b r mm)
        + matmul dot_S128x64x64_S128x64x100_S128x64x100_2_1_1_2_0_0 none v1869 (truncf .bf16 v1870 bitsLt_bf16_f32)
            (constant (F := Ideal) S128x64x100 .f32 0x00000000#32) (ix3 b r mm)) := rfl
  have hm : matmul dot_S128x64x64_S128x64x100_S128x64x100_2_1_1_2_0_0 none v1869 (truncf .bf16 v1870 bitsLt_bf16_f32)
        (constant (F := Ideal) S128x64x100 .f32 0x00000000#32) (ix3 b r mm)
      = ∑ j : Fin 64, v1869 (ix3 b r j) * v1870 (ix3 b j mm) :=
    ((Ideal.matmul_constant_zero_apply _ none v1869 (truncf .bf16 v1870 bitsLt_bf16_f32) (ix3 b r mm)).trans
      (Ideal.dotGeneral_apply _ none .single v1869 (truncf .bf16 v1870 bitsLt_bf16_f32) (ix3 b r mm)).symm).trans
      (dotGeneral_stack_apply (G := 128) (m := 64) (n := 100) (k := 64) dot_S128x64x64_S128x64x100_S128x64x100_2_1_1_2_0_0_wf none
        v1869 (truncf .bf16 v1870 bitsLt_bf16_f32) b r mm)
  rw [h0, hm, mean_apply]
  rfl

/-- The fused linear head at `(b, n)`. -/
theorem pay2_apply (x0 : Vec Ideal S128x512 .f32) (x1 : Vec Ideal S2144x512 .bf16) (x2 : Vec Ideal S1x2144 .f32) (b : Fin 128) (n : Fin 2144) :
    k0_pay2 (F := Ideal) x0 x1 x2 (ix2 b n) = KBody.cK x0 x1 x2 b n := by
  have h0 : k0_pay2 (F := Ideal) x0 x1 x2 (ix2 b n)
      = matmul dot_S128x512_S2144x512_S128x2144_1_1_0_0_n_n none (truncf .bf16 x0 bitsLt_bf16_f32)
          (shapeCast S2144x512 x1 shapeCasts_S2144x512_S2144x512) (constant (F := Ideal) S128x2144 .f32 0x00000000#32) (ix2 b n)
        + broadcastTo S128x2144 (shapeCast S1x2144 x2 shapeCasts_S1x2144_S1x2144) broadcasts_S1x2144_S128x2144 (ix2 b n) := rfl
  rw [h0, shapeCast_self, shapeCast_self, broadcastTo_1b_ab_apply]
  have hm := matmul_rows_apply (m := 128) (k := 512) (n := 2144) (φ₂ := .bf16) dot_S128x512_S2144x512_S128x2144_1_1_0_0_n_n_wf none
    (truncf .bf16 x0 bitsLt_bf16_f32) x1 b n
  unfold KBody.cK
  exact congrArg (· + x2 (ix2 (0 : Fin 1) n)) hm

/-- The mean head's columns: the first 64 of the fused head. -/
theorem pay3_apply (x0 : Vec Ideal S128x512 .f32) (x1 : Vec Ideal S2144x512 .bf16) (x2 : Vec Ideal S1x2144 .f32) (b : Fin 128) (k : Fin 64) :
    k0_pay3 (F := Ideal) x0 x1 x2 (ix2 b k) = KBody.cK x0 x1 x2 b ⟨k.val, by omega⟩ := by
  rw [← pay2_apply]
  exact slice2_axis1_apply 0 (k0_pay2 (F := Ideal) x0 x1 x2) slices_S128x2144_o0_0_S128x64 b k ⟨k.val, by omega⟩ (Nat.zero_add _).symm

/-- The packed scale entries' columns: the fused head from column 64 on. -/
theorem pay4_apply (x0 : Vec Ideal S128x512 .f32) (x1 : Vec Ideal S2144x512 .bf16) (x2 : Vec Ideal S1x2144 .f32) (b : Fin 128) (n : Fin 2080) :
    k0_pay4 (F := Ideal) x0 x1 x2 (ix2 b n) = KBody.cK x0 x1 x2 b ⟨64 + n.val, by omega⟩ := by
  rw [← pay2_apply]
  exact slice2_axis1_apply 64 (k0_pay2 (F := Ideal) x0 x1 x2) slices_S128x2144_o0_64_S128x2080 b n ⟨64 + n.val, by omega⟩ rfl

/-- The conversion of the scale matrix to the narrower format is the identity on the extended reals. -/
theorem pay190_eq (v : Vec Ideal S128x64x64 .f32) : k0_pay190 (F := Ideal) v = v := rfl

end Cert.KernelIdeal.KPay

end
-- ==== Proof.KList.lean ====
/-
  The batch tile's scale matrix as the kernel body leaves it in its scratch, read at an index.

  The body stores zeros over the whole [128, 64, 64] scratch and then, for each row r = 0 … 63, the r + 1 leading
  entries of that row over all 128 batch rows. A later store overwrites an earlier one where they overlap, so at
  an index (b, r, j) with j ≤ r the scratch holds row r's stored value — the packed entry tri r + j, through softplus
  and the shift on the diagonal — and at an index above the diagonal the zero of the first store: the
  specification's lower-triangular matrix.
-/
import proofs.«114601_j46170898432201_2_alg».proof.Proof.Gen.KernelIdeal.Frame
import proofs.«114601_j46170898432201_2_alg».proof.Proof.KRow
import proofs.«114601_j46170898432201_2_alg».proof.Proof.Spec
import Idealize.ShloMosaic.Lib.Pipeline.Value
import Idealize.ShloMosaic.Lib.Pipeline.CanonAppend
import Idealize.ShloMosaic.Lib.ValueIdx

set_option maxRecDepth 16384

noncomputable section

namespace Cert.KernelIdeal.KList

open Cert.KernelIdeal Cert.KernelIdeal.Gen Idealize.ShloMosaic Idealize.ShloMosaic.TcCoe Idealize.ShloMosaic.ValueIdx

theorem hA : ∀ k : Fin 63, S128x2080.Slices ![0, Cert.Spec.tri (k.val + 1)] (⟨2, ![128, k.val + 2]⟩ : Shape) := by decide
theorem hB : ∀ k : Fin 63, (⟨2, ![128, k.val + 2]⟩ : Shape).Slices ![0, k.val + 1] S128x1 := by decide
theorem hC : S128x1.ShapeCasts S128 := by decide
theorem hD : S128.ShapeCasts S128x1 := by decide
theorem hE : S128x1.ShapeCasts S128x1 := by decide
theorem hF : ∀ k : Fin 63, S128x1.Broadcasts (⟨2, ![128, k.val + 2]⟩ : Shape) := by decide
theorem hG : ∀ k : Fin 63, (⟨2, ![128, k.val + 2]⟩ : Shape).Iotas .tc 32 [1] := by decide
theorem hH : ∀ k : Fin 63, (⟨2, ![128, k.val + 2]⟩ : Shape).ShapeCasts (⟨3, ![128, 1, k.val + 2]⟩ : Shape) := by decide
theorem hI : ∀ k : Fin 63, ∀ a, (![0, k.val + 1, 0] : Fin 3 → ℕ) a + (![128, 1, k.val + 2] : Fin 3 → ℕ) a ≤ S128x64x64.size a := by decide
theorem hA0 : S128x2080.Slices ![0, 0] S128x1 := by decide
theorem hG0 : S128x1.Iotas .tc 32 [1] := by decide
theorem hH0 : S128x1.ShapeCasts S128x1x1 := by decide
theorem hI0 : ∀ a, (![0, 0, 0] : Fin 3 → ℕ) a + (![128, 1, 1] : Fin 3 → ℕ) a ≤ S128x64x64.size a := by decide
theorem hIz : ∀ a, (![0, 0, 0] : Fin 3 → ℕ) a + S128x64x64.size a ≤ S128x64x64.size a := by decide

/-- Row `k + 1` of the scale matrix as a stored piece: the rectangle of its `k + 2` leading columns, over all batch rows. -/
def rowPiece (k : Fin 63) (v : FVec Ideal S128x2080 .f32) : View.Piece (Elt Ideal) S128x64x64 .f32 :=
  ⟨Rect.unit ![0, k.val + 1, 0] ![128, 1, k.val + 2] (hI k),
    KRow.rowVal (k.val + 2) (Cert.Spec.tri (k.val + 1)) (k.val + 1) (hA k) (hB k) hC hD hE (hF k) (hG k) (hH k) v⟩

/-- Row 0 of the scale matrix as the body builds it: its one entry through softplus and the shift. -/
def row0Val (v : FVec Ideal S128x2080 .f32) : FVec Ideal S128x1x1 .f32 :=
  shapeCast S128x1x1
    (select (cmpi .eq (iota .tc S128x1 32 [1] hG0) (broadcast S128x1 (0#32)))
      (shapeCast S128x1 (KRow.spdV (shapeCast S128 (extractStridedSlice S128x1 ![0, 0] v hA0) hC)) hD)
      (extractStridedSlice S128x1 ![0, 0] v hA0)) hH0

/-- Row 0 as a stored piece. -/
def row0Piece (v : FVec Ideal S128x2080 .f32) : View.Piece (Elt Ideal) S128x64x64 .f32 :=
  ⟨Rect.unit ![0, 0, 0] ![128, 1, 1] hI0, row0Val v⟩

/-- The zeros stored first over the whole scratch. -/
def zeroPiece : View.Piece (Elt Ideal) S128x64x64 .f32 :=
  ⟨Rect.unit ![0, 0, 0] S128x64x64.size hIz, k0_pay5 (F := Ideal)⟩

/-- The row pieces, last stored first: rows 63, 62, …, 1. -/
def rows (v : FVec Ideal S128x2080 .f32) : List (View.Piece (Elt Ideal) S128x64x64 .f32) :=
  List.ofFn fun i : Fin 63 => rowPiece i.rev v

variable (c : Dev nD) (arg1 : Memref sig .tc .vmem S128x512 .f32) (harg1 : arg1.IsWhole) (arg2 : Memref sig .tc .vmem S2144x512 .bf16) (harg2 : arg2.IsWhole) (arg3 : Memref sig .tc .vmem S1x2144 .f32) (harg3 : arg3.IsWhole) (x0 : Vec Ideal S128x512 .f32) (x1 : Vec Ideal S2144x512 .bf16) (x2 : Vec Ideal S1x2144 .f32)

/-! ## The specification's matrix, below and above the diagonal -/

theorem Lmat_low (sp : EReal → EReal) (cs : Fin 128 → Fin 2080 → EReal) (b : Fin 128) (i j : Fin 64) (h : j.val ≤ i.val) :
    Cert.Spec.Lmat sp cs b i j
      = if j.val = i.val then sp (cs b ⟨Cert.Spec.tri i.val + i.val, Cert.Spec.tri_add_lt i.isLt le_rfl⟩)
        else cs b ⟨Cert.Spec.tri i.val + j.val, Cert.Spec.tri_add_lt i.isLt h⟩ := by
  unfold Cert.Spec.Lmat
  rw [dif_pos h]
  by_cases hji : j.val = i.val
  · rw [if_pos hji, if_pos hji]
    congr 2
    apply Fin.ext
    show Cert.Spec.tri i.val + j.val = Cert.Spec.tri i.val + i.val
    rw [hji]
  · rw [if_neg hji, if_neg hji]

theorem Lmat_high (sp : EReal → EReal) (cs : Fin 128 → Fin 2080 → EReal) (b : Fin 128) (i j : Fin 64) (h : i.val < j.val) :
    Cert.Spec.Lmat sp cs b i j = 0 := by
  unfold Cert.Spec.Lmat
  rw [dif_neg (by omega)]

/-- The scale matrix of the specification as a function of the scratch index. -/
def G (v : FVec Ideal S128x2080 .f32) (y : S128x64x64.Idx) : EReal :=
  Cert.Spec.Lmat (B := 128) (Cert.Spec.sp KRow.δ) (fun b n => v (ix2 b n)) (y 0) (y 1) (y 2)

/-! ## Which indices a piece covers -/

theorem rowPiece_mem (k : Fin 63) (v : FVec Ideal S128x2080 .f32) (b : Fin 128) (i j : Fin 64) :
    ix3 b i j ∈ (rowPiece k v).1.set ↔ i.val = k.val + 1 ∧ j.val < k.val + 2 := by
  show ix3 b i j ∈ (Rect.unit (s := S128x64x64) ![0, k.val + 1, 0] ![128, 1, k.val + 2] (hI k)).set ↔ _
  rw [Rect.mem_set_unit]
  constructor
  · intro h
    have h1 : k.val + 1 ≤ i.val ∧ i.val < k.val + 1 + 1 := h 1
    have h2 : 0 ≤ j.val ∧ j.val < 0 + (k.val + 2) := h 2
    omega
  · rintro ⟨hi, hj⟩ a
    match a with
    | ⟨0, _⟩ => show 0 ≤ b.val ∧ b.val < 0 + 128; omega
    | ⟨1, _⟩ => show k.val + 1 ≤ i.val ∧ i.val < k.val + 1 + 1; omega
    | ⟨2, _⟩ => show 0 ≤ j.val ∧ j.val < 0 + (k.val + 2); omega

theorem row0Piece_mem (v : FVec Ideal S128x2080 .f32) (b : Fin 128) (i j : Fin 64) :
    ix3 b i j ∈ (row0Piece v).1.set ↔ i.val = 0 ∧ j.val = 0 := by
  show ix3 b i j ∈ (Rect.unit (s := S128x64x64) ![0, 0, 0] ![128, 1, 1] hI0).set ↔ _
  rw [Rect.mem_set_unit]
  constructor
  · intro h
    have h1 : 0 ≤ i.val ∧ i.val < 0 + 1 := h 1
    have h2 : 0 ≤ j.val ∧ j.val < 0 + 1 := h 2
    omega
  · rintro ⟨hi, hj⟩ a
    match a with
    | ⟨0, _⟩ => show 0 ≤ b.val ∧ b.val < 0 + 128; omega
    | ⟨1, _⟩ => show 0 ≤ i.val ∧ i.val < 0 + 1; omega
    | ⟨2, _⟩ => show 0 ≤ j.val ∧ j.val < 0 + 1; omega

/-! ## Each row piece holds the specification's matrix on its rectangle -/

theorem rowPiece_agree (k : Fin 63) (v : FVec Ideal S128x2080 .f32) (x : (⟨3, ![128, 1, k.val + 2]⟩ : Shape).Idx) :
    KRow.rowVal (k.val + 2) (Cert.Spec.tri (k.val + 1)) (k.val + 1) (hA k) (hB k) hC hD hE (hF k) (hG k) (hH k) v x
      = G v ((Rect.unit (s := S128x64x64) ![0, k.val + 1, 0] ![128, 1, k.val + 2] (hI k)).emb x) := by
  have hoff : Cert.Spec.tri (k.val + 1) + (k.val + 2) ≤ 2080 := by
    have := Cert.Spec.tri_add_lt (i := k.val + 1) (j := k.val + 1) (by omega) le_rfl
    omega
  have key : ∀ (b : Fin 128) (j : Fin (k.val + 2)),
      KRow.rowVal (k.val + 2) (Cert.Spec.tri (k.val + 1)) (k.val + 1) (hA k) (hB k) hC hD hE (hF k) (hG k) (hH k) v (ix3 b (0 : Fin 1) j)
        = G v ((Rect.unit (s := S128x64x64) ![0, k.val + 1, 0] ![128, 1, k.val + 2] (hI k)).emb (ix3 b (0 : Fin 1) j)) := by
    intro b j
    rw [KRow.rowVal_apply _ _ _ _ _ _ _ _ _ _ _ v (Nat.lt_succ_self _) hoff b j]
    have he : (Rect.unit (s := S128x64x64) ![0, k.val + 1, 0] ![128, 1, k.val + 2] (hI k)).emb (ix3 b (0 : Fin 1) j)
        = ix3 b (⟨k.val + 1, by omega⟩ : Fin 64) (⟨j.val, by omega⟩ : Fin 64) := by
      funext a
      apply Fin.ext
      match a with
      | ⟨0, _⟩ => show 0 + 1 * b.val = b.val; omega
      | ⟨1, _⟩ => show k.val + 1 + 1 * 0 = k.val + 1; omega
      | ⟨2, _⟩ => show 0 + 1 * j.val = j.val; omega
    rw [he]
    show _ = Cert.Spec.Lmat (B := 128) (Cert.Spec.sp KRow.δ) (fun b n => v (ix2 b n)) b (⟨k.val + 1, by omega⟩ : Fin 64) (⟨j.val, by omega⟩ : Fin 64)
    rw [Lmat_low _ _ _ _ _ (show j.val ≤ k.val + 1 by omega)]
  have h1 : x 1 = (0 : Fin 1) := Fin.ext (Nat.lt_one_iff.mp (x 1).isLt)
  have hx : x = ix3 (x 0) (0 : Fin 1) (x 2) := (eq_ix3 x).trans (congrArg (fun t => ix3 (x 0) t (x 2)) h1)
  rw [hx]
  exact key _ _

/-- Row 0 read at its one entry per batch row. -/
theorem row0Val_apply (v : FVec Ideal S128x2080 .f32) (b : Fin 128) :
    row0Val v (ix3 b (0 : Fin 1) (0 : Fin 1)) = Cert.Spec.sp KRow.δ (v (ix2 b ⟨0, by omega⟩)) := by
  unfold row0Val
  refine (shapeCast_apply _ hH0 (ix3 b (0 : Fin 1) (0 : Fin 1)) (ix2 b (0 : Fin 1)) ?_).trans ?_
  · rw [Shape.rowMajor_val_two, Shape.rowMajor_val_three]
    show b.val * 1 + 0 = (b.val * 1 + 0) * 1 + 0
    simp
  show Scalar.select (IntOp.cmpi .eq (iota .tc S128x1 32 [1] hG0 (ix2 b (0 : Fin 1))) (BitVec.ofNat 32 0)) _ _ = _
  rw [iota_single_apply]
  show Scalar.select (IntOp.cmpi .eq (BitVec.ofNat 32 0) (BitVec.ofNat 32 0)) _ _ = _
  rw [KRow.cmpi_eq_ofNat _ _ (by norm_num) (by norm_num), if_pos rfl, select_one]
  refine (shapeCast_apply _ hD (ix2 b (0 : Fin 1)) (ix1 b) ?_).trans ?_
  · rw [Shape.rowMajor_val_one, Shape.rowMajor_val_two]; show b.val = b.val * 1 + 0; simp
  rw [KRow.spdV_apply]
  congr 1
  refine (shapeCast_apply _ hC (ix1 b) (ix2 b (0 : Fin 1)) ?_).trans ?_
  · rw [Shape.rowMajor_val_one, Shape.rowMajor_val_two]; show b.val * 1 + 0 = b.val; simp
  refine extractStridedSlice_apply _ _ hA0 (ix2 b (0 : Fin 1)) _ ?_
  intro a; match a with
    | ⟨0, _⟩ => show b.val = 0 + b.val; omega
    | ⟨1, _⟩ => rfl

theorem row0Piece_agree (v : FVec Ideal S128x2080 .f32) (x : (⟨3, ![128, 1, 1]⟩ : Shape).Idx) :
    row0Val v x = G v ((Rect.unit (s := S128x64x64) ![0, 0, 0] ![128, 1, 1] hI0).emb x) := by
  have key : ∀ b : Fin 128, row0Val v (ix3 b (0 : Fin 1) (0 : Fin 1))
      = G v ((Rect.unit (s := S128x64x64) ![0, 0, 0] ![128, 1, 1] hI0).emb (ix3 b (0 : Fin 1) (0 : Fin 1))) := by
    intro b
    rw [row0Val_apply]
    have he : (Rect.unit (s := S128x64x64) ![0, 0, 0] ![128, 1, 1] hI0).emb (ix3 b (0 : Fin 1) (0 : Fin 1))
        = ix3 b (⟨0, by omega⟩ : Fin 64) (⟨0, by omega⟩ : Fin 64) := by
      funext a
      apply Fin.ext
      match a with
      | ⟨0, _⟩ => show 0 + 1 * b.val = b.val; omega
      | ⟨1, _⟩ => rfl
      | ⟨2, _⟩ => rfl
    rw [he]
    show _ = Cert.Spec.Lmat (B := 128) (Cert.Spec.sp KRow.δ) (fun b n => v (ix2 b n)) b (⟨0, by omega⟩ : Fin 64) (⟨0, by omega⟩ : Fin 64)
    rw [Lmat_low _ _ _ _ _ (le_refl _), if_pos rfl]
    rfl
  have h1 : x 1 = (0 : Fin 1) := Fin.ext (Nat.lt_one_iff.mp (x 1).isLt)
  have h2 : x 2 = (0 : Fin 1) := Fin.ext (Nat.lt_one_iff.mp (x 2).isLt)
  have hx : x = ix3 (x 0) (0 : Fin 1) (0 : Fin 1) :=
    (eq_ix3 x).trans ((congrArg (fun t => ix3 (x 0) t (x 2)) h1).trans (congrArg (fun t => ix3 (x 0) (0 : Fin 1) t) h2))
  rw [hx]
  exact key _

/-- The zeros stored first are zero at every index. -/
theorem zero_apply (y : S128x64x64.Idx) : k0_pay5 (F := Ideal) y = 0 := by
  unfold k0_pay5
  refine (shapeCast_apply _ shapeCasts_S128x64x64_S128x64x64 y y rfl).trans ?_
  show FloatOps.ofBits (F := Ideal) .f32 0#32 = (0 : EReal)
  exact Ideal.ofBits_zero_f32

/-! ## Reading the list -/

/-- Stores none of which covers an index leave there what the earlier stores left. -/
theorem canon_append_of_not_mem (L L' : List (View.Piece (Elt Ideal) S128x64x64 .f32)) (y : S128x64x64.Idx)
    (h : ∀ p ∈ L, y ∉ p.1.set) : View.canon (L ++ L') y = View.canon L' y := by
  induction L with
  | nil => rfl
  | cons p L ih =>
    rw [List.cons_append, View.canon_cons_of_not_mem _ _ (h p (by simp))]
    exact ih (fun q hq => h q (by simp [hq]))

theorem hz3 : (![0, 0, 0] : Fin 3 → ℕ) = fun _ => 0 := by funext a; fin_cases a <;> rfl
theorem hz2 : (![0, 0] : Fin 2 → ℕ) = fun _ => 0 := by funext a; fin_cases a <;> rfl

/-- What the sixty-five stores leave: the specification's matrix — on and below the diagonal the last store that covers the
    index is its row's, above it only the zeros cover. -/
theorem canon_L (v : FVec Ideal S128x2080 .f32) (b : Fin 128) (r j : Fin 64) :
    View.canon (rows v ++ [row0Piece v, zeroPiece]) (ix3 b r j)
      = Cert.Spec.Lmat (B := 128) (Cert.Spec.sp KRow.δ) (fun b n => v (ix2 b n)) b r j := by
  have hsplit : rows v ++ [row0Piece v, zeroPiece] = (rows v ++ [row0Piece v]) ++ [zeroPiece] := by simp
  rw [hsplit]
  by_cases hjr : j.val ≤ r.val
  · refine (View.canon_append_of_pieces (G v) [zeroPiece] (rows v ++ [row0Piece v]) ?_ (ix3 b r j) ?_).trans rfl
    · intro p hp x
      rcases List.mem_append.mp hp with hp | hp
      · obtain ⟨i, rfl⟩ := List.mem_ofFn.mp hp
        exact rowPiece_agree i.rev v x
      · obtain rfl := List.mem_singleton.mp hp
        exact row0Piece_agree v x
    · by_cases hr0 : r.val = 0
      · exact ⟨row0Piece v, by simp, (row0Piece_mem v b r j).mpr ⟨hr0, by omega⟩⟩
      · refine ⟨rowPiece ⟨r.val - 1, by omega⟩ v, ?_, ?_⟩
        · refine List.mem_append.mpr (Or.inl (List.mem_ofFn.mpr ⟨(⟨r.val - 1, by omega⟩ : Fin 63).rev, ?_⟩))
          show rowPiece (Fin.rev (Fin.rev ⟨r.val - 1, _⟩)) v = _
          rw [Fin.rev_rev]
        · refine (rowPiece_mem _ v b r j).mpr ⟨?_, ?_⟩
          · show r.val = r.val - 1 + 1; omega
          · show j.val < r.val - 1 + 2; omega
  · rw [canon_append_of_not_mem _ _ _ ?_]
    · rw [Lmat_high _ _ _ _ _ (by omega)]
      have hz := View.canon_cons_unit_zero (Val := Elt Ideal) (S := S128x64x64) (e := .f32) hz3 hIz (k0_pay5 (F := Ideal)) []
      exact (congrFun hz (ix3 b r j)).trans (zero_apply _)
    · intro p hp hmem
      rcases List.mem_append.mp hp with hp | hp
      · obtain ⟨i, rfl⟩ := List.mem_ofFn.mp hp
        have := (rowPiece_mem i.rev v b r j).mp hmem
        omega
      · obtain rfl := List.mem_singleton.mp hp
        have := (row0Piece_mem v b r j).mp hmem
        omega

set_option maxHeartbeats 4000000 in
/-- The body's list of stores is the rows' pieces, last first, then row 0 and the zeros: every payload is its row's
    operations over the packed entries, by unfolding the names. -/
theorem hs_eq : kernelRun0_A.sl.HS0_65 (F := Ideal) c arg1 harg1 arg2 harg2 arg3 harg3 x0 x1 x2
    = rows (kernelRun0_A.sl.r_1 (F := Ideal) c arg1 harg1 arg2 harg2 arg3 harg3 x0 x1 x2)
      ++ [row0Piece (kernelRun0_A.sl.r_1 (F := Ideal) c arg1 harg1 arg2 harg2 arg3 harg3 x0 x1 x2), zeroPiece] := rfl

/-- The packed entries the rows are cut from are the second head's values of the three loaded inputs. -/
theorem r1_eq : kernelRun0_A.sl.r_1 (F := Ideal) c arg1 harg1 arg2 harg2 arg3 harg3 x0 x1 x2 = k0_pay4 (F := Ideal) x0 x1 x2 := by
  unfold kernelRun0_A.sl.r_1
  simp only [View.readAt_eq_ld, Memref.IsWhole.read_unread, View.ld_unit_zero (S := S128x512) hz2,
    View.ld_unit_zero (S := S2144x512) hz2, View.ld_unit_zero (S := S1x2144) hz2]

/-- The scratch after the sixty-five stores holds the specification's scale matrix of the packed entries. -/
theorem canon_eq (c : Dev nD) (arg1 : Memref sig .tc .vmem S128x512 .f32) (harg1 : arg1.IsWhole) (arg2 : Memref sig .tc .vmem S2144x512 .bf16) (harg2 : arg2.IsWhole) (arg3 : Memref sig .tc .vmem S1x2144 .f32) (harg3 : arg3.IsWhole) (x0 : Vec Ideal S128x512 .f32) (x1 : Vec Ideal S2144x512 .bf16) (x2 : Vec Ideal S1x2144 .f32) (b : Fin 128) (r j : Fin 64) :
    View.canon (kernelRun0_A.sl.HS0_65 (F := Ideal) c arg1 harg1 arg2 harg2 arg3 harg3 x0 x1 x2) (ix3 b r j)
      = Cert.Spec.Lmat (Cert.Spec.sp KRow.δ) (fun b n => k0_pay4 (F := Ideal) x0 x1 x2 (ix2 b n)) b r j := by
  rw [hs_eq, r1_eq]
  exact canon_L (k0_pay4 (F := Ideal) x0 x1 x2) b r j

end Cert.KernelIdeal.KList

end
-- ==== Proof.KBody.lean ====
/-
  The kernel body's result block, index by index, over the extended reals: the logistic function of the mean entry plus
  the row of the tile's scale matrix against the column of the tile's draws.
-/
import proofs.«114601_j46170898432201_2_alg».proof.Proof.Gen.KernelIdeal.Frame
import proofs.«114601_j46170898432201_2_alg».proof.Proof.Spec
import proofs.«114601_j46170898432201_2_alg».proof.Proof.KDefs
import proofs.«114601_j46170898432201_2_alg».proof.Proof.KRow
import proofs.«114601_j46170898432201_2_alg».proof.Proof.KPay
import proofs.«114601_j46170898432201_2_alg».proof.Proof.KList
import Idealize.ShloMosaic.Lib.Pipeline.Value
import Idealize.ShloMosaic.Lib.ValueIdx

set_option maxRecDepth 16384

noncomputable section

open scoped BigOperators

namespace Cert.KernelIdeal.KBody

open Cert.KernelIdeal Cert.KernelIdeal.Gen Idealize.ShloMosaic Idealize.ShloMosaic.TcCoe Idealize.ShloMosaic.ValueIdx Idealize.SL.Sem

theorem hz3 : (![0, 0, 0] : Fin 3 → Nat) = fun _ => 0 := by funext a; fin_cases a <;> rfl
theorem hz2 : (![0, 0] : Fin 2 → Nat) = fun _ => 0 := by funext a; fin_cases a <;> rfl

/-- What the body leaves in the output block, entry by entry: the specification's entry over the tile's two heads
    (outputs 0–63 of the fused head are the mean, outputs 64–2143 the packed scale entries) and the tile's draws. -/
theorem out_eq (c : Dev nD) (i : grid0.Coords) (arg1 : Memref sig .tc .vmem S128x512 .f32) (harg1 : arg1.IsWhole) (arg2 : Memref sig .tc .vmem S2144x512 .bf16) (harg2 : arg2.IsWhole) (arg3 : Memref sig .tc .vmem S1x2144 .f32) (harg3 : arg3.IsWhole) (arg4 : Memref sig .tc .vmem S128x64x100 .f32) (harg4 : arg4.IsWhole) (arg5 : Memref sig .tc .vmem S128x64x100 .f32) (harg5 : arg5.IsWhole) (arg6 : Memref sig .tc .vmem S128x64x64 .f32) (harg6 : arg6.IsWhole)
    (x0 : Vec Ideal S128x512 .f32) (x1 : Vec Ideal S2144x512 .bf16) (x2 : Vec Ideal S1x2144 .f32) (x3 : Vec Ideal S128x64x100 .f32)
    (b : Fin 128) (r : Fin 64) (mm : Fin 100) :
    out0_A_4 (F := Ideal) c i arg1 harg1 arg2 harg2 arg3 harg3 arg4 harg4 arg5 harg5 arg6 harg6 x0 x1 x2 x3 (ix3 b r mm)
      = Cert.Spec.entry (Cert.Spec.sp δ) Cert.Spec.sg
          (fun b k => cK x0 x1 x2 b ⟨k.val, by omega⟩) (fun b n => cK x0 x1 x2 b ⟨64 + n.val, by omega⟩) x3 b r mm := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  rw [View.canon_unit_zero hz3]
  unfold kernelRun0_A.sl.r kernelRun0_A.sl.r_101 kernelRun0_A.sl.v1868
  simp only [View.readAt_eq_ld, Memref.IsWhole.read_unread, View.ld_unit_zero (S := S128x512) hz2, View.ld_unit_zero (S := S2144x512) hz2, View.ld_unit_zero (S := S1x2144) hz2, View.ld_unit_zero (S := S128x64x100) hz3]
  rw [View.readCov_eq_canon', KPay.pay1_apply, KPay.pay3_apply]
  unfold Cert.Spec.entry
  refine congrArg Cert.Spec.sg (congrArg (cK x0 x1 x2 b ⟨r.val, by omega⟩ + ·) (Finset.sum_congr rfl fun j _ => ?_))
  refine congrArg (· * x3 (ix3 b j mm)) ?_
  rw [KPay.pay190_eq]
  refine (congrFun (View.ld_unit_zero (S := S128x64x64) hz3 inb_S128x64x64_S128x64x64_0_0_0
    (View.canon (kernelRun0_A.sl.HS0_65 (F := Ideal) c arg1 harg1 arg2 harg2 arg3 harg3 x0 x1 x2))) (ix3 b r j)).trans ?_
  rw [KList.canon_eq]
  have hcs : (fun (b : Fin 128) (n : Fin 2080) => k0_pay4 (F := Ideal) x0 x1 x2 (ix2 b n))
      = fun b n => cK x0 x1 x2 b ⟨64 + n.val, by omega⟩ := by
    funext b n; exact KPay.pay4_apply x0 x1 x2 b n
  rw [hcs]
  rfl

end Cert.KernelIdeal.KBody

end
-- ==== Proof.KHost.lean ====
/-
  The kernel's four input windows, read at an index, as entries of the six argument arrays.

  The batch input `x` and the draws `eps` are tiled along the batch axis in blocks of 128 rows: block `t`
  holds rows `128 t … 128 t + 127`. The weight and bias windows are whole arrays that the host prefix
  builds: the two heads' weights stacked along the output axis (rows 0–63 the mean head, rows 64–2143 the
  packed scale head), narrowed to a shorter float type (the identity on extended reals), and the two
  biases stacked the same way and viewed as a single row.
-/
import proofs.«114601_j46170898432201_2_alg».proof.Proof.Gen.KernelIdeal.Value
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section
open scoped BigOperators

namespace Cert.KernelIdeal.KHost

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The printed index maps, decided over the 32 grid points: the batch-tiled windows sit at block `t` along the
    batch axis and at block 0 elsewhere; the weight and bias windows are whole arrays (block 0 on every axis). -/
theorem idx_facts : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = 0 ∧ win0_2.index t (1 : Fin 2) = 0
  ∧ win0_3.index t (0 : Fin 3) = t.val ∧ win0_3.index t (1 : Fin 3) = 0 ∧ win0_3.index t (2 : Fin 3) = 0
  ∧ win0_4.index t (0 : Fin 3) = t.val ∧ win0_4.index t (1 : Fin 3) = 0 ∧ win0_4.index t (2 : Fin 3) = 0 :=
  (by decide +kernel : ∀ t : Fin grid0.N, _)

/-- Tile `t` of the batch input is rows `128 t … 128 t + 127` of `x`. -/
theorem iblk0_apply (c : Dev nD) (t : Fin cfg0.N) (b : Fin 128) (q : Fin 512) (hr : 128 * t.val + b.val < 4096) :
    (iblk m c 0 t : Vec Ideal S128x512 .f32) (ix2 b q)
      = (m ((c : Thread nD τ).loc main_arg0) : S4096x512.Idx → EReal) (ix2 ⟨128 * t.val + b.val, hr⟩ q) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 128 + 1 * b.val = 128 * t.val + b.val; rw [e0]; omega
  | ⟨1, _⟩ => show win0_0.index t (1 : Fin 2) * 512 + 1 * q.val = q.val; rw [e1]; omega

/-- Tile `t` of the draws is batch rows `128 t … 128 t + 127` of `eps`. -/
theorem iblk3_apply (c : Dev nD) (t : Fin cfg0.N) (b : Fin 128) (j : Fin 64) (mm : Fin 100) (hr : 128 * t.val + b.val < 4096) :
    (iblk m c 3 t : Vec Ideal S128x64x100 .f32) (ix3 b j mm)
      = (m ((c : Thread nD τ).loc main_arg1) : S4096x64x100.Idx → EReal) (ix3 ⟨128 * t.val + b.val, hr⟩ j mm) := by
  obtain ⟨-, -, -, -, -, -, e0, e1, e2, -⟩ := idx_facts t
  unfold iblk
  rw [View.read_apply]
  show V m c main_arg1 _ = _
  rw [V_main_arg1]
  congr 1
  funext a
  apply Fin.ext
  match a with
  | ⟨0, _⟩ => show win0_3.index t (0 : Fin 3) * 128 + 1 * b.val = 128 * t.val + b.val; rw [e0]; omega
  | ⟨1, _⟩ => show win0_3.index t (1 : Fin 3) * 64 + 1 * j.val = j.val; rw [e1]; omega
  | ⟨2, _⟩ => show win0_3.index t (2 : Fin 3) * 100 + 1 * mm.val = mm.val; rw [e2]; omega

/-- The weight the region finds: the two heads' weights stacked along the output axis (the narrowing conversion is the
    identity on extended reals). -/
theorem V1_eq (c : Dev nD) : (V m c main_v1 : S2144x512.Idx → EReal)
      = truncf (F := Ideal) .bf16 (concatenate S2144x512 0 [⟨S64x512, (m ((c : Thread nD τ).loc main_arg2) : S64x512.Idx → EReal)⟩, ⟨S2080x512, (m ((c : Thread nD τ).loc main_arg4) : S2080x512.Idx → EReal)⟩] concatenates_S64x512_S2080x512_S2144x512_d0) bitsLt_bf16_f32 := by
  dsimp only [Gen.V, Gen.hostOps0]; after_results

/-- The stacked weight at a row below 64 is the mean head's weight row. -/
theorem V1_lo (c : Dev nD) (n : Fin 2144) (q : Fin 512) (hn : n.val < 64) :
    (V m c main_v1 : S2144x512.Idx → EReal) (ix2 n q)
      = (m ((c : Thread nD τ).loc main_arg2) : S64x512.Idx → EReal) (ix2 (⟨n.val, hn⟩ : Fin 64) q) := by
  rw [V1_eq, truncf_apply]
  exact concatenate_pair_apply_left (t := S2144x512) (s₁ := S64x512) (s₂ := S2080x512) (0 : Fin 2) _ _ _ (ix2 n q) rfl (ix2 (⟨n.val, hn⟩ : Fin 64) q)
    (fun b => by match b with | ⟨0, _⟩ => rfl | ⟨1, _⟩ => rfl)

/-- The stacked weight at row `64 + k` is row `k` of the scale head's weight. -/
theorem V1_hi (c : Dev nD) (n : Fin 2144) (q : Fin 512) (k : Fin 2080) (hn : n.val = 64 + k.val) :
    (V m c main_v1 : S2144x512.Idx → EReal) (ix2 n q)
      = (m ((c : Thread nD τ).loc main_arg4) : S2080x512.Idx → EReal) (ix2 k q) := by
  rw [V1_eq, truncf_apply]
  refine concatenate_pair_apply_right (t := S2144x512) (s₁ := S64x512) (s₂ := S2080x512) (0 : Fin 2) _ _ _ (ix2 n q) rfl rfl (ix2 k q) (fun b hb => ?_) ?_
  · match b with
    | ⟨0, _⟩ => exact absurd rfl hb
    | ⟨1, _⟩ => rfl
  · show k.val + 64 = n.val
    omega

/-- The bias the region finds: the two heads' biases stacked, as one row. -/
theorem V3_eq (c : Dev nD) : (V m c main_v3 : S1x2144.Idx → EReal)
      = shapeCast S1x2144 (concatenate S2144 0 [⟨S64, (m ((c : Thread nD τ).loc main_arg3) : S64.Idx → EReal)⟩, ⟨S2080, (m ((c : Thread nD τ).loc main_arg5) : S2080.Idx → EReal)⟩] concatenates_S64_S2080_S2144_d0) shapeCasts_S2144_S1x2144 := by
  dsimp only [Gen.V, Gen.hostOps0]; after_results; rfl

/-- The stacked bias at a position below 64 is the mean head's bias. -/
theorem V3_lo (c : Dev nD) (n : Fin 2144) (hn : n.val < 64) :
    (V m c main_v3 : S1x2144.Idx → EReal) (ix2 (0 : Fin 1) n)
      = (m ((c : Thread nD τ).loc main_arg3) : S64.Idx → EReal) (ix1 (⟨n.val, hn⟩ : Fin 64)) := by
  rw [V3_eq]
  refine (shapeCast_apply _ _ (ix2 (0 : Fin 1) n) (ix1 n) ?_).trans ?_
  · rw [Shape.rowMajor_val_one, Shape.rowMajor_val_two]
    show n.val = 0 * 2144 + n.val
    omega
  · exact concatenate_pair_apply_left (t := S2144) (s₁ := S64) (s₂ := S2080) (0 : Fin 1) _ _ _ (ix1 n) rfl (ix1 (⟨n.val, hn⟩ : Fin 64))
      (fun b => by match b with | ⟨0, _⟩ => rfl)

/-- The stacked bias at position `64 + k` is entry `k` of the scale head's bias. -/
theorem V3_hi (c : Dev nD) (n : Fin 2144) (k : Fin 2080) (hn : n.val = 64 + k.val) :
    (V m c main_v3 : S1x2144.Idx → EReal) (ix2 (0 : Fin 1) n)
      = (m ((c : Thread nD τ).loc main_arg5) : S2080.Idx → EReal) (ix1 k) := by
  rw [V3_eq]
  refine (shapeCast_apply _ _ (ix2 (0 : Fin 1) n) (ix1 n) ?_).trans ?_
  · rw [Shape.rowMajor_val_one, Shape.rowMajor_val_two]
    show n.val = 0 * 2144 + n.val
    omega
  · refine concatenate_pair_apply_right (t := S2144) (s₁ := S64) (s₂ := S2080) (0 : Fin 1) _ _ _ (ix1 n) rfl rfl (ix1 k) (fun b hb => ?_) ?_
    · match b with
      | ⟨0, _⟩ => exact absurd rfl hb
    · show k.val + 64 = n.val
      omega

/-- The weight window's block is the whole stacked weight at every point. -/
theorem iblk1_apply (c : Dev nD) (t : Fin cfg0.N) (n : Fin 2144) (q : Fin 512) :
    (iblk m c 1 t : Vec Ideal S2144x512 .bf16) (ix2 n q) = (V m c main_v1 : S2144x512.Idx → EReal) (ix2 n q) := by
  obtain ⟨-, -, e0, e1, -⟩ := idx_facts t
  unfold iblk
  rw [View.read_apply]
  show V m c main_v1 _ = _
  congr 1
  funext a
  apply Fin.ext
  match a with
  | ⟨0, _⟩ => show win0_1.index t (0 : Fin 2) * 2144 + 1 * n.val = n.val; rw [e0]; omega
  | ⟨1, _⟩ => show win0_1.index t (1 : Fin 2) * 512 + 1 * q.val = q.val; rw [e1]; omega

/-- The bias window's block is the whole stacked bias row at every point. -/
theorem iblk2_apply (c : Dev nD) (t : Fin cfg0.N) (n : Fin 2144) :
    (iblk m c 2 t : Vec Ideal S1x2144 .f32) (ix2 (0 : Fin 1) n) = (V m c main_v3 : S1x2144.Idx → EReal) (ix2 (0 : Fin 1) n) := by
  obtain ⟨-, -, -, -, e0, e1, -⟩ := idx_facts t
  unfold iblk
  rw [View.read_apply]
  show V m c main_v3 _ = _
  congr 1
  funext a
  apply Fin.ext
  match a with
  | ⟨0, _⟩ => show win0_2.index t (0 : Fin 2) * 1 + 1 * 0 = 0; rw [e0]
  | ⟨1, _⟩ => show win0_2.index t (1 : Fin 2) * 2144 + 1 * n.val = n.val; rw [e1]; omega

end Cert.KernelIdeal.KHost

end
-- ==== Proof.KArray.lean ====
/-
  From the kernel's blocks to the whole result array.

  The grid has 32 points; point `t` computes, from rows `128 t … 128 t + 127` of the batch input and of the
  draws and from the whole stacked weight and bias, a block of 128 batch rows of the result, and writes it back
  as block `t` of the result array. Entry by entry the block is the specification's entry over the tile's two
  heads; the fused head's outputs 0–63 are the mean head and its outputs 64–2143 the packed scale head at the
  tile's rows of `x`, so each block entry is the specification's result `G` at batch row `128 t + b`. The
  32 blocks tile the array (batch row `r` lies in block `r / 128`), so after the run the array holds `G` of
  the six arguments at every index.
-/
import proofs.«114601_j46170898432201_2_alg».proof.Proof.Gen.KernelIdeal.Value
import proofs.«114601_j46170898432201_2_alg».proof.Proof.KBody
import proofs.«114601_j46170898432201_2_alg».proof.Proof.KHost
import proofs.«114601_j46170898432201_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section
open scoped BigOperators

namespace Cert.KernelIdeal.KArray

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- A grid point is one of 32 tiles, so its rows lie inside the 4096 batch rows. -/
theorem row_lt (t : Fin cfg0.N) (b : Fin 128) : 128 * t.val + b.val < 4096 := by
  have h : t.val < 32 := lt_of_lt_of_eq t.isLt N_0
  have := b.isLt
  omega

/-- Outputs 0–63 of the fused head over tile `t` are the mean head at the tile's rows. -/
theorem cK_lo (c : Dev nD) (t : Fin cfg0.N) (b : Fin 128) (k : Fin 64) :
    KBody.cK (iblk m c 0 t) (iblk m c 1 t) (iblk m c 2 t) b ⟨k.val, by omega⟩
      = Cert.Spec.lin (m ((c : Thread nD τ).loc main_arg0)) (m ((c : Thread nD τ).loc main_arg2)) (m ((c : Thread nD τ).loc main_arg3))
          (⟨128 * t.val + b.val, row_lt t b⟩ : Fin 4096) k := by
  unfold KBody.cK Cert.Spec.lin
  congr 1
  · refine Finset.sum_congr rfl fun q _ => ?_
    rw [KHost.iblk0_apply m c t b q (row_lt t b), KHost.iblk1_apply m c t _ q, KHost.V1_lo m c _ q k.isLt]
  · rw [KHost.iblk2_apply m c t _, KHost.V3_lo m c _ k.isLt]

/-- Outputs 64–2143 of the fused head over tile `t` are the packed scale head at the tile's rows. -/
theorem cK_hi (c : Dev nD) (t : Fin cfg0.N) (b : Fin 128) (n : Fin 2080) :
    KBody.cK (iblk m c 0 t) (iblk m c 1 t) (iblk m c 2 t) b ⟨64 + n.val, by omega⟩
      = Cert.Spec.lin (m ((c : Thread nD τ).loc main_arg0)) (m ((c : Thread nD τ).loc main_arg4)) (m ((c : Thread nD τ).loc main_arg5))
          (⟨128 * t.val + b.val, row_lt t b⟩ : Fin 4096) n := by
  unfold KBody.cK Cert.Spec.lin
  congr 1
  · refine Finset.sum_congr rfl fun q _ => ?_
    rw [KHost.iblk0_apply m c t b q (row_lt t b), KHost.iblk1_apply m c t _ q, KHost.V1_hi m c _ q n rfl]
  · rw [KHost.iblk2_apply m c t _, KHost.V3_hi m c _ n rfl]

/-- The scale matrix only reads the packed entries of its own batch row. -/
theorem Lmat_congr {B B' : ℕ} (sp : EReal → EReal) (cs : Fin B → Fin 2080 → EReal) (cs' : Fin B' → Fin 2080 → EReal)
    (b : Fin B) (b' : Fin B') (h : ∀ n, cs b n = cs' b' n) (i j : Fin 64) :
    Cert.Spec.Lmat sp cs b i j = Cert.Spec.Lmat sp cs' b' i j := by
  unfold Cert.Spec.Lmat
  simp only [h]

/-- An entry of the result only reads the two heads and the draws at its own batch row. -/
theorem entry_congr {B B' : ℕ} (sp sg : EReal → EReal) (cm : Fin B → Fin 64 → EReal) (cm' : Fin B' → Fin 64 → EReal)
    (cs : Fin B → Fin 2080 → EReal) (cs' : Fin B' → Fin 2080 → EReal)
    (eps : (⟨3, ![B, 64, 100]⟩ : Shape).Idx → EReal) (eps' : (⟨3, ![B', 64, 100]⟩ : Shape).Idx → EReal)
    (b : Fin B) (b' : Fin B') (hm : ∀ k, cm b k = cm' b' k) (hs : ∀ n, cs b n = cs' b' n)
    (he : ∀ j mm, eps (ix3 b j mm) = eps' (ix3 b' j mm)) (i : Fin 64) (mm : Fin 100) :
    Cert.Spec.entry sp sg cm cs eps b i mm = Cert.Spec.entry sp sg cm' cs' eps' b' i mm := by
  unfold Cert.Spec.entry
  have hj : ∀ j : Fin 64, Cert.Spec.Lmat sp cs b i j * eps (ix3 b j mm) = Cert.Spec.Lmat sp cs' b' i j * eps' (ix3 b' j mm) :=
    fun j => by rw [Lmat_congr sp cs cs' b b' hs i j, he j mm]
  rw [hm i]
  simp only [hj]

/-- The specification's entry over tile `t`'s blocks is the whole result at the tile's row. -/
theorem entry_blk (c : Dev nD) (t : Fin cfg0.N) (b : Fin 128) (r : Fin 64) (mm : Fin 100) :
    Cert.Spec.entry (Cert.Spec.sp KBody.δ) Cert.Spec.sg
        (fun b k => KBody.cK (iblk m c 0 t) (iblk m c 1 t) (iblk m c 2 t) b ⟨k.val, by omega⟩)
        (fun b n => KBody.cK (iblk m c 0 t) (iblk m c 1 t) (iblk m c 2 t) b ⟨64 + n.val, by omega⟩)
        (iblk m c 3 t) b r mm
      = Cert.Spec.G (Cert.Spec.sp KBody.δ) Cert.Spec.sg
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (⟨128 * t.val + b.val, row_lt t b⟩ : Fin 4096) r mm := by
  unfold Cert.Spec.G
  exact entry_congr (Cert.Spec.sp KBody.δ) Cert.Spec.sg
    (fun b k => KBody.cK (iblk m c 0 t) (iblk m c 1 t) (iblk m c 2 t) b ⟨k.val, by omega⟩)
    (fun r k => Cert.Spec.lin (m ((c : Thread nD τ).loc main_arg0)) (m ((c : Thread nD τ).loc main_arg2)) (m ((c : Thread nD τ).loc main_arg3)) r k)
    (fun b n => KBody.cK (iblk m c 0 t) (iblk m c 1 t) (iblk m c 2 t) b ⟨64 + n.val, by omega⟩)
    (fun r k => Cert.Spec.lin (m ((c : Thread nD τ).loc main_arg0)) (m ((c : Thread nD τ).loc main_arg4)) (m ((c : Thread nD τ).loc main_arg5)) r k)
    (iblk m c 3 t) (m ((c : Thread nD τ).loc main_arg1)) b (⟨128 * t.val + b.val, row_lt t b⟩ : Fin 4096)
    (fun k => cK_lo m c t b k) (fun n => cK_hi m c t b n)
    (fun j mm => KHost.iblk3_apply m c t b j mm (row_lt t b)) r mm

/-- The whole result array as a function of its index: the specification at the index's three coordinates. -/
abbrev Garr (c : Dev nD) : S4096x64x100.Idx → EReal := fun y =>
  Cert.Spec.G (Cert.Spec.sp KBody.δ) Cert.Spec.sg
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (y 0) (y 1) (y 2)

/-- What the body leaves at entry `y` of tile `t`'s output block is the result array at the entry's place in the
    array: batch row `128 t + y 0`, the same concept and draw. -/
theorem out_blk (c : Dev nD) (t : Fin cfg0.N) (y : S128x64x100.Idx) :
    out0_A_4 (F := Ideal) c (grid0.coords t) (ms0_0 t) (hs0_0 t) (ms0_1 t) (hs0_1 t) (ms0_2 t) (hs0_2 t) (ms0_3 t) (hs0_3 t)
        (ms0_4 t) (hs0_4 t) scM0_0 (Memref.isWhole_whole _) (iblk m c 0 t) (iblk m c 1 t) (iblk m c 2 t) (iblk m c 3 t) y
      = Garr m c (((cfg0.win 4).blk t).view.emb y) := by
  obtain ⟨b, r, mm, rfl⟩ : ∃ (b : Fin 128) (r : Fin 64) (mm : Fin 100), y = ix3 b r mm := ⟨y 0, y 1, y 2, eq_ix3 y⟩
  obtain ⟨-, -, -, -, -, -, -, -, -, e0, e1, e2⟩ := KHost.idx_facts t
  refine (KBody.out_eq c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t) (iblk m c 3 t) b r mm).trans ?_
  refine (entry_blk m c t b r mm).trans ?_
  have h0 : (⟨128 * t.val + b.val, row_lt t b⟩ : Fin 4096) = ((cfg0.win 4).blk t).view.emb (ix3 b r mm) 0 :=
    Fin.ext (by show 128 * t.val + b.val = win0_4.index t (0 : Fin 3) * 128 + 1 * b.val; rw [e0]; omega)
  have h1 : r = ((cfg0.win 4).blk t).view.emb (ix3 b r mm) 1 :=
    Fin.ext (by show r.val = win0_4.index t (1 : Fin 3) * 64 + 1 * r.val; rw [e1]; omega)
  have h2 : mm = ((cfg0.win 4).blk t).view.emb (ix3 b r mm) 2 :=
    Fin.ext (by show mm.val = win0_4.index t (2 : Fin 3) * 100 + 1 * mm.val; rw [e2]; omega)
  show Cert.Spec.G _ _ _ _ _ _ _ _ _ _ _ = Cert.Spec.G _ _ _ _ _ _ _ _ _ _ _
  congr 1

/-- WHAT POINT `t` WRITES BACK is block `t` of the result array. -/
theorem flushed_eq (c : Dev nD) (t : Fin cfg0.N) :
    (dats m 0 c).flushed 4 t = ((cfg0.win 4).blk t).view.read (Elt Ideal) (Garr m c) := by
  rw [Value.flushed4_A]
  funext y
  exact out_blk m c t y

/-- An index of the array is in point `t`'s block iff each coordinate is in the block's range on its axis. -/
theorem mem_blk (t : Fin cfg0.N) (i : S4096x64x100.Idx) :
    i ∈ ((cfg0.win 4).blk t).view.set ↔ ∀ a : Fin 3, win0_4.index t a * S128x64x100.size a ≤ (i a).val ∧ (i a).val < win0_4.index t a * S128x64x100.size a + S128x64x100.size a := by
  show i ∈ ((View.whole main_v4).slice (win0_4.rect t)).set ↔ _
  rw [View.set_slice_whole, Rect.mem_set_unit]
  exact Iff.rfl

/-- Every index of the array is in some point's block: batch row `r` is in tile `r / 128`. -/
theorem cover (i : S4096x64x100.Idx) :
    ∃ t : Fin cfg0.N, (cfg0.win 4).flush t = true ∧ i ∈ ((cfg0.win 4).blk t).view.set := by
  have hi0 : (i 0).val < 4096 := (i 0).isLt
  have hi1 : (i 1).val < 64 := (i 1).isLt
  have hi2 : (i 2).val < 100 := (i 2).isLt
  have hN : cfg0.N = 32 := N_0
  have ht : (i 0).val / 128 < cfg0.N := by rw [hN]; omega
  obtain ⟨-, -, -, -, -, -, -, -, -, e0, e1, e2⟩ := KHost.idx_facts ⟨(i 0).val / 128, ht⟩
  refine ⟨⟨(i 0).val / 128, ht⟩, flush0_4 _, ?_⟩
  rw [mem_blk]
  intro a
  match a with
  | ⟨0, _⟩ =>
    show win0_4.index ⟨(i 0).val / 128, ht⟩ (0 : Fin 3) * 128 ≤ (i 0).val ∧ (i 0).val < win0_4.index ⟨(i 0).val / 128, ht⟩ (0 : Fin 3) * 128 + 128
    rw [e0]; show (i 0).val / 128 * 128 ≤ (i 0).val ∧ (i 0).val < (i 0).val / 128 * 128 + 128; omega
  | ⟨1, _⟩ =>
    show win0_4.index ⟨(i 0).val / 128, ht⟩ (1 : Fin 3) * 64 ≤ (i 1).val ∧ (i 1).val < win0_4.index ⟨(i 0).val / 128, ht⟩ (1 : Fin 3) * 64 + 64
    rw [e1]; omega
  | ⟨2, _⟩ =>
    show win0_4.index ⟨(i 0).val / 128, ht⟩ (2 : Fin 3) * 100 ≤ (i 2).val ∧ (i 2).val < win0_4.index ⟨(i 0).val / 128, ht⟩ (2 : Fin 3) * 100 + 100
    rw [e2]; omega

/-- THE ARRAY after the run is the result array. -/
theorem final (c : Dev nD) : (dats m 0 c).arrAt 4 cfg0.N = Garr m c :=
  (dats m 0 c).arrAt_eq_of_cover 4 (Garr m c) (fun t _ => flushed_eq m c t) cover

/-- The kernel program's run, read: the result array is the specification of the six argument arrays, index by
    index, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = (fun y => Cert.Spec.G (Cert.Spec.sp KBody.δ) Cert.Spec.sg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1) (y 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KArray

end
-- ==== Proof.RefTerm.lean ====
/-
  The reference program's result as ONE composed term of its six argument arrays: the host operations of its
  `main`, composed in the order the program applies them, with the intermediate values named after what they are —
  the two linear heads (`cmu`, `csig`), the index tables of the two scatters and of the gather, the scale matrix
  after the first scatter (`L1`: the packed entries placed at their (row, column)) and after the second
  (`L2`: the diagonal replaced by softplus of the packed diagonal entries plus the shift), and the tail
  (`tail`: the batched product with the draws, the mean added, the logistic function spelt as a quotient).
-/
import proofs.«114601_j46170898432201_2_alg».proof.ReferenceIdeal

noncomputable section

namespace Cert.ReferenceIdeal.RefTerm

open Cert.ReferenceIdeal Idealize.ShloMosaic

variable {F : FTy → Type} [FloatOps F]
variable [Facts]
open Facts₀ Facts

/-- The mean head: `x · w_muᵀ + b_mu`. -/
def cmu (x : FVec F S4096x512 .f32) (wmu : FVec F S64x512 .f32) (bmu : FVec F S64 .f32) : FVec F S4096x64 .f32 :=
  addf (Host.dotGeneral dot_S4096x512_S512x64_S4096x64_1_0_0_1_n_n none x (transpose S512x64 [1, 0] wmu transposes_S64x512_S512x64_1_0))
    (broadcastInDim S4096x64 ![0, 1] bcast_S1x64_S4096x64_0_1 (broadcastInDim S1x64 ![1] bcast_S64_S1x64_1 bmu))

/-- The packed scale head: `x · w_sigmaᵀ + b_sigma`. -/
def csig (x : FVec F S4096x512 .f32) (wsig : FVec F S2080x512 .f32) (bsig : FVec F S2080 .f32) : FVec F S4096x2080 .f32 :=
  addf (Host.dotGeneral dot_S4096x512_S512x2080_S4096x2080_1_0_0_1_n_n none x (transpose S512x2080 [1, 0] wsig transposes_S2080x512_S512x2080_1_0))
    (broadcastInDim S4096x2080 ![0, 1] bcast_S1x2080_S4096x2080_0_1 (broadcastInDim S1x2080 ![1] bcast_S2080_S1x2080_1 bsig))

/-- The rows of the packed positions (the literal table; the select's mask is all false, so the table itself). -/
def rowsIdx : IVec S2080 32 :=
  select (constantI S2080 1 0#1) (addi (fun i => lit0 (S2080.rowMajor i)) (broadcastInDim S2080 ![] bcast_S_S2080 (constantI S_ 32 64#32)))
    (fun i => lit0 (S2080.rowMajor i))

/-- The columns of the packed positions. -/
def colsIdx : IVec S2080 32 :=
  select (constantI S2080 1 0#1) (addi (fun i => lit1 (S2080.rowMajor i)) (broadcastInDim S2080 ![] bcast_S_S2080 (constantI S_ 32 64#32)))
    (fun i => lit1 (S2080.rowMajor i))

/-- The first scatter's index vectors: (row, column) of each packed position. -/
def idx1 : IVec S2080x2 32 :=
  concatenate S2080x2 1 [⟨S2080x1, broadcastInDim S2080x1 ![0] bcast_S2080_S2080x1_0 rowsIdx⟩,
    ⟨S2080x1, broadcastInDim S2080x1 ![0] bcast_S2080_S2080x1_0 colsIdx⟩] concatenates_S2080x1_S2080x1_S2080x2_d1

/-- The zero matrix the scatters start from. -/
def zeroL : FVec F S4096x64x64 .f32 :=
  broadcastInDim S4096x64x64 ![] bcast_S_S4096x64x64 (constant S_ .f32 0x00000000#32)

/-- The packed entries placed at their (row, column), zeros elsewhere. -/
def L1 (cs : FVec F S4096x2080 .f32) : FVec F S4096x64x64 .f32 :=
  Host.scatter scatter_S4096x64x64_S2080x2_S4096x2080_0_12_12_1 (fun _ b => b) zeroL idx1 cs

/-- The packed positions of the diagonal entries, as the gather's start indices. -/
def diagIdx : IVec S64x1 32 :=
  broadcastInDim S64x1 ![0] bcast_S64_S64x1_0
    (select (constantI S64 1 0#1) (addi (fun i => lit2 (S64.rowMajor i)) (broadcastInDim S64 ![] bcast_S_S64 (constantI S_ 32 2080#32)))
      (fun i => lit2 (S64.rowMajor i)))

/-- The packed diagonal entries. -/
def diagRaw (cs : FVec F S4096x2080 .f32) : FVec F S4096x64 .f32 :=
  Host.gather gather_S4096x2080_S64x1_S4096x64_0_1_n_n_1_1_40961 cs diagIdx

/-- A zero array of the diagonal's shape. -/
def zeroD : FVec F S4096x64 .f32 := broadcastInDim S4096x64 ![] bcast_S_S4096x64 (constant S_ .f32 0x00000000#32)

/-- Softplus spelt as `max a 0 + log1p (exp (-|a - 0|))`, under a select on `a - 0 ≠ a - 0`. -/
def softplus (a : FVec F S4096x64 .f32) : FVec F S4096x64 .f32 :=
  select (cmpf .une (subf a zeroD) (subf a zeroD)) (addf a zeroD)
    (addf (maximumf a zeroD) (Host.log1p (Host.exp (Host.negf (Host.absf (subf a zeroD))))))

/-- The diagonal values: softplus of the packed diagonal entries, plus the shift. -/
def diagVal (cs : FVec F S4096x2080 .f32) : FVec F S4096x64 .f32 :=
  addf (softplus (diagRaw cs)) (broadcastInDim S4096x64 ![] bcast_S_S4096x64 (constant S_ .f32 0x358637BD#32))

/-- 0, 1, …, 63 (the literal table; the select's mask is all false). -/
def iotaIdx : IVec S64 32 :=
  select (constantI S64 1 0#1) (addi (fun i => lit3 (S64.rowMajor i)) (broadcastInDim S64 ![] bcast_S_S64 (constantI S_ 32 64#32)))
    (fun i => lit3 (S64.rowMajor i))

/-- The second scatter's index vectors: (k, k). -/
def idx2 : IVec S64x2 32 :=
  concatenate S64x2 1 [⟨S64x1, broadcastInDim S64x1 ![0] bcast_S64_S64x1_0 iotaIdx⟩,
    ⟨S64x1, broadcastInDim S64x1 ![0] bcast_S64_S64x1_0 iotaIdx⟩] concatenates_S64x1_S64x1_S64x2_d1

/-- The scale matrix: `L1` with its diagonal replaced by the diagonal values. -/
def L2 (cs : FVec F S4096x2080 .f32) : FVec F S4096x64x64 .f32 :=
  Host.scatter scatter_S4096x64x64_S64x2_S4096x64_0_12_12_1 (fun _ b => b) (L1 cs) idx2 (diagVal cs)

/-- An array of ones of the result's shape. -/
def oneR : FVec F S4096x64x100 .f32 := broadcastInDim S4096x64x100 ![] bcast_S_S4096x64x100 (constant S_ .f32 0x3F800000#32)

/-- The tail: the mean broadcast over the draws plus the batched product `L · eps`, through `1 / (1 + exp (-·))`. -/
def tail (cm : FVec F S4096x64 .f32) (L : FVec F S4096x64x64 .f32) (eps : FVec F S4096x64x100 .f32) : FVec F S4096x64x100 .f32 :=
  Host.divf oneR (addf oneR (Host.exp (Host.negf
    (addf (broadcastInDim S4096x64x100 ![0, 1, 2] bcast_S4096x64x1_S4096x64x100_0_1_2 (broadcastInDim S4096x64x1 ![0, 1] bcast_S4096x64_S4096x64x1_0_1 cm))
      (Host.dotGeneral dot_S4096x64x64_S4096x64x100_S4096x64x100_2_1_1_2_0_0 none L eps)))))

/-- The reference's result as one term of its six arguments. -/
def out (x : FVec F S4096x512 .f32) (eps : FVec F S4096x64x100 .f32) (wmu : FVec F S64x512 .f32) (bmu : FVec F S64 .f32)
    (wsig : FVec F S2080x512 .f32) (bsig : FVec F S2080 .f32) : FVec F S4096x64x100 .f32 :=
  tail (cmu x wmu bmu) (L2 (csig x wsig bsig)) eps

end Cert.ReferenceIdeal.RefTerm

end
-- ==== Proof.RefRun.lean ====
/-
  The reference program's run, read back: its `main` is a straight line of eighty host operations (the callee
  softplus's fourteen listed at its one call site, over that call's buffers), so every weakly fair execution
  terminates with each buffer at the fold of the operations' results over the launch contents. Read at the
  result buffer the fold is the composed term `RefTerm.out` of the six argument arrays; read at an argument
  buffer it is the argument itself, no operation writing there.
-/
import proofs.«114601_j46170898432201_2_alg».proof.Proof.RefTerm
import proofs.«114601_j46170898432201_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Facts]
open Facts₀ Facts

/-- The eighty operations of `main`, in program order; the fourteen of the callee stand where it is called. -/
abbrev ops : List (HloOp τ sig (Elt F)) :=
  [ nullary main_c (fun i => lit0 (S2080.rowMajor i)),
    nullary main_c_0 (constantI S2080 1 0#1),
    nullary main_c_1 (fun i => lit1 (S2080.rowMajor i)),
    nullary main_c_2 (constantI S2080 1 0#1),
    nullary main_c_3 (fun i => lit2 (S64.rowMajor i)),
    nullary main_c_4 (constantI S64 1 0#1),
    nullary main_c_5 (fun i => lit3 (S64.rowMajor i)),
    nullary main_c_6 (constantI S64 1 0#1),
    nullary main_c_7 (constantI S64 1 0#1),
    unary main_arg2 main_v0 ((transpose S512x64 [1, 0] · transposes_S64x512_S512x64_1_0) : (⟨S64x512, .f32⟩ : BufTy).Contents (Elt F) → (⟨S512x64, .f32⟩ : BufTy).Contents (Elt F)),
    binary main_arg0 main_v0 main_v1 ((fun l r => Host.dotGeneral dot_S4096x512_S512x64_S4096x64_1_0_0_1_n_n none l r) : (⟨S4096x512, .f32⟩ : BufTy).Contents (Elt F) → (⟨S512x64, .f32⟩ : BufTy).Contents (Elt F) → (⟨S4096x64, .f32⟩ : BufTy).Contents (Elt F)),
    unary main_arg3 main_v2 (broadcastInDim S1x64 ![1] bcast_S64_S1x64_1 : (⟨S64, .f32⟩ : BufTy).Contents (Elt F) → (⟨S1x64, .f32⟩ : BufTy).Contents (Elt F)),
    unary main_v2 main_v3 (broadcastInDim S4096x64 ![0, 1] bcast_S1x64_S4096x64_0_1 : (⟨S1x64, .f32⟩ : BufTy).Contents (Elt F) → (⟨S4096x64, .f32⟩ : BufTy).Contents (Elt F)),
    binary main_v1 main_v3 main_v4 (addf : (⟨S4096x64, .f32⟩ : BufTy).Contents (Elt F) → (⟨S4096x64, .f32⟩ : BufTy).Contents (Elt F) → (⟨S4096x64, .f32⟩ : BufTy).Contents (Elt F)),
    unary main_arg4 main_v5 ((transpose S512x2080 [1, 0] · transposes_S2080x512_S512x2080_1_0) : (⟨S2080x512, .f32⟩ : BufTy).Contents (Elt F) → (⟨S512x2080, .f32⟩ : BufTy).Contents (Elt F)),
    binary main_arg0 main_v5 main_v6 ((fun l r => Host.dotGeneral dot_S4096x512_S512x2080_S4096x2080_1_0_0_1_n_n none l r) : (⟨S4096x512, .f32⟩ : BufTy).Contents (Elt F) → (⟨S512x2080, .f32⟩ : BufTy).Contents (Elt F) → (⟨S4096x2080, .f32⟩ : BufTy).Contents (Elt F)),
    unary main_arg5 main_v7 (broadcastInDim S1x2080 ![1] bcast_S2080_S1x2080_1 : (⟨S2080, .f32⟩ : BufTy).Contents (Elt F) → (⟨S1x2080, .f32⟩ : BufTy).Contents (Elt F)),
    unary main_v7 main_v8 (broadcastInDim S4096x2080 ![0, 1] bcast_S1x2080_S4096x2080_0_1 : (⟨S1x2080, .f32⟩ : BufTy).Contents (Elt F) → (⟨S4096x2080, .f32⟩ : BufTy).Contents (Elt F)),
    binary main_v6 main_v8 main_v9 (addf : (⟨S4096x2080, .f32⟩ : BufTy).Contents (Elt F) → (⟨S4096x2080, .f32⟩ : BufTy).Contents (Elt F) → (⟨S4096x2080, .f32⟩ : BufTy).Contents (Elt F)),
    nullary main_cst (constant S_ .f32 0x00000000#32),
    unary main_cst main_v10 (broadcastInDim S4096x64x64 ![] bcast_S_S4096x64x64 : (⟨S_, .f32⟩ : BufTy).Contents (Elt F) → (⟨S4096x64x64, .f32⟩ : BufTy).Contents (Elt F)),
    nullary main_c_8 (constantI S_ 32 64#32),
    unary main_c_8 main_v11 (broadcastInDim S2080 ![] bcast_S_S2080 : (⟨S_, .i32⟩ : BufTy).Contents (Elt F) → (⟨S2080, .i32⟩ : BufTy).Contents (Elt F)),
    binary main_c main_v11 main_v12 (addi : (⟨S2080, .i32⟩ : BufTy).Contents (Elt F) → (⟨S2080, .i32⟩ : BufTy).Contents (Elt F) → (⟨S2080, .i32⟩ : BufTy).Contents (Elt F)),
    ternary main_c_0 main_v12 main_c main_v13 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    nullary main_c_9 (constantI S_ 32 64#32),
    unary main_c_9 main_v14 (broadcastInDim S2080 ![] bcast_S_S2080 : (⟨S_, .i32⟩ : BufTy).Contents (Elt F) → (⟨S2080, .i32⟩ : BufTy).Contents (Elt F)),
    binary main_c_1 main_v14 main_v15 (addi : (⟨S2080, .i32⟩ : BufTy).Contents (Elt F) → (⟨S2080, .i32⟩ : BufTy).Contents (Elt F) → (⟨S2080, .i32⟩ : BufTy).Contents (Elt F)),
    ternary main_c_2 main_v15 main_c_1 main_v16 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    unary main_v13 main_v17 (broadcastInDim S2080x1 ![0] bcast_S2080_S2080x1_0 : (⟨S2080, .i32⟩ : BufTy).Contents (Elt F) → (⟨S2080x1, .i32⟩ : BufTy).Contents (Elt F)),
    unary main_v16 main_v18 (broadcastInDim S2080x1 ![0] bcast_S2080_S2080x1_0 : (⟨S2080, .i32⟩ : BufTy).Contents (Elt F) → (⟨S2080x1, .i32⟩ : BufTy).Contents (Elt F)),
    binary main_v17 main_v18 main_v19 ((fun a b => concatenate S2080x2 1 [⟨S2080x1, a⟩, ⟨S2080x1, b⟩] concatenates_S2080x1_S2080x1_S2080x2_d1) : (⟨S2080x1, .i32⟩ : BufTy).Contents (Elt F) → (⟨S2080x1, .i32⟩ : BufTy).Contents (Elt F) → (⟨S2080x2, .i32⟩ : BufTy).Contents (Elt F)),
    ternary main_v10 main_v19 main_v9 main_v20 ((fun x i u => Host.scatter scatter_S4096x64x64_S2080x2_S4096x2080_0_12_12_1 (fun _ b => b) x i u) : (⟨S4096x64x64, .f32⟩ : BufTy).Contents (Elt F) → (⟨S2080x2, .i32⟩ : BufTy).Contents (Elt F) → (⟨S4096x2080, .f32⟩ : BufTy).Contents (Elt F) → (⟨S4096x64x64, .f32⟩ : BufTy).Contents (Elt F)),
    nullary main_c_10 (constantI S_ 32 2080#32),
    unary main_c_10 main_v21 (broadcastInDim S64 ![] bcast_S_S64 : (⟨S_, .i32⟩ : BufTy).Contents (Elt F) → (⟨S64, .i32⟩ : BufTy).Contents (Elt F)),
    binary main_c_3 main_v21 main_v22 (addi : (⟨S64, .i32⟩ : BufTy).Contents (Elt F) → (⟨S64, .i32⟩ : BufTy).Contents (Elt F) → (⟨S64, .i32⟩ : BufTy).Contents (Elt F)),
    ternary main_c_4 main_v22 main_c_3 main_v23 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v23 main_v24 (broadcastInDim S64x1 ![0] bcast_S64_S64x1_0 : (⟨S64, .i32⟩ : BufTy).Contents (Elt F) → (⟨S64x1, .i32⟩ : BufTy).Contents (Elt F)),
    binary main_v9 main_v24 main_v25 ((fun x i => Host.gather gather_S4096x2080_S64x1_S4096x64_0_1_n_n_1_1_40961 x i) : (⟨S4096x2080, .f32⟩ : BufTy).Contents (Elt F) → (⟨S64x1, .i32⟩ : BufTy).Contents (Elt F) → (⟨S4096x64, .f32⟩ : BufTy).Contents (Elt F)),
    TRef.nullary main_call0.cst (constant S_ .f32 0x00000000#32),
    TRef.unary main_call0.cst main_call0.v0 (broadcastInDim S4096x64 ![] bcast_S_S4096x64),
    TRef.binary (.of main_v25) main_call0.v0 main_call0.v1 maximumf,
    TRef.unary main_call0.cst main_call0.v2 (broadcastInDim S4096x64 ![] bcast_S_S4096x64),
    TRef.binary (.of main_v25) main_call0.v2 main_call0.v3 subf,
    TRef.binary main_call0.v3 main_call0.v3 main_call0.v4 (cmpf .une),
    TRef.unary main_call0.cst main_call0.v5 (broadcastInDim S4096x64 ![] bcast_S_S4096x64),
    TRef.binary (.of main_v25) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    nullary main_cst_11 (constant S_ .f32 0x358637BD#32),
    unary main_cst_11 main_v27 (broadcastInDim S4096x64 ![] bcast_S_S4096x64 : (⟨S_, .f32⟩ : BufTy).Contents (Elt F) → (⟨S4096x64, .f32⟩ : BufTy).Contents (Elt F)),
    binary main_v26 main_v27 main_v28 (addf : (⟨S4096x64, .f32⟩ : BufTy).Contents (Elt F) → (⟨S4096x64, .f32⟩ : BufTy).Contents (Elt F) → (⟨S4096x64, .f32⟩ : BufTy).Contents (Elt F)),
    nullary main_c_12 (constantI S_ 32 64#32),
    unary main_c_12 main_v29 (broadcastInDim S64 ![] bcast_S_S64 : (⟨S_, .i32⟩ : BufTy).Contents (Elt F) → (⟨S64, .i32⟩ : BufTy).Contents (Elt F)),
    binary main_c_5 main_v29 main_v30 (addi : (⟨S64, .i32⟩ : BufTy).Contents (Elt F) → (⟨S64, .i32⟩ : BufTy).Contents (Elt F) → (⟨S64, .i32⟩ : BufTy).Contents (Elt F)),
    ternary main_c_6 main_v30 main_c_5 main_v31 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    nullary main_c_13 (constantI S_ 32 64#32),
    unary main_c_13 main_v32 (broadcastInDim S64 ![] bcast_S_S64 : (⟨S_, .i32⟩ : BufTy).Contents (Elt F) → (⟨S64, .i32⟩ : BufTy).Contents (Elt F)),
    binary main_c_5 main_v32 main_v33 (addi : (⟨S64, .i32⟩ : BufTy).Contents (Elt F) → (⟨S64, .i32⟩ : BufTy).Contents (Elt F) → (⟨S64, .i32⟩ : BufTy).Contents (Elt F)),
    ternary main_c_7 main_v33 main_c_5 main_v34 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v31 main_v35 (broadcastInDim S64x1 ![0] bcast_S64_S64x1_0 : (⟨S64, .i32⟩ : BufTy).Contents (Elt F) → (⟨S64x1, .i32⟩ : BufTy).Contents (Elt F)),
    unary main_v34 main_v36 (broadcastInDim S64x1 ![0] bcast_S64_S64x1_0 : (⟨S64, .i32⟩ : BufTy).Contents (Elt F) → (⟨S64x1, .i32⟩ : BufTy).Contents (Elt F)),
    binary main_v35 main_v36 main_v37 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    ternary main_v20 main_v37 main_v28 main_v38 ((fun x i u => Host.scatter scatter_S4096x64x64_S64x2_S4096x64_0_12_12_1 (fun _ b => b) x i u) : (⟨S4096x64x64, .f32⟩ : BufTy).Contents (Elt F) → (⟨S64x2, .i32⟩ : BufTy).Contents (Elt F) → (⟨S4096x64, .f32⟩ : BufTy).Contents (Elt F) → (⟨S4096x64x64, .f32⟩ : BufTy).Contents (Elt F)),
    unary main_v4 main_v39 (broadcastInDim S4096x64x1 ![0, 1] bcast_S4096x64_S4096x64x1_0_1 : (⟨S4096x64, .f32⟩ : BufTy).Contents (Elt F) → (⟨S4096x64x1, .f32⟩ : BufTy).Contents (Elt F)),
    binary main_v38 main_arg1 main_v40 ((fun l r => Host.dotGeneral dot_S4096x64x64_S4096x64x100_S4096x64x100_2_1_1_2_0_0 none l r) : (⟨S4096x64x64, .f32⟩ : BufTy).Contents (Elt F) → (⟨S4096x64x100, .f32⟩ : BufTy).Contents (Elt F) → (⟨S4096x64x100, .f32⟩ : BufTy).Contents (Elt F)),
    unary main_v39 main_v41 (broadcastInDim S4096x64x100 ![0, 1, 2] bcast_S4096x64x1_S4096x64x100_0_1_2 : (⟨S4096x64x1, .f32⟩ : BufTy).Contents (Elt F) → (⟨S4096x64x100, .f32⟩ : BufTy).Contents (Elt F)),
    binary main_v41 main_v40 main_v42 (addf : (⟨S4096x64x100, .f32⟩ : BufTy).Contents (Elt F) → (⟨S4096x64x100, .f32⟩ : BufTy).Contents (Elt F) → (⟨S4096x64x100, .f32⟩ : BufTy).Contents (Elt F)),
    unary main_v42 main_v43 (Host.negf : (⟨S4096x64x100, .f32⟩ : BufTy).Contents (Elt F) → (⟨S4096x64x100, .f32⟩ : BufTy).Contents (Elt F)),
    unary main_v43 main_v44 (Host.exp : (⟨S4096x64x100, .f32⟩ : BufTy).Contents (Elt F) → (⟨S4096x64x100, .f32⟩ : BufTy).Contents (Elt F)),
    nullary main_cst_14 (constant S_ .f32 0x3F800000#32),
    unary main_cst_14 main_v45 (broadcastInDim S4096x64x100 ![] bcast_S_S4096x64x100 : (⟨S_, .f32⟩ : BufTy).Contents (Elt F) → (⟨S4096x64x100, .f32⟩ : BufTy).Contents (Elt F)),
    binary main_v45 main_v44 main_v46 (addf : (⟨S4096x64x100, .f32⟩ : BufTy).Contents (Elt F) → (⟨S4096x64x100, .f32⟩ : BufTy).Contents (Elt F) → (⟨S4096x64x100, .f32⟩ : BufTy).Contents (Elt F)),
    nullary main_cst_15 (constant S_ .f32 0x3F800000#32),
    unary main_cst_15 main_v47 (broadcastInDim S4096x64x100 ![] bcast_S_S4096x64x100 : (⟨S_, .f32⟩ : BufTy).Contents (Elt F) → (⟨S4096x64x100, .f32⟩ : BufTy).Contents (Elt F)),
    binary main_v47 main_v46 main_v48 (Host.divf : (⟨S4096x64x100, .f32⟩ : BufTy).Contents (Elt F) → (⟨S4096x64x100, .f32⟩ : BufTy).Contents (Elt F) → (⟨S4096x64x100, .f32⟩ : BufTy).Contents (Elt F)) ]

set_option maxRecDepth 4096 in
set_option maxHeartbeats 4000000 in
/-- `main` is that straight line: its two windows and the callee's body unfolded, the sequencing reassociated. -/
theorem main_eq (c : Dev nD) : main (F := F) c = seq ops := by
  simp only [main, main_part0, main_part1, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub ..,
    nullary_bufs_sub .., nullary_bufs_sub .., nullary_bufs_sub .., unary_bufs_sub .., binary_bufs_sub .., unary_bufs_sub ..,
    unary_bufs_sub .., binary_bufs_sub .., unary_bufs_sub .., binary_bufs_sub .., unary_bufs_sub .., unary_bufs_sub ..,
    binary_bufs_sub .., nullary_bufs_sub .., unary_bufs_sub .., nullary_bufs_sub .., unary_bufs_sub .., binary_bufs_sub ..,
    ternary_bufs_sub .., nullary_bufs_sub .., unary_bufs_sub .., binary_bufs_sub .., ternary_bufs_sub .., unary_bufs_sub ..,
    unary_bufs_sub .., binary_bufs_sub .., ternary_bufs_sub .., nullary_bufs_sub .., unary_bufs_sub .., binary_bufs_sub ..,
    ternary_bufs_sub .., unary_bufs_sub .., binary_bufs_sub .., nullary_bufs_sub .., unary_bufs_sub .., binary_bufs_sub ..,
    unary_bufs_sub .., binary_bufs_sub .., binary_bufs_sub .., unary_bufs_sub .., binary_bufs_sub .., unary_bufs_sub ..,
    unary_bufs_sub .., unary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., ternary_bufs_sub .., unary_bufs_sub .., unary_bufs_sub ..,
    binary_bufs_sub .., ternary_bufs_sub .., unary_bufs_sub .., binary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub ..⟩

set_option maxRecDepth 8192 in
set_option maxHeartbeats 4000000 in
/-- The fold read at the result buffer: each operation's result at its own buffer is its function's value of its
    operands' contents, at any other buffer what was there; what is left is the composed term, definitionally. -/
theorem out_eq (V : Valuation τ sig (Elt F)) :
    after ops V (main_v48 : DevRef τ sig)
      = RefTerm.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 8192 in
set_option maxHeartbeats 4000000 in
/-- No operation writes argument 0: the fold leaves it as it was. -/
theorem arg0_eq (V : Valuation τ sig (Elt F)) :
    after ops V (main_arg0 : DevRef τ sig) = V (main_arg0 : DevRef τ sig) := by
  after_results_simp

set_option maxRecDepth 8192 in
set_option maxHeartbeats 4000000 in
/-- No operation writes argument 1: the fold leaves it as it was. -/
theorem arg1_eq (V : Valuation τ sig (Elt F)) :
    after ops V (main_arg1 : DevRef τ sig) = V (main_arg1 : DevRef τ sig) := by
  after_results_simp

set_option maxRecDepth 8192 in
set_option maxHeartbeats 4000000 in
/-- No operation writes argument 2: the fold leaves it as it was. -/
theorem arg2_eq (V : Valuation τ sig (Elt F)) :
    after ops V (main_arg2 : DevRef τ sig) = V (main_arg2 : DevRef τ sig) := by
  after_results_simp

set_option maxRecDepth 8192 in
set_option maxHeartbeats 4000000 in
/-- No operation writes argument 3: the fold leaves it as it was. -/
theorem arg3_eq (V : Valuation τ sig (Elt F)) :
    after ops V (main_arg3 : DevRef τ sig) = V (main_arg3 : DevRef τ sig) := by
  after_results_simp

set_option maxRecDepth 8192 in
set_option maxHeartbeats 4000000 in
/-- No operation writes argument 4: the fold leaves it as it was. -/
theorem arg4_eq (V : Valuation τ sig (Elt F)) :
    after ops V (main_arg4 : DevRef τ sig) = V (main_arg4 : DevRef τ sig) := by
  after_results_simp

set_option maxRecDepth 8192 in
set_option maxHeartbeats 4000000 in
/-- No operation writes argument 5: the fold leaves it as it was. -/
theorem arg5_eq (V : Valuation τ sig (Elt F)) :
    after ops V (main_arg5 : DevRef τ sig) = V (main_arg5 : DevRef τ sig) := by
  after_results_simp

/-- On every device, for any float values, from any memory with zero counters: every weakly fair execution of
    `main` terminates with the result buffer at the composed term of the six arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v48).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.RefReadT.lean ====
/-
  The reference's two linear heads and its tail, read at one index.

  Each linear head is a matrix product of `x` with the transposed weight plus the bias broadcast down the rows;
  at row `b` and output `k` it is `∑ q, x b q * w k q + bias k`. The tail adds the mean to the batched product
  of the scale matrix with the draws and applies `1 / (1 + e^(-y))`, the logistic function.
-/
import proofs.«114601_j46170898432201_2_alg».proof.Proof.RefTerm
import proofs.«114601_j46170898432201_2_alg».proof.Proof.Spec
import Idealize.ShloMosaic.PureOps.Ideal.Laws
import Idealize.ShloMosaic.Lib.StackMember
import Idealize.ShloMosaic.Lib.ValueLayout
import Idealize.ShloMosaic.Lib.KernelVsHost

noncomputable section

open scoped BigOperators

namespace Cert.ReferenceIdeal.RefReadT

open Idealize.ShloMosaic Idealize.ShloMosaic.ValueIdx Cert.ReferenceIdeal
open Idealize.ShloMosaic.StackMember

variable [Facts]
open Facts₀ Facts

/-- A vector broadcast to one row and then down the rows reads, at `(r, t)`, the vector at `t`. -/
theorem bias_apply {m n : Nat} (hn : n ≠ 1) (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → EReal) (r : Fin m) (t : Fin n) :
    broadcastInDim ⟨2, ![m, n]⟩ ![0, 1] h2 (broadcastInDim ⟨2, ![1, n]⟩ ![1] h1 v) (ix2 r t) = v (ix1 t) := by
  rw [broadcastInDim_oneRow_apply]
  refine broadcastInDim_apply ![1] h1 v (ix2 (0 : Fin 1) t) (ix1 t) ?_
  intro a
  match a with
  | ⟨0, _⟩ =>
    show t.val = if n = 1 then 0 else t.val
    rw [if_neg hn]

/-- The mean head at `(b, k)`: row `b` of `x` against row `k` of the weight, plus the bias at `k`. -/
theorem cmu_eq (x : FVec Ideal S4096x512 .f32) (wmu : FVec Ideal S64x512 .f32) (bmu : FVec Ideal S64 .f32) (b : Fin 4096) (k : Fin 64) :
    RefTerm.cmu (F := Ideal) x wmu bmu (ix2 b k) = Cert.Spec.lin x wmu bmu b k := by
  unfold RefTerm.cmu Cert.Spec.lin
  rw [addf_apply]
  congr 1
  · have h := dotGeneral_plain_apply (m := 4096) (n := 64) (k := 512) none x
      (transpose S512x64 [1, 0] wmu transposes_S64x512_S512x64_1_0) b k
    refine h.trans (Finset.sum_congr rfl fun q _ => ?_)
    rw [transpose_ix2_apply]
  · exact bias_apply (by decide) _ _ bmu b k

/-- The packed scale head at `(b, n)`: row `b` of `x` against row `n` of the weight, plus the bias at `n`. -/
theorem csig_eq (x : FVec Ideal S4096x512 .f32) (wsig : FVec Ideal S2080x512 .f32) (bsig : FVec Ideal S2080 .f32) (b : Fin 4096) (n : Fin 2080) :
    RefTerm.csig (F := Ideal) x wsig bsig (ix2 b n) = Cert.Spec.lin x wsig bsig b n := by
  unfold RefTerm.csig Cert.Spec.lin
  rw [addf_apply]
  congr 1
  · have h := dotGeneral_plain_apply (m := 4096) (n := 2080) (k := 512) none x
      (transpose S512x2080 [1, 0] wsig transposes_S2080x512_S512x2080_1_0) b n
    refine h.trans (Finset.sum_congr rfl fun q _ => ?_)
    rw [transpose_ix2_apply]
  · exact bias_apply (by decide) _ _ bsig b n

/-- The f32 pattern `0x3F800000` is the number one. -/
theorem ofBits_one : Ideal.ofBits .f32 0x3F800000#32 = 1 :=
  IdealRules.sign_bit.ideal_onePat .f32

/-- The array of ones reads one at every index. -/
theorem oneR_apply (j : S4096x64x100.Idx) : RefTerm.oneR (F := Ideal) j = 1 := by
  unfold RefTerm.oneR
  rw [broadcastInDim_apply ![] bcast_S_S4096x64x100 (constant (F := Ideal) S_ .f32 0x3F800000#32) j ix0 (fun a => a.elim0)]
  exact ofBits_one

/-- The mean broadcast over the draws reads, at `(b, i, mm)`, the mean at `(b, i)`. -/
theorem mean_apply (cm : FVec Ideal S4096x64 .f32) (b : Fin 4096) (i : Fin 64) (mm : Fin 100) :
    broadcastInDim S4096x64x100 ![0, 1, 2] bcast_S4096x64x1_S4096x64x100_0_1_2
      (broadcastInDim S4096x64x1 ![0, 1] bcast_S4096x64_S4096x64x1_0_1 cm) (ix3 b i mm) = cm (ix2 b i) := by
  rw [broadcastInDim_apply ![0, 1, 2] bcast_S4096x64x1_S4096x64x100_0_1_2 _ (ix3 b i mm) (ix3 b i (0 : Fin 1)) (fun a => by
    match a with
    | ⟨0, _⟩ => show b.val = if (4096 : ℕ) = 1 then 0 else b.val; rw [if_neg (by decide)]
    | ⟨1, _⟩ => show i.val = if (64 : ℕ) = 1 then 0 else i.val; rw [if_neg (by decide)]
    | ⟨2, _⟩ => show (0 : ℕ) = if (1 : ℕ) = 1 then 0 else mm.val; rw [if_pos rfl])]
  exact broadcastInDim_apply ![0, 1] bcast_S4096x64_S4096x64x1_0_1 cm (ix3 b i (0 : Fin 1)) (ix2 b i) (fun a => by
    match a with
    | ⟨0, _⟩ => show b.val = if (4096 : ℕ) = 1 then 0 else b.val; rw [if_neg (by decide)]
    | ⟨1, _⟩ => show i.val = if (64 : ℕ) = 1 then 0 else i.val; rw [if_neg (by decide)])

/-- The tail at `(b, i, mm)`: the logistic function of the mean plus row `i` of the scale matrix against draw `mm`. -/
theorem tail_eq (cm : FVec Ideal S4096x64 .f32) (L : FVec Ideal S4096x64x64 .f32) (eps : FVec Ideal S4096x64x100 .f32) (b : Fin 4096) (i : Fin 64) (mm : Fin 100) :
    RefTerm.tail (F := Ideal) cm L eps (ix3 b i mm) = Cert.Spec.sg (cm (ix2 b i) + ∑ j : Fin 64, L (ix3 b i j) * eps (ix3 b j mm)) := by
  have hd := dotGeneral_stack_apply (G := 4096) (m := 64) (n := 100) (k := 64)
    dot_S4096x64x64_S4096x64x100_S4096x64x100_2_1_1_2_0_0_wf none L eps b i mm
  unfold RefTerm.tail Cert.Spec.sg Ideal.logistic
  show Ideal.div (RefTerm.oneR (F := Ideal) (ix3 b i mm)) (RefTerm.oneR (F := Ideal) (ix3 b i mm) + Ideal.exp (-(
    broadcastInDim S4096x64x100 ![0, 1, 2] bcast_S4096x64x1_S4096x64x100_0_1_2
      (broadcastInDim S4096x64x1 ![0, 1] bcast_S4096x64_S4096x64x1_0_1 cm) (ix3 b i mm)
    + Host.dotGeneral dot_S4096x64x64_S4096x64x100_S4096x64x100_2_1_1_2_0_0 none L eps (ix3 b i mm)))) = _
  rw [oneR_apply, mean_apply]
  exact congrArg (fun t => Ideal.div 1 (1 + Ideal.exp (-(cm (ix2 b i) + t)))) hd

end Cert.ReferenceIdeal.RefReadT

end
-- ==== Proof.RefReadL.Scatter.lean ====
/-
  Reading a "set" scatter at an index.

  A scatter whose body returns the update is a left fold over the update indices: each update index whose
  result index is inside the operand overwrites the element there. Read at one result index `i'`:
  if no update index lands on `i'` the operand's element survives; if exactly one update index lands on `i'`
  the result is that update's element. Both are proved for a fold of an arbitrary step function that
  behaves like an overwrite at `i'` (by induction on the list), then specialised to the scatter over
  abstract shapes.
-/
import Idealize.ShloMosaic.PureOps.ShapeOps

namespace Cert.ReferenceIdeal.RefReadL

open Idealize.ShloMosaic

section Fold

variable {ι κ α : Type}

/-- A fold of steps, each leaving position `i'` alone unless it lands on `i'`, leaves `i'` alone when
    no step of the list lands on it. -/
theorem foldl_apply_of_forall_ne (step : (ι → α) → κ → ι → α) (g : κ → Option ι) (i' : ι)
    (hne : ∀ r n, g n ≠ some i' → step r n i' = r i') :
    ∀ (l : List κ) (x : ι → α), (∀ n ∈ l, g n ≠ some i') → l.foldl step x i' = x i' := by
  intro l
  induction l with
  | nil => intro x _; rfl
  | cons a t ih =>
    intro x h
    rw [List.foldl_cons, ih _ (fun n hn => h n (List.mem_cons_of_mem _ hn))]
    exact hne x a (h a List.mem_cons_self)

/-- A fold of overwriting steps over a list without repeats, of which exactly one step `n₀` lands on `i'`,
    holds that step's value at `i'`. -/
theorem foldl_apply_of_unique (step : (ι → α) → κ → ι → α) (g : κ → Option ι) (v : κ → α) (i' : ι)
    (hne : ∀ r n, g n ≠ some i' → step r n i' = r i')
    (heq : ∀ r n, g n = some i' → step r n i' = v n)
    (n₀ : κ) (h₀ : g n₀ = some i') :
    ∀ (l : List κ) (x : ι → α), l.Nodup → n₀ ∈ l → (∀ n ∈ l, g n = some i' → n = n₀) →
      l.foldl step x i' = v n₀ := by
  intro l
  induction l with
  | nil => intro x _ hmem; exact absurd hmem List.not_mem_nil
  | cons a t ih =>
    intro x hnd hmem huniq
    rw [List.foldl_cons]
    by_cases hat : a = n₀
    · subst hat
      have hnot : a ∉ t := (List.nodup_cons.1 hnd).1
      rw [foldl_apply_of_forall_ne step g i' hne t _ (fun n hn hgn => by
        have := huniq n (List.mem_cons_of_mem _ hn) hgn
        exact hnot (this ▸ hn))]
      exact heq x a h₀
    · have hmem' : n₀ ∈ t := by
        rcases List.mem_cons.1 hmem with h | h
        · exact absurd h.symm hat
        · exact h
      exact ih _ (List.nodup_cons.1 hnd).2 hmem' (fun n hn => huniq n (List.mem_cons_of_mem _ hn))

end Fold

section Scatter

variable {s si u : Shape} {α : Type} {w : Nat}

/-- A set-scatter read at a result index no update index lands on: the operand's element. -/
theorem scatter_set_apply_of_forall_ne (d : ScatterDims s si u) (x : s.Idx → α) (idx : IVec si w) (upd : u.Idx → α)
    (i' : s.Idx) (h : ∀ j : u.Idx, d.resultIdx? j idx ≠ some i') :
    Host.scatter d (fun _ b => b) x idx upd i' = x i' := by
  unfold Host.scatter
  refine foldl_apply_of_forall_ne _ (fun n => d.resultIdx? (u.rowMajor.symm n) idx) i' ?_ _ x (fun n _ => h _)
  intro r n hn
  dsimp only at hn ⊢
  cases hg : d.resultIdx? (u.rowMajor.symm n) idx with
  | none => rfl
  | some i =>
    have hne : i' ≠ i := fun e => hn (by rw [hg, e])
    simp only [if_neg hne]

/-- A set-scatter read at a result index exactly one update index `j₀` lands on: that update's element. -/
theorem scatter_set_apply_of_unique (d : ScatterDims s si u) (x : s.Idx → α) (idx : IVec si w) (upd : u.Idx → α)
    (i' : s.Idx) (j₀ : u.Idx) (h₀ : d.resultIdx? j₀ idx = some i')
    (huniq : ∀ j : u.Idx, d.resultIdx? j idx = some i' → j = j₀) :
    Host.scatter d (fun _ b => b) x idx upd i' = upd j₀ := by
  unfold Host.scatter
  refine (foldl_apply_of_unique _ (fun n => d.resultIdx? (u.rowMajor.symm n) idx)
    (fun n => upd (u.rowMajor.symm n)) i' ?_ ?_ (u.rowMajor j₀) ?_ (List.finRange u.numel) x
    (List.nodup_finRange _) (List.mem_finRange _) ?_).trans ?_
  · intro r n hn
    dsimp only at hn ⊢
    cases hg : d.resultIdx? (u.rowMajor.symm n) idx with
    | none => rfl
    | some i =>
      have hne : i' ≠ i := fun e => hn (by rw [hg, e])
      simp only [if_neg hne]
  · intro r n hn
    dsimp only at hn ⊢
    rw [hn]
    simp only [if_true]
  · simpa using h₀
  · intro n _ hn
    have := huniq _ hn
    rw [← this]; simp
  · simp

end Scatter

end Cert.ReferenceIdeal.RefReadL
-- ==== Proof.RefReadL.Dims.lean ====
/-
  The index arithmetic of the two scatters and of the gather, over parametric extents.

  The scatters write one element per (batch row `b`, update position `k`): the operand is `[B, n, n]`, the
  index vectors are `[K, 2]` (a row and a column per position) and the updates are `[B, K]`; update `(b, k)`
  lands on `(b, row k, column k)` when both read, as signed integers, inside `[0, n)`, and is dropped otherwise.
  The gather reads, for result `(b, k)`, the operand `[B, N]` at `(b, position k)`, the position read signed
  and clamped to `[0, N - 1]`.
-/
import Idealize.ShloMosaic.PureOps.ShapeOps
import Idealize.ShloMosaic.Lib.ValueIdx

namespace Cert.ReferenceIdeal.RefReadL

open Idealize.ShloMosaic Idealize.ShloMosaic.ValueIdx

section Membership

/-- Membership in a two-element list of axes of a rank-3 shape, by the axis number. -/
theorem not_mem12_of_val0 (a : Fin 3) (ha : a.val = 0) : a ∉ ([1, 2] : List (Fin 3)) := by revert a; decide
theorem mem12_of_val1 (a : Fin 3) (ha : a.val = 1) : a ∈ ([1, 2] : List (Fin 3)) := by revert a; decide
theorem mem12_of_val2 (a : Fin 3) (ha : a.val = 2) : a ∈ ([1, 2] : List (Fin 3)) := by revert a; decide
/-- Membership in a one-element list of axes of a rank-2 shape, by the axis number. -/
theorem not_mem1_of_val0 (a : Fin 2) (ha : a.val = 0) : a ∉ ([1] : List (Fin 2)) := by revert a; decide
theorem mem1_of_val1 (a : Fin 2) (ha : a.val = 1) : a ∈ ([1] : List (Fin 2)) := by revert a; decide
/-- An axis is kept exactly when it is not among the removed ones. -/
theorem mem_kept_iff {s : Shape} (l : List (Fin s.rank)) (a : Fin s.rank) : a ∈ s.kept l ↔ a ∉ l := by
  simp [Shape.kept, List.mem_filter, List.mem_finRange]

end Membership

section SetDims

variable {B n K : Nat}

/-- The scatters' dimension numbers: axis 0 of the updates is the window (the batch rows), the operand's axes 1
    and 2 are inserted, and the two components of an index vector (along axis 1 of the indices) name them. -/
abbrev setDims (B n K : Nat) (wf : ScatterDims.WF ⟨3, ![B, n, n]⟩ ⟨2, ![K, 2]⟩ ⟨2, ![B, K]⟩ [0] [1, 2] [1, 2] 1) :
    ScatterDims ⟨3, ![B, n, n]⟩ ⟨2, ![K, 2]⟩ ⟨2, ![B, K]⟩ where
  updateWindowDims := [0]
  insertedWindowDims := [1, 2]
  scatterDimsToOperandDims := [1, 2]
  indexVectorDim := 1
  wf := wf

variable (wf : ScatterDims.WF ⟨3, ![B, n, n]⟩ ⟨2, ![K, 2]⟩ ⟨2, ![B, K]⟩ [0] [1, 2] [1, 2] 1) {w : Nat}

theorem setDims_start0 (j : (⟨2, ![B, K]⟩ : Shape).Idx) (idx : IVec ⟨2, ![K, 2]⟩ w) (h : 0 < 3) :
    (setDims B n K wf).start j idx ⟨0, h⟩ = 0 := by
  unfold ScatterDims.start
  rw [dif_neg (not_mem12_of_val0 ⟨0, h⟩ rfl : (⟨0, h⟩ : Fin 3) ∉ (setDims B n K wf).scatterDimsToOperandDims)]

theorem setDims_start1 (b : Fin B) (k : Fin K) (idx : IVec ⟨2, ![K, 2]⟩ w) (h : 1 < 3) :
    (setDims B n K wf).start (ix2 b k) idx ⟨1, h⟩ = (idx (ix2 k 0)).toInt := by
  unfold ScatterDims.start
  have hm : (⟨1, h⟩ : Fin 3) ∈ (setDims B n K wf).scatterDimsToOperandDims := mem12_of_val1 ⟨1, h⟩ rfl
  rw [dif_pos hm]
  have hsi : (setDims B n K wf).siIdx (ix2 b k) ⟨List.idxOf (⟨1, h⟩ : Fin 3) (setDims B n K wf).scatterDimsToOperandDims,
      List.idxOf_lt_length_iff.2 hm⟩ = ix2 k 0 := by
    funext a; refine Fin.ext ?_
    match a with
    | ⟨0, _⟩ => rfl
    | ⟨1, _⟩ => rfl
  rw [hsi]

theorem setDims_start2 (b : Fin B) (k : Fin K) (idx : IVec ⟨2, ![K, 2]⟩ w) (h : 2 < 3) :
    (setDims B n K wf).start (ix2 b k) idx ⟨2, h⟩ = (idx (ix2 k 1)).toInt := by
  unfold ScatterDims.start
  have hm : (⟨2, h⟩ : Fin 3) ∈ (setDims B n K wf).scatterDimsToOperandDims := mem12_of_val2 ⟨2, h⟩ rfl
  rw [dif_pos hm]
  have hsi : (setDims B n K wf).siIdx (ix2 b k) ⟨List.idxOf (⟨2, h⟩ : Fin 3) (setDims B n K wf).scatterDimsToOperandDims,
      List.idxOf_lt_length_iff.2 hm⟩ = ix2 k 1 := by
    funext a; refine Fin.ext ?_
    match a with
    | ⟨0, _⟩ => rfl
    | ⟨1, _⟩ => rfl
  rw [hsi]

theorem setDims_window0 (b : Fin B) (k : Fin K) (h : 0 < 3) :
    (setDims B n K wf).window (ix2 b k) ⟨0, h⟩ = b.val := by
  unfold ScatterDims.window
  rw [dif_pos ((mem_kept_iff _ _).2 (not_mem12_of_val0 ⟨0, h⟩ rfl) : (⟨0, h⟩ : Fin 3) ∈ (setDims B n K wf).sKept)]
  rfl

theorem setDims_window1 (j : (⟨2, ![B, K]⟩ : Shape).Idx) (h : 1 < 3) :
    (setDims B n K wf).window j ⟨1, h⟩ = 0 := by
  unfold ScatterDims.window
  rw [dif_neg (fun hm => (mem_kept_iff _ _).1 hm (mem12_of_val1 ⟨1, h⟩ rfl) : (⟨1, h⟩ : Fin 3) ∉ (setDims B n K wf).sKept)]

theorem setDims_window2 (j : (⟨2, ![B, K]⟩ : Shape).Idx) (h : 2 < 3) :
    (setDims B n K wf).window j ⟨2, h⟩ = 0 := by
  unfold ScatterDims.window
  rw [dif_neg (fun hm => (mem_kept_iff _ _).1 hm (mem12_of_val2 ⟨2, h⟩ rfl) : (⟨2, h⟩ : Fin 3) ∉ (setDims B n K wf).sKept)]

/-- Update `(b, k)` lands on `(b', i, j)` exactly when `b' = b` and the position's row and column, read as
    signed integers, are `i` and `j`. -/
theorem setDims_resultIdx?_eq_some_iff (b : Fin B) (k : Fin K) (idx : IVec ⟨2, ![K, 2]⟩ w)
    (b' : Fin B) (i j : Fin n) :
    (setDims B n K wf).resultIdx? (ix2 b k) idx = some (ix3 b' i j) ↔
      b' = b ∧ (idx (ix2 k 0)).toInt = (i.val : Int) ∧ (idx (ix2 k 1)).toInt = (j.val : Int) := by
  unfold ScatterDims.resultIdx?
  constructor
  · intro e
    split at e
    · next hall =>
      have e' := Option.some.inj e
      have p0 : 0 < 3 := by omega
      have p1 : 1 < 3 := by omega
      have p2 : 2 < 3 := by omega
      have h0 := congrArg (fun f => (f ⟨0, p0⟩ : Fin _).val) e'
      have h1 := congrArg (fun f => (f ⟨1, p1⟩ : Fin _).val) e'
      have h2 := congrArg (fun f => (f ⟨2, p2⟩ : Fin _).val) e'
      have a1 := (hall ⟨1, p1⟩).1
      have a2 := (hall ⟨2, p2⟩).1
      simp only [setDims_start0, setDims_start1, setDims_start2, setDims_window0, setDims_window1, setDims_window2]
        at h0 h1 h2 a1 a2
      refine ⟨Fin.ext ?_, ?_, ?_⟩
      · change _ = b'.val at h0; omega
      · change _ = i.val at h1; omega
      · change _ = j.val at h2; omega
    · exact absurd e (by simp)
  · rintro ⟨rfl, h1, h2⟩
    have hall : ∀ a, 0 ≤ (setDims B n K wf).start (ix2 b' k) idx a + (setDims B n K wf).window (ix2 b' k) a ∧
        (setDims B n K wf).start (ix2 b' k) idx a + (setDims B n K wf).window (ix2 b' k) a <
          ((⟨3, ![B, n, n]⟩ : Shape).size a : Int) := by
      intro a
      match a with
      | ⟨0, _⟩ =>
        rw [setDims_start0, setDims_window0]
        have := b'.isLt
        refine ⟨by omega, ?_⟩
        show (0 : Int) + (b'.val : Int) < (B : Int)
        omega
      | ⟨1, _⟩ =>
        rw [setDims_start1, setDims_window1, h1]
        have := i.isLt
        refine ⟨by omega, ?_⟩
        show (i.val : Int) + ((0 : Nat) : Int) < (n : Int)
        omega
      | ⟨2, _⟩ =>
        rw [setDims_start2, setDims_window2, h2]
        have := j.isLt
        refine ⟨by omega, ?_⟩
        show (j.val : Int) + ((0 : Nat) : Int) < (n : Int)
        omega
    rw [dif_pos hall]
    congr 1
    funext a; refine Fin.ext ?_
    match a with
    | ⟨0, q⟩ =>
      show ((setDims B n K wf).start (ix2 b' k) idx ⟨0, q⟩ + (setDims B n K wf).window (ix2 b' k) ⟨0, q⟩).toNat = b'.val
      rw [setDims_start0, setDims_window0]; omega
    | ⟨1, q⟩ =>
      show ((setDims B n K wf).start (ix2 b' k) idx ⟨1, q⟩ + (setDims B n K wf).window (ix2 b' k) ⟨1, q⟩).toNat = i.val
      rw [setDims_start1, setDims_window1, h1]; omega
    | ⟨2, q⟩ =>
      show ((setDims B n K wf).start (ix2 b' k) idx ⟨2, q⟩ + (setDims B n K wf).window (ix2 b' k) ⟨2, q⟩).toNat = j.val
      rw [setDims_start2, setDims_window2, h2]; omega

end SetDims

section DiagDims

variable {B N K : Nat} {α : Type} {w : Nat}

/-- The gather's dimension numbers: whole batch column (axis 0 is the offset axis, slice size `B`), the
    operand's axis 1 collapsed, its position named by the single component of the index vector. -/
abbrev diagDims (B N K : Nat) (wf : GatherDims.WF ⟨2, ![B, N]⟩ ⟨2, ![K, 1]⟩ ⟨2, ![B, K]⟩ [0] [1] [] [1] [] 1 ![B, 1]) :
    GatherDims ⟨2, ![B, N]⟩ ⟨2, ![K, 1]⟩ ⟨2, ![B, K]⟩ where
  offsetDims := [0]
  collapsedSliceDims := [1]
  operandBatchingDims := []
  startIndicesBatchingDims := []
  startIndexMap := [1]
  indexVectorDim := 1
  sliceSizes := ![B, 1]
  wf := wf

/-- The gather read at `(b, k)`: the operand at `(b, position k)`, the position read signed and clamped. -/
theorem gather_diag_apply (hN : 0 < N)
    (wf : GatherDims.WF ⟨2, ![B, N]⟩ ⟨2, ![K, 1]⟩ ⟨2, ![B, K]⟩ [0] [1] [] [1] [] 1 ![B, 1])
    (x : (⟨2, ![B, N]⟩ : Shape).Idx → α) (idx : IVec ⟨2, ![K, 1]⟩ w) (b : Fin B) (k : Fin K) :
    Host.gather (diagDims B N K wf) x idx (ix2 b k) =
      x (ix2 b ⟨min (idx (ix2 k 0)).toInt.toNat (N - 1), by omega⟩) := by
  unfold Host.gather
  congr 1
  funext a
  refine Fin.ext ?_
  match a with
  | ⟨0, h⟩ =>
    show (diagDims B N K wf).start (ix2 b k) idx ⟨0, h⟩ + (diagDims B N K wf).batchCoord (ix2 b k) ⟨0, h⟩ +
      (diagDims B N K wf).offCoord (ix2 b k) ⟨0, h⟩ = b.val
    rw [GatherDims.batchCoord_eq_zero _ _ _ List.not_mem_nil]
    unfold GatherDims.start GatherDims.offCoord
    rw [dif_neg (not_mem1_of_val0 ⟨0, h⟩ rfl : (⟨0, h⟩ : Fin 2) ∉ (diagDims B N K wf).startIndexMap),
      dif_pos ((mem_kept_iff _ _).2 (not_mem1_of_val0 ⟨0, h⟩ rfl) : (⟨0, h⟩ : Fin 2) ∈ (diagDims B N K wf).sKept)]
    simp only [Nat.add_zero, Nat.zero_add]
    rfl
  | ⟨1, h⟩ =>
    show (diagDims B N K wf).start (ix2 b k) idx ⟨1, h⟩ + (diagDims B N K wf).batchCoord (ix2 b k) ⟨1, h⟩ +
      (diagDims B N K wf).offCoord (ix2 b k) ⟨1, h⟩ = min (idx (ix2 k 0)).toInt.toNat (N - 1)
    rw [GatherDims.batchCoord_eq_zero _ _ _ List.not_mem_nil,
      GatherDims.offCoord_eq_zero _ _ _ (fun hm => ((GatherDims.mem_sKept _ _).mp hm).1
        (mem1_of_val1 ⟨1, h⟩ rfl : (⟨1, h⟩ : Fin 2) ∈ (diagDims B N K wf).collapsedSliceDims))]
    simp only [Nat.add_zero]
    unfold GatherDims.start
    have hm : (⟨1, h⟩ : Fin 2) ∈ (diagDims B N K wf).startIndexMap := mem1_of_val1 ⟨1, h⟩ rfl
    rw [dif_pos hm]
    have hsi : (diagDims B N K wf).siIdx (ix2 b k) ⟨List.idxOf (⟨1, h⟩ : Fin 2) (diagDims B N K wf).startIndexMap,
        List.idxOf_lt_length_iff.2 hm⟩ = ix2 k 0 := by
      funext c; refine Fin.ext ?_
      match c with
      | ⟨0, _⟩ => rfl
      | ⟨1, _⟩ => rfl
    rw [hsi]
    rfl

end DiagDims

end Cert.ReferenceIdeal.RefReadL
-- ==== Proof.RefReadL.Tables.lean ====
/-
  The index tables of the two scatters and of the gather, read at an index.

  The first scatter's index vectors are (row, column) of each packed position of the lower triangle: position
  `k` has row `r` and column `c ≤ r < 64` with `tri r + c = k`. The second scatter's are `(k, k)` and the
  gather's start indices are the packed positions of the diagonal, `tri k + k`. The facts about the literal
  tables are closed statements over their finite index ranges, decided by evaluation; the arrays built
  from them (a select on an all-false mask, a reshape to one column, two columns laid side by side) are
  then read entry by entry.
-/
import proofs.«114601_j46170898432201_2_alg».proof.Proof.RefTerm
import proofs.«114601_j46170898432201_2_alg».proof.Proof.Spec
import Idealize.ShloMosaic.Lib.ValueIdx
import Idealize.ShloMosaic.Lib.ValueLayout
import Idealize.ShloMosaic.Lib.Pipeline.Value

namespace Cert.ReferenceIdeal.RefReadL

open Idealize.ShloMosaic Idealize.ShloMosaic.ValueIdx Cert.ReferenceIdeal

/-! ## The literal tables -/

/-- Packed position `i` has a row below 64, a column at most the row, and is the row's offset plus the column. -/
theorem lit01_nat : ∀ i : Nat, i < 2080 →
    (lit0t i).toNat < 64 ∧ (lit1t i).toNat ≤ (lit0t i).toNat ∧ Cert.Spec.tri (lit0t i).toNat + (lit1t i).toNat = i := by
  decide +kernel

theorem lit01_spec (k : Fin 2080) :
    (lit0 k).toNat < 64 ∧ (lit1 k).toNat ≤ (lit0 k).toNat ∧ Cert.Spec.tri (lit0 k).toNat + (lit1 k).toNat = k.val :=
  lit01_nat k.val k.isLt

/-- The diagonal of row `k` sits at packed position `tri k + k`. -/
theorem lit2_spec : ∀ k : Fin 64, (lit2 k).toNat = Cert.Spec.tri k.val + k.val := by decide +kernel

/-- The fourth table is `0, 1, …, 63`. -/
theorem lit3_spec : ∀ k : Fin 64, (lit3 k).toNat = k.val := by decide +kernel

/-! ## The packed lower triangle: a position determines its row and column -/

theorem tri_decomp_unique {r c i j : ℕ} (hc : c ≤ r) (hj : j ≤ i) (h : Cert.Spec.tri r + c = Cert.Spec.tri i + j) :
    r = i ∧ c = j := by
  have key : r = i := by
    rcases Nat.lt_trichotomy r i with hlt | heq | hgt
    · have h1 : Cert.Spec.tri (r + 1) ≤ Cert.Spec.tri i := Cert.Spec.tri_mono hlt
      rw [Cert.Spec.tri_succ] at h1
      omega
    · exact heq
    · have h1 : Cert.Spec.tri (i + 1) ≤ Cert.Spec.tri r := Cert.Spec.tri_mono hgt
      rw [Cert.Spec.tri_succ] at h1
      omega
  subst key
  exact ⟨rfl, by omega⟩

/-! ## The index arrays at an entry -/

variable [Facts]
open Facts₀ Facts

theorem rowsIdx_apply (k : Fin 2080) : RefTerm.rowsIdx (ix1 k) = lit0 k := by
  unfold RefTerm.rowsIdx
  rw [select_apply, constantI_apply, select_zero]
  exact congrArg lit0 (Fin.ext (Shape.rowMajor_val_one _))

theorem colsIdx_apply (k : Fin 2080) : RefTerm.colsIdx (ix1 k) = lit1 k := by
  unfold RefTerm.colsIdx
  rw [select_apply, constantI_apply, select_zero]
  exact congrArg lit1 (Fin.ext (Shape.rowMajor_val_one _))

theorem iotaIdx_apply (k : Fin 64) : RefTerm.iotaIdx (ix1 k) = lit3 k := by
  unfold RefTerm.iotaIdx
  rw [select_apply, constantI_apply, select_zero]
  exact congrArg lit3 (Fin.ext (Shape.rowMajor_val_one _))

/-- A vector of more than one entry reshaped to one column, read at row `k`. -/
theorem column_apply {N w : ℕ} (hN : N ≠ 1) (h : (⟨1, ![N]⟩ : Shape).BroadcastsInDim ⟨2, ![N, 1]⟩ ![0])
    (x : IVec ⟨1, ![N]⟩ w) (k : Fin N) :
    broadcastInDim ⟨2, ![N, 1]⟩ ![0] h x (ix2 k (0 : Fin 1)) = x (ix1 k) := by
  refine broadcastInDim_apply ![0] h x _ (ix1 k) ?_
  intro a
  match a with
  | ⟨0, _⟩ =>
    show k.val = if N = 1 then 0 else k.val
    rw [if_neg hN]

/-- Two columns side by side, read in the first. -/
theorem twoColumns_apply0 {N w : ℕ} (h : Shape.Concatenates [(⟨2, ![N, 1]⟩ : Shape), ⟨2, ![N, 1]⟩] ⟨2, ![N, 2]⟩ 1)
    (x y : IVec ⟨2, ![N, 1]⟩ w) (k : Fin N) :
    concatenate ⟨2, ![N, 2]⟩ 1 [⟨⟨2, ![N, 1]⟩, x⟩, ⟨⟨2, ![N, 1]⟩, y⟩] h (ix2 k (0 : Fin 2)) = x (ix2 k (0 : Fin 1)) := by
  refine concatenate_pair_apply_left (1 : Fin 2) x y h (ix2 k (0 : Fin 2)) rfl (ix2 k (0 : Fin 1)) ?_
  intro b
  match b with
  | ⟨0, _⟩ => rfl
  | ⟨1, _⟩ => rfl

/-- Two columns side by side, read in the second. -/
theorem twoColumns_apply1 {N w : ℕ} (h : Shape.Concatenates [(⟨2, ![N, 1]⟩ : Shape), ⟨2, ![N, 1]⟩] ⟨2, ![N, 2]⟩ 1)
    (x y : IVec ⟨2, ![N, 1]⟩ w) (k : Fin N) :
    concatenate ⟨2, ![N, 2]⟩ 1 [⟨⟨2, ![N, 1]⟩, x⟩, ⟨⟨2, ![N, 1]⟩, y⟩] h (ix2 k (1 : Fin 2)) = y (ix2 k (0 : Fin 1)) := by
  refine concatenate_pair_apply_right (1 : Fin 2) x y h (ix2 k (1 : Fin 2)) rfl rfl (ix2 k (0 : Fin 1)) ?_ rfl
  intro b hb
  match b with
  | ⟨0, _⟩ => rfl
  | ⟨1, _⟩ => exact absurd rfl hb

theorem idx1_apply0 (k : Fin 2080) : RefTerm.idx1 (ix2 k (0 : Fin 2)) = lit0 k := by
  unfold RefTerm.idx1
  rw [twoColumns_apply0, column_apply (by decide), rowsIdx_apply]

theorem idx1_apply1 (k : Fin 2080) : RefTerm.idx1 (ix2 k (1 : Fin 2)) = lit1 k := by
  unfold RefTerm.idx1
  rw [twoColumns_apply1, column_apply (by decide), colsIdx_apply]

theorem idx2_apply0 (k : Fin 64) : RefTerm.idx2 (ix2 k (0 : Fin 2)) = lit3 k := by
  unfold RefTerm.idx2
  rw [twoColumns_apply0, column_apply (by decide), iotaIdx_apply]

theorem idx2_apply1 (k : Fin 64) : RefTerm.idx2 (ix2 k (1 : Fin 2)) = lit3 k := by
  unfold RefTerm.idx2
  rw [twoColumns_apply1, column_apply (by decide), iotaIdx_apply]

theorem diagIdx_apply (k : Fin 64) : RefTerm.diagIdx (ix2 k (0 : Fin 1)) = lit2 k := by
  unfold RefTerm.diagIdx
  rw [column_apply (by decide), select_apply, constantI_apply, select_zero]
  exact congrArg lit2 (Fin.ext (Shape.rowMajor_val_one _))

/-! ## The same, as the signed integers the scatters and the gather read -/

theorem toInt_of_small (x : BitVec 32) (h : x.toNat < 2080) : x.toInt = (x.toNat : ℤ) :=
  BitVec.toInt_eq_toNat_of_lt (by omega)

theorem idx1_row (k : Fin 2080) : (RefTerm.idx1 (ix2 k (0 : Fin 2))).toInt = ((lit0 k).toNat : ℤ) := by
  rw [idx1_apply0]; exact toInt_of_small _ (by have := (lit01_spec k).1; omega)

theorem idx1_col (k : Fin 2080) : (RefTerm.idx1 (ix2 k (1 : Fin 2))).toInt = ((lit1 k).toNat : ℤ) := by
  rw [idx1_apply1]; exact toInt_of_small _ (by have := lit01_spec k; omega)

theorem idx2_row (k : Fin 64) : (RefTerm.idx2 (ix2 k (0 : Fin 2))).toInt = (k.val : ℤ) := by
  rw [idx2_apply0, toInt_of_small _ (by rw [lit3_spec]; omega), lit3_spec]

theorem idx2_col (k : Fin 64) : (RefTerm.idx2 (ix2 k (1 : Fin 2))).toInt = (k.val : ℤ) := by
  rw [idx2_apply1, toInt_of_small _ (by rw [lit3_spec]; omega), lit3_spec]

theorem diagIdx_pos (k : Fin 64) :
    (RefTerm.diagIdx (ix2 k (0 : Fin 1))).toInt.toNat = Cert.Spec.tri k.val + k.val := by
  have hlt : Cert.Spec.tri k.val + k.val < 2080 := Cert.Spec.tri_add_lt k.isLt (le_refl _)
  rw [diagIdx_apply, toInt_of_small _ (by rw [lit2_spec]; exact hlt), lit2_spec]
  rfl

end Cert.ReferenceIdeal.RefReadL
-- ==== Proof.RefReadL.lean ====
/-
  The reference's scale matrix read at an index.

  The matrix is built by two "set" scatters into a zero array: the first places packed entry `k` of batch row
  `b` at (row, column) of position `k`; the second replaces the diagonal entry `(k, k)` by softplus of the
  packed diagonal entry plus the shift. Read at `(b, i, j)`: for `j < i` only the first scatter lands there, from
  the one position `tri i + j`; for `j = i` the second scatter lands there from `k = i`; for `j > i` neither does,
  since every position has its column at most its row, and the zero survives.
-/
import proofs.«114601_j46170898432201_2_alg».proof.Proof.RefReadL.Scatter
import proofs.«114601_j46170898432201_2_alg».proof.Proof.RefReadL.Dims
import proofs.«114601_j46170898432201_2_alg».proof.Proof.RefReadL.Tables
import Idealize.ShloMosaic.PureOps.Ideal.Laws
import Idealize.ShloMosaic.Lib.IdealHost

noncomputable section

namespace Cert.ReferenceIdeal.RefReadL

open Idealize.ShloMosaic Idealize.ShloMosaic.ValueIdx Cert.ReferenceIdeal

variable [Facts]
open Facts₀ Facts

/-- The diagonal shift, as the extended real its 32-bit word encodes. -/
def δ : EReal := Ideal.ofBits .f32 0x358637BD#32

/-! ## The two scatters and the gather are the parametric ones -/

theorem scatter1_eq : scatter_S4096x64x64_S2080x2_S4096x2080_0_12_12_1 =
    setDims 4096 64 2080 scatter_S4096x64x64_S2080x2_S4096x2080_0_12_12_1_wf := rfl

theorem scatter2_eq : scatter_S4096x64x64_S64x2_S4096x64_0_12_12_1 =
    setDims 4096 64 64 scatter_S4096x64x64_S64x2_S4096x64_0_12_12_1_wf := rfl

theorem gather_eq : gather_S4096x2080_S64x1_S4096x64_0_1_n_n_1_1_40961 =
    diagDims 4096 2080 64 gather_S4096x2080_S64x1_S4096x64_0_1_n_n_1_1_40961_wf := rfl

/-! ## A packed position's row and column, from the table -/

/-- Position `tri i + j` with `j ≤ i` has row `i` and column `j`. -/
theorem table_at {k : Fin 2080} {i j : ℕ} (hj : j ≤ i) (hk : k.val = Cert.Spec.tri i + j) :
    (lit0 k).toNat = i ∧ (lit1 k).toNat = j := by
  obtain ⟨_, h2, h3⟩ := lit01_spec k
  exact tri_decomp_unique h2 hj (by omega)

/-! ## The first scatter -/

theorem zeroL_apply (p : S4096x64x64.Idx) : RefTerm.zeroL (F := Ideal) p = 0 := by
  unfold RefTerm.zeroL
  rw [broadcastInDim_scalar_apply, constant_apply, Ideal.ofBits_zero_f32]

/-- On and below the diagonal the first scatter holds the packed entry. -/
theorem L1_lower (cs : FVec Ideal S4096x2080 .f32) (b : Fin 4096) (i j : Fin 64) (h : j.val ≤ i.val) :
    RefTerm.L1 (F := Ideal) cs (ix3 b i j) =
      cs (ix2 b ⟨Cert.Spec.tri i.val + j.val, Cert.Spec.tri_add_lt i.isLt h⟩) := by
  unfold RefTerm.L1
  rw [scatter1_eq]
  refine scatter_set_apply_of_unique _ _ _ _ _ (ix2 b ⟨Cert.Spec.tri i.val + j.val, Cert.Spec.tri_add_lt i.isLt h⟩) ?_ ?_
  · refine (setDims_resultIdx?_eq_some_iff _ _ _ _ _ _ _).2 ⟨rfl, ?_, ?_⟩
    · rw [idx1_row, (table_at h rfl).1]
    · rw [idx1_col, (table_at h rfl).2]
  · intro j' hj'
    obtain ⟨b0, k0, rfl⟩ : ∃ (b0 : Fin 4096) (k0 : Fin 2080), j' = ix2 b0 k0 := ⟨j' 0, j' 1, eq_ix2 j'⟩
    obtain ⟨hb, hr, hc⟩ := (setDims_resultIdx?_eq_some_iff _ _ _ _ _ _ _).1 hj'
    rw [idx1_row] at hr
    rw [idx1_col] at hc
    obtain ⟨_, _, h3⟩ := lit01_spec k0
    have hk : k0 = ⟨Cert.Spec.tri i.val + j.val, Cert.Spec.tri_add_lt i.isLt h⟩ := by
      refine Fin.ext ?_
      have hr' : (lit0 k0).toNat = i.val := by exact_mod_cast hr
      have hc' : (lit1 k0).toNat = j.val := by exact_mod_cast hc
      show k0.val = Cert.Spec.tri i.val + j.val
      rw [← h3, hr', hc']
    rw [hk, hb]

/-- Above the diagonal the first scatter leaves the zero. -/
theorem L1_upper (cs : FVec Ideal S4096x2080 .f32) (b : Fin 4096) (i j : Fin 64) (h : i.val < j.val) :
    RefTerm.L1 (F := Ideal) cs (ix3 b i j) = 0 := by
  unfold RefTerm.L1
  rw [scatter1_eq, scatter_set_apply_of_forall_ne, zeroL_apply]
  intro j' hj'
  obtain ⟨b0, k0, rfl⟩ : ∃ (b0 : Fin 4096) (k0 : Fin 2080), j' = ix2 b0 k0 := ⟨j' 0, j' 1, eq_ix2 j'⟩
  obtain ⟨_, hr, hc⟩ := (setDims_resultIdx?_eq_some_iff _ _ _ _ _ _ _).1 hj'
  rw [idx1_row] at hr
  rw [idx1_col] at hc
  obtain ⟨_, h2, _⟩ := lit01_spec k0
  have hr' : (lit0 k0).toNat = i.val := by exact_mod_cast hr
  have hc' : (lit1 k0).toNat = j.val := by exact_mod_cast hc
  omega

/-! ## The diagonal values -/

theorem zeroD_apply (p : S4096x64.Idx) : RefTerm.zeroD (F := Ideal) p = 0 := by
  unfold RefTerm.zeroD
  rw [broadcastInDim_scalar_apply, constant_apply, Ideal.ofBits_zero_f32]

/-- The packed diagonal entry of row `i`. -/
theorem diagRaw_apply (cs : FVec Ideal S4096x2080 .f32) (b : Fin 4096) (i : Fin 64) :
    RefTerm.diagRaw (F := Ideal) cs (ix2 b i) =
      cs (ix2 b ⟨Cert.Spec.tri i.val + i.val, Cert.Spec.tri_add_lt i.isLt (le_refl _)⟩) := by
  unfold RefTerm.diagRaw
  rw [gather_eq, gather_diag_apply (by decide)]
  have hlt : Cert.Spec.tri i.val + i.val < 2080 := Cert.Spec.tri_add_lt i.isLt (le_refl _)
  congr 2
  refine Fin.ext ?_
  show min (RefTerm.diagIdx (ix2 i (0 : Fin 1))).toInt.toNat (2080 - 1) = Cert.Spec.tri i.val + i.val
  rw [diagIdx_pos]
  omega

/-- Softplus at an entry, over the extended reals: the comparison of a value with itself never holds. -/
theorem softplus_apply (a : FVec Ideal S4096x64 .f32) (p : S4096x64.Idx) :
    RefTerm.softplus (F := Ideal) a p =
      max (a p) 0 + Ideal.log1p (Ideal.exp (-(max (a p - 0) (-(a p - 0))))) := by
  unfold RefTerm.softplus
  rw [select_apply, cmpf_apply, Ideal.cmpf_def]
  have hc : Ideal.cmp .une (subf a RefTerm.zeroD p) (subf a RefTerm.zeroD p) = 0#1 := by
    simp [Ideal.cmp]
  rw [hc, select_zero, addf_apply, maximumf_apply]
  simp only [Host.log1p, Host.exp, Host.negf, Host.absf, subf_apply, zeroD_apply, Ideal.hostUnary_log1p_def,
    Ideal.hostUnary_exp_def, Ideal.hostNegf_def, Ideal.hostAbsf_def, Ideal.negf_def, Ideal.absf_def]

/-- The diagonal value of row `i`: softplus of the packed diagonal entry, plus the shift. -/
theorem diagVal_apply (cs : FVec Ideal S4096x2080 .f32) (b : Fin 4096) (i : Fin 64) :
    RefTerm.diagVal (F := Ideal) cs (ix2 b i) =
      Cert.Spec.sp δ (cs (ix2 b ⟨Cert.Spec.tri i.val + i.val, Cert.Spec.tri_add_lt i.isLt (le_refl _)⟩)) := by
  unfold RefTerm.diagVal
  rw [addf_apply, softplus_apply, diagRaw_apply, broadcastInDim_scalar_apply, constant_apply]
  rfl

/-! ## The second scatter -/

/-- On the diagonal the second scatter holds the diagonal value. -/
theorem L2_diag (cs : FVec Ideal S4096x2080 .f32) (b : Fin 4096) (i : Fin 64) :
    RefTerm.L2 (F := Ideal) cs (ix3 b i i) = RefTerm.diagVal (F := Ideal) cs (ix2 b i) := by
  unfold RefTerm.L2
  rw [scatter2_eq]
  refine scatter_set_apply_of_unique _ _ _ _ _ (ix2 b i) ?_ ?_
  · exact (setDims_resultIdx?_eq_some_iff _ _ _ _ _ _ _).2 ⟨rfl, idx2_row i, idx2_col i⟩
  · intro j' hj'
    obtain ⟨b0, k0, rfl⟩ : ∃ (b0 : Fin 4096) (k0 : Fin 64), j' = ix2 b0 k0 := ⟨j' 0, j' 1, eq_ix2 j'⟩
    obtain ⟨hb, hr, _⟩ := (setDims_resultIdx?_eq_some_iff _ _ _ _ _ _ _).1 hj'
    rw [idx2_row] at hr
    have hk : k0 = i := Fin.ext (by exact_mod_cast hr)
    rw [hk, hb]

/-- Off the diagonal the second scatter leaves the first scatter's entry. -/
theorem L2_off (cs : FVec Ideal S4096x2080 .f32) (b : Fin 4096) (i j : Fin 64) (h : j.val ≠ i.val) :
    RefTerm.L2 (F := Ideal) cs (ix3 b i j) = RefTerm.L1 (F := Ideal) cs (ix3 b i j) := by
  unfold RefTerm.L2
  rw [scatter2_eq, scatter_set_apply_of_forall_ne]
  intro j' hj'
  obtain ⟨b0, k0, rfl⟩ : ∃ (b0 : Fin 4096) (k0 : Fin 64), j' = ix2 b0 k0 := ⟨j' 0, j' 1, eq_ix2 j'⟩
  obtain ⟨_, hr, hc⟩ := (setDims_resultIdx?_eq_some_iff _ _ _ _ _ _ _).1 hj'
  rw [idx2_row] at hr
  rw [idx2_col] at hc
  have hr' : k0.val = i.val := by exact_mod_cast hr
  have hc' : k0.val = j.val := by exact_mod_cast hc
  omega

/-! ## The scale matrix -/

/-- The reference's scale matrix at `(b, i, j)` is the specification's. -/
theorem L2_eq (cs : FVec Ideal S4096x2080 .f32) (b : Fin 4096) (i j : Fin 64) :
    RefTerm.L2 (F := Ideal) cs (ix3 b i j) = Cert.Spec.Lmat (Cert.Spec.sp δ) (fun b n => cs (ix2 b n)) b i j := by
  unfold Cert.Spec.Lmat
  by_cases hle : j.val ≤ i.val
  · rw [dif_pos hle]
    by_cases heq : j.val = i.val
    · rw [if_pos heq]
      obtain rfl : j = i := Fin.ext heq
      rw [L2_diag, diagVal_apply]
    · rw [if_neg heq, L2_off cs b i j heq, L1_lower cs b i j hle]
  · rw [dif_neg hle, L2_off cs b i j (by omega), L1_upper cs b i j (by omega)]

end Cert.ReferenceIdeal.RefReadL

end
-- ==== Proof.RefRead.lean ====
/-
  The reference's whole result read at one index: the specification's function of the six argument arrays.

  The tail read at `(b, i, mm)` is the logistic function of the mean head at `(b, i)` plus the sum over `j` of the
  scale matrix at `(b, i, j)` times the draw at `(b, j, mm)`; the mean head and the packed scale head are the two
  linear heads, and the scale matrix is the lower-triangular matrix built from the packed scale head.
-/
import proofs.«114601_j46170898432201_2_alg».proof.Proof.RefReadT
import proofs.«114601_j46170898432201_2_alg».proof.Proof.RefReadL

noncomputable section

open scoped BigOperators

namespace Cert.ReferenceIdeal.RefRead

open Idealize.ShloMosaic Idealize.ShloMosaic.ValueIdx Cert.ReferenceIdeal

variable [Facts]
open Facts₀ Facts

/-- The reference's result at `(b, i, mm)` is the specification's value there. -/
theorem out_eq (x : FVec Ideal S4096x512 .f32) (eps : FVec Ideal S4096x64x100 .f32) (wmu : FVec Ideal S64x512 .f32) (bmu : FVec Ideal S64 .f32) (wsig : FVec Ideal S2080x512 .f32) (bsig : FVec Ideal S2080 .f32) (b : Fin 4096) (i : Fin 64) (mm : Fin 100) :
    RefTerm.out (F := Ideal) x eps wmu bmu wsig bsig (ix3 b i mm) = Cert.Spec.G (Cert.Spec.sp RefReadL.δ) Cert.Spec.sg x eps wmu bmu wsig bsig b i mm := by
  have hcs : (fun r n => RefTerm.csig (F := Ideal) x wsig bsig (ix2 r n)) = fun r n => Cert.Spec.lin x wsig bsig r n := by
    funext r n; exact RefReadT.csig_eq x wsig bsig r n
  unfold RefTerm.out Cert.Spec.G Cert.Spec.entry
  rw [RefReadT.tail_eq, RefReadT.cmu_eq]
  refine congrArg Cert.Spec.sg (congrArg (Cert.Spec.lin x wmu bmu b i + ·) (Finset.sum_congr rfl fun j _ => ?_))
  rw [RefReadL.L2_eq, hcs]

end Cert.ReferenceIdeal.RefRead

end
-- ==== Proof.lean ====
/-
  Kernel and reference compute one function of the six argument arrays over the extended reals.

  For batch row b, concept i and draw mm both programs end with
  `sg (cmu b i + ∑ j, L b i j * eps b j mm)`: the two linear heads `cmu = x · w_muᵀ + b_mu` and
  `csig = x · w_sigmaᵀ + b_sigma` (the kernel computes both as one product against the concatenated weight and
  bias, the reference as two products), the lower-triangular scale matrix `L` built from the packed entries
  `csig` — `csig b (tri i + j)` below the diagonal, softplus of the packed diagonal entry plus the shift on it,
  zero above (the kernel writes it row by row into a zeroed scratch, the reference scatters the packed entries to
  their (row, column) and then the diagonal values onto the diagonal) —, the batched product with the draws, and the
  logistic function (one operation in the kernel, `1 / (1 + e^(-y))` in the reference: the same extended real).
  No sum is reassociated and no factor moved, so the precondition is never opened.
  The kernel's array is assembled from its 32 batch tiles (each tile's block is the function restricted to its 128
  rows); the reference's run is its host operations composed. The frames of the two kernel programs are the
  generated frame runs; the reference's frame is its run with the result dropped; the idealization rewrote
  nothing, so there is nothing to preserve.
-/
import proofs.«114601_j46170898432201_2_alg».proof.Defs
import proofs.«114601_j46170898432201_2_alg».proof.Proof.Gen.Kernel
import proofs.«114601_j46170898432201_2_alg».proof.Proof.Gen.Kernel.Frame
import proofs.«114601_j46170898432201_2_alg».proof.Proof.Gen.KernelIdeal
import proofs.«114601_j46170898432201_2_alg».proof.Proof.Gen.KernelIdeal.Frame
import proofs.«114601_j46170898432201_2_alg».proof.Proof.Gen.KernelIdeal.Value
import proofs.«114601_j46170898432201_2_alg».proof.Proof.Gen.ReferenceIdeal
import proofs.«114601_j46170898432201_2_alg».proof.Proof.Gen.Pre_finite_inputs
import proofs.«114601_j46170898432201_2_alg».proof.Proof.KArray
import proofs.«114601_j46170898432201_2_alg».proof.Proof.RefRun
import proofs.«114601_j46170898432201_2_alg».proof.Proof.RefRead
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the specification's function of the (agreeing) arguments. -/
theorem algebraic : Cert.algebraic_KernelIdeal_ReferenceIdeal := by
  intro m ρ m' ρ' _ hagree
  refine ⟨_, Cert.KernelIdeal.KArray.run m ρ, ?_⟩
  refine (θ_run Cert.ReferenceIdeal.defs _ _).mono (fun _ h c => ⟨(h c).1.trans ?_, (h c).2⟩)
    (Cert.ReferenceIdeal.RefRun.run (F := Ideal) m' ρ')
  funext y
  obtain ⟨b, i, mm, rfl⟩ : ∃ (b : Fin 4096) (i : Fin 64) (mm : Fin 100), y = ix3 b i mm := ⟨y 0, y 1, y 2, eq_ix3 y⟩
  rw [Cert.ReferenceIdeal.RefRead.out_eq, (hagree c).1, (hagree c).2.1, (hagree c).2.2.1, (hagree c).2.2.2.1,
    (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
